-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S48x41x16x44 : Shape := ⟨4, ![48, 41, 16, 44]⟩
abbrev S48x64x16x44 : Shape := ⟨4, ![48, 64, 16, 44]⟩
abbrev S8x6x41x16x44x3 : Shape := ⟨6, ![8, 6, 41, 16, 44, 3]⟩
abbrev S_ : Shape := ⟨0, ![]⟩

class Facts : Prop where
  bcast_S_S48x41x16x44 : S_.BroadcastsInDim S48x41x16x44 (![] : Fin 0 → Fin S48x41x16x44.rank)
  reducesTo_S48x41x16x44_S_d0_1_2_3 : S48x41x16x44.ReducesTo [0, 1, 2, 3] S_
  h_S_ : 0 < S_.numel
  bcast_S_S48x64x16x44 : S_.BroadcastsInDim S48x64x16x44 (![] : Fin 0 → Fin S48x64x16x44.rank)
  reducesTo_S48x64x16x44_S_d0_1_2_3 : S48x64x16x44.ReducesTo [0, 1, 2, 3] S_
  bcast_S_S8x6x41x16x44x3 : S_.BroadcastsInDim S8x6x41x16x44x3 (![] : Fin 0 → Fin S8x6x41x16x44x3.rank)
  reducesTo_S8x6x41x16x44x3_S_d0_1_2_3_4_5 : S8x6x41x16x44x3.ReducesTo [0, 1, 2, 3, 4, 5] S_

variable [Facts]

def fn {F : FTy → Type} [FloatOps F] (main_arg0 : FVec F S48x41x16x44 .f32) (main_arg1 : FVec F S48x64x16x44 .f32) (main_arg2 : FVec F S8x6x41x16x44x3 .f32) : IVec S_ 1 :=
  let main_v0 : FVec F S48x41x16x44 .f32 := Host.absf main_arg0
  let main_cst : FVec F S_ .f32 := constant S_ .f32 0x7F800000#32
  let main_v1 : FVec F S48x41x16x44 .f32 := broadcastInDim S48x41x16x44 ![] bcast_S_S48x41x16x44 main_cst
  let main_v2 : IVec S48x41x16x44 1 := cmpf .olt main_v0 main_v1
  let main_c : IVec S_ 1 := constantI S_ 1 1#1
  let main_v3 : IVec S_ 1 := (fun x v => Host.reduce IntOp.andi x v reducesTo_S48x41x16x44_S_d0_1_2_3 h_S_) main_v2 main_c
  let main_v4 : FVec F S48x64x16x44 .f32 := Host.absf main_arg1
  let main_cst_0 : FVec F S_ .f32 := constant S_ .f32 0x7F800000#32
  let main_v5 : FVec F S48x64x16x44 .f32 := broadcastInDim S48x64x16x44 ![] bcast_S_S48x64x16x44 main_cst_0
  let main_v6 : IVec S48x64x16x44 1 := cmpf .olt main_v4 main_v5
  let main_c_1 : IVec S_ 1 := constantI S_ 1 1#1
  let main_v7 : IVec S_ 1 := (fun x v => Host.reduce IntOp.andi x v reducesTo_S48x64x16x44_S_d0_1_2_3 h_S_) main_v6 main_c_1
  let main_v8 : IVec S_ 1 := andi main_v3 main_v7
  let main_v9 : FVec F S8x6x41x16x44x3 .f32 := Host.absf main_arg2
  let main_cst_2 : FVec F S_ .f32 := constant S_ .f32 0x7F800000#32
  let main_v10 : FVec F S8x6x41x16x44x3 .f32 := broadcastInDim S8x6x41x16x44x3 ![] bcast_S_S8x6x41x16x44x3 main_cst_2
  let main_v11 : IVec S8x6x41x16x44x3 1 := cmpf .olt main_v9 main_v10
  let main_c_3 : IVec S_ 1 := constantI S_ 1 1#1
  let main_v12 : IVec S_ 1 := (fun x v => Host.reduce IntOp.andi x v reducesTo_S8x6x41x16x44x3_S_d0_1_2_3_4_5 h_S_) main_v11 main_c_3
  let main_v13 : IVec S_ 1 := andi main_v8 main_v12
  main_v13
-- ==== Kernel.lean ====
abbrev S48x41x16x44 : Shape := ⟨4, ![48, 41, 16, 44]⟩
abbrev S48x64x16x44 : Shape := ⟨4, ![48, 64, 16, 44]⟩
abbrev S8x6x41x16x44x3 : Shape := ⟨6, ![8, 6, 41, 16, 44, 3]⟩
abbrev S3 : Shape := ⟨1, ![3]⟩
abbrev S_ : Shape := ⟨0, ![]⟩
abbrev S1x1x1x1x1x3 : Shape := ⟨6, ![1, 1, 1, 1, 1, 3]⟩
abbrev S8x6x41x16x44x1 : Shape := ⟨6, ![8, 6, 41, 16, 44, 1]⟩
abbrev S8x6x41x16x44 : Shape := ⟨5, ![8, 6, 41, 16, 44]⟩
abbrev S8 : Shape := ⟨1, ![8]⟩
abbrev S8x1x1x1x1 : Shape := ⟨5, ![8, 1, 1, 1, 1]⟩
abbrev S48x41x16x44x64 : Shape := ⟨5, ![48, 41, 16, 44, 64]⟩
abbrev S1x41x16x44 : Shape := ⟨4, ![1, 41, 16, 44]⟩
abbrev S1x64x16x44 : Shape := ⟨4, ![1, 64, 16, 44]⟩
abbrev S1x41x16x44x64 : Shape := ⟨5, ![1, 41, 16, 44, 64]⟩
abbrev S41x16x44 : Shape := ⟨3, ![41, 16, 44]⟩
abbrev S16x44 : Shape := ⟨2, ![16, 44]⟩
abbrev S1x16x44 : Shape := ⟨3, ![1, 16, 44]⟩
abbrev S64x16x44 : Shape := ⟨3, ![64, 16, 44]⟩
abbrev S16x44x64 : Shape := ⟨3, ![16, 44, 64]⟩
abbrev S41x16x44x1 : Shape := ⟨4, ![41, 16, 44, 1]⟩
abbrev S1x16x44x64 : Shape := ⟨4, ![1, 16, 44, 64]⟩
abbrev S41x16x44x64 : Shape := ⟨4, ![41, 16, 44, 64]⟩
abbrev S8x6x41x16x44x64 : Shape := ⟨6, ![8, 6, 41, 16, 44, 64]⟩
abbrev S1385472x64 : Shape := ⟨2, ![1385472, 64]⟩
abbrev S1385472 : Shape := ⟨1, ![1385472]⟩
abbrev S320000x64 : Shape := ⟨2, ![320000, 64]⟩
abbrev S1385472x1 : Shape := ⟨2, ![1385472, 1]⟩
abbrev S8x1x200x200x64 : Shape := ⟨5, ![8, 1, 200, 200, 64]⟩
abbrev S8x1x64x200x200 : Shape := ⟨5, ![8, 1, 64, 200, 200]⟩
abbrev S8x64x200x200 : Shape := ⟨4, ![8, 64, 200, 200]⟩

abbrev nBuf : Space → Nat
  | .hbm => 79
  | .vmem => 8
  | .smem => 0
  | _ => 0

abbrev bufTy : (tb : Table) → Fin (tcTables nBuf tb) → BufTy
  | .hbm, ⟨0, _⟩ => ⟨S48x41x16x44, .f32⟩
  | .hbm, ⟨1, _⟩ => ⟨S48x64x16x44, .f32⟩
  | .hbm, ⟨2, _⟩ => ⟨S8x6x41x16x44x3, .f32⟩
  | .hbm, ⟨3, _⟩ => ⟨S3, .f32⟩
  | .hbm, ⟨4, _⟩ => ⟨S3, .f32⟩
  | .hbm, ⟨5, _⟩ => ⟨S_, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S1x1x1x1x1x3, .f32⟩
  | .hbm, ⟨10, _⟩ => ⟨S8x6x41x16x44x3, .f32⟩
  | .hbm, ⟨11, _⟩ => ⟨S8x6x41x16x44x3, .f32⟩
  | .hbm, ⟨12, _⟩ => ⟨S1x1x1x1x1x3, .f32⟩
  | .hbm, ⟨13, _⟩ => ⟨S8x6x41x16x44x3, .f32⟩
  | .hbm, ⟨14, _⟩ => ⟨S8x6x41x16x44x3, .f32⟩
  | .hbm, ⟨15, _⟩ => ⟨S8x6x41x16x44x3, .f32⟩
  | .hbm, ⟨16, _⟩ => ⟨S8x6x41x16x44x3, .i32⟩
  | .hbm, ⟨17, _⟩ => ⟨S8x6x41x16x44x1, .i32⟩
  | .hbm, ⟨18, _⟩ => ⟨S8x6x41x16x44, .i32⟩
  | .hbm, ⟨19, _⟩ => ⟨S8x6x41x16x44x1, .i32⟩
  | .hbm, ⟨20, _⟩ => ⟨S8x6x41x16x44, .i32⟩
  | .hbm, ⟨21, _⟩ => ⟨S8x6x41x16x44x1, .i32⟩
  | .hbm, ⟨22, _⟩ => ⟨S8x6x41x16x44, .i32⟩
  | .hbm, ⟨23, _⟩ => ⟨S_, .i32⟩
  | .hbm, ⟨24, _⟩ => ⟨S8x6x41x16x44, .i32⟩
  | .hbm, ⟨25, _⟩ => ⟨S8x6x41x16x44, .i1⟩
  | .hbm, ⟨26, _⟩ => ⟨S_, .i32⟩
  | .hbm, ⟨27, _⟩ => ⟨S8x6x41x16x44, .i32⟩
  | .hbm, ⟨28, _⟩ => ⟨S8x6x41x16x44, .i1⟩
  | .hbm, ⟨29, _⟩ => ⟨S8x6x41x16x44, .i1⟩
  | .hbm, ⟨30, _⟩ => ⟨S_, .i32⟩
  | .hbm, ⟨31, _⟩ => ⟨S8x6x41x16x44, .i32⟩
  | .hbm, ⟨32, _⟩ => ⟨S8x6x41x16x44, .i1⟩
  | .hbm, ⟨33, _⟩ => ⟨S8x6x41x16x44, .i1⟩
  | .hbm, ⟨34, _⟩ => ⟨S_, .i32⟩
  | .hbm, ⟨35, _⟩ => ⟨S8x6x41x16x44, .i32⟩
  | .hbm, ⟨36, _⟩ => ⟨S8x6x41x16x44, .i1⟩
  | .hbm, ⟨37, _⟩ => ⟨S8x6x41x16x44, .i1⟩
  | .hbm, ⟨38, _⟩ => ⟨S_, .i32⟩
  | .hbm, ⟨39, _⟩ => ⟨S8x6x41x16x44, .i32⟩
  | .hbm, ⟨40, _⟩ => ⟨S8x6x41x16x44, .i1⟩
  | .hbm, ⟨41, _⟩ => ⟨S8x6x41x16x44, .i1⟩
  | .hbm, ⟨42, _⟩ => ⟨S_, .i32⟩
  | .hbm, ⟨43, _⟩ => ⟨S8x6x41x16x44, .i32⟩
  | .hbm, ⟨44, _⟩ => ⟨S8x6x41x16x44, .i1⟩
  | .hbm, ⟨45, _⟩ => ⟨S8x6x41x16x44, .i1⟩
  | .hbm, ⟨46, _⟩ => ⟨S8, .i32⟩
  | .hbm, ⟨47, _⟩ => ⟨S8x1x1x1x1, .i32⟩
  | .hbm, ⟨48, _⟩ => ⟨S_, .i32⟩
  | .hbm, ⟨49, _⟩ => ⟨S8x1x1x1x1, .i32⟩
  | .hbm, ⟨50, _⟩ => ⟨S8x1x1x1x1, .i32⟩
  | .hbm, ⟨51, _⟩ => ⟨S8x6x41x16x44, .i32⟩
  | .hbm, ⟨52, _⟩ => ⟨S8x6x41x16x44, .i32⟩
  | .hbm, ⟨53, _⟩ => ⟨S_, .i32⟩
  | .hbm, ⟨54, _⟩ => ⟨S8x6x41x16x44, .i32⟩
  | .hbm, ⟨55, _⟩ => ⟨S8x6x41x16x44, .i32⟩
  | .hbm, ⟨56, _⟩ => ⟨S8x6x41x16x44, .i32⟩
  | .hbm, ⟨57, _⟩ => ⟨S_, .i32⟩
  | .hbm, ⟨58, _⟩ => ⟨S8x6x41x16x44, .i32⟩
  | .hbm, ⟨59, _⟩ => ⟨S8x6x41x16x44, .i32⟩
  | .hbm, ⟨60, _⟩ => ⟨S8x6x41x16x44, .i32⟩
  | .hbm, ⟨61, _⟩ => ⟨S_, .i32⟩
  | .hbm, ⟨62, _⟩ => ⟨S_, .i32⟩
  | .hbm, ⟨63, _⟩ => ⟨S8x6x41x16x44, .i32⟩
  | .hbm, ⟨64, _⟩ => ⟨S8x6x41x16x44, .i32⟩
  | .hbm, ⟨65, _⟩ => ⟨S8x6x41x16x44, .f32⟩
  | .hbm, ⟨66, _⟩ => ⟨S48x41x16x44, .f32⟩
  | .hbm, ⟨67, _⟩ => ⟨S48x41x16x44x64, .bf16⟩
  | .hbm, ⟨68, _⟩ => ⟨S8x6x41x16x44x64, .bf16⟩
  | .hbm, ⟨69, _⟩ => ⟨S8x6x41x16x44x64, .f32⟩
  | .hbm, ⟨70, _⟩ => ⟨S1385472x64, .f32⟩
  | .hbm, ⟨71, _⟩ => ⟨S1385472, .i32⟩
  | .hbm, ⟨72, _⟩ => ⟨S_, .f32⟩
  | .hbm, ⟨73, _⟩ => ⟨S320000x64, .f32⟩
  | .hbm, ⟨74, _⟩ => ⟨S1385472x1, .i32⟩
  | .hbm, ⟨75, _⟩ => ⟨S320000x64, .f32⟩
  | .hbm, ⟨76, _⟩ => ⟨S8x1x200x200x64, .f32⟩
  | .hbm, ⟨77, _⟩ => ⟨S8x1x64x200x200, .f32⟩
  | .hbm, ⟨78, _⟩ => ⟨S8x64x200x200, .f32⟩
  | .local _ .vmem, ⟨0, _⟩ => ⟨S1x41x16x44, .f32⟩
  | .local _ .vmem, ⟨1, _⟩ => ⟨S1x41x16x44, .f32⟩
  | .local _ .vmem, ⟨2, _⟩ => ⟨S1x64x16x44, .f32⟩
  | .local _ .vmem, ⟨3, _⟩ => ⟨S1x64x16x44, .f32⟩
  | .local _ .vmem, ⟨4, _⟩ => ⟨S1x41x16x44, .f32⟩
  | .local _ .vmem, ⟨5, _⟩ => ⟨S1x41x16x44, .f32⟩
  | .local _ .vmem, ⟨6, _⟩ => ⟨S1x41x16x44x64, .bf16⟩
  | .local _ .vmem, ⟨7, _⟩ => ⟨S1x41x16x44x64, .bf16⟩
  | _, _ => ⟨S48x41x16x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_10 : Ref sig .tc := ⟨.hbm, 61, rfl⟩
abbrev main_call0_v0 : Ref sig .tc := ⟨.hbm, 62, rfl⟩
abbrev main_call0_v1 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x41x16x44 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x16x44 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x41x16x44 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x41x16x44x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S3 : S_.BroadcastsInDim S3 (![] : Fin 0 → Fin S3.rank)
  bcast_S3_S1x1x1x1x1x3_5 : S3.BroadcastsInDim S1x1x1x1x1x3 (![5] : Fin 1 → Fin S1x1x1x1x1x3.rank)
  bcast_S1x1x1x1x1x3_S8x6x41x16x44x3_0_1_2_3_4_5 : S1x1x1x1x1x3.BroadcastsInDim S8x6x41x16x44x3 (![0, 1, 2, 3, 4, 5] : Fin 6 → Fin S8x6x41x16x44x3.rank)
  slices_S8x6x41x16x44x3_S8x6x41x16x44x1_0_0_0_0_0_0 : S8x6x41x16x44x3.Slices ![0, 0, 0, 0, 0, 0] S8x6x41x16x44x1
  shapeCasts_S8x6x41x16x44x1_S8x6x41x16x44 : S8x6x41x16x44x1.ShapeCasts S8x6x41x16x44
  slices_S8x6x41x16x44x3_S8x6x41x16x44x1_0_0_0_0_0_1 : S8x6x41x16x44x3.Slices ![0, 0, 0, 0, 0, 1] S8x6x41x16x44x1
  slices_S8x6x41x16x44x3_S8x6x41x16x44x1_0_0_0_0_0_2 : S8x6x41x16x44x3.Slices ![0, 0, 0, 0, 0, 2] S8x6x41x16x44x1
  bcast_S_S8x6x41x16x44 : S_.BroadcastsInDim S8x6x41x16x44 (![] : Fin 0 → Fin S8x6x41x16x44.rank)
  bcast_S8_S8x1x1x1x1_0 : S8.BroadcastsInDim S8x1x1x1x1 (![0] : Fin 1 → Fin S8x1x1x1x1.rank)
  bcast_S_S8x1x1x1x1 : S_.BroadcastsInDim S8x1x1x1x1 (![] : Fin 0 → Fin S8x1x1x1x1.rank)
  bcast_S8x1x1x1x1_S8x6x41x16x44_0_1_2_3_4 : S8x1x1x1x1.BroadcastsInDim S8x6x41x16x44 (![0, 1, 2, 3, 4] : Fin 5 → Fin S8x6x41x16x44.rank)
  shapeCasts_S8x6x41x16x44_S48x41x16x44 : S8x6x41x16x44.ShapeCasts S48x41x16x44
  inb_S1x41x16x44_S1x41x16x44_0_0_0_0 : ∀ a, (![0, 0, 0, 0] : Fin 4 → Nat) a + S1x41x16x44.size a ≤ S1x41x16x44.size a
  h_S1x41x16x44 : 0 < S1x41x16x44.numel
  shapeCasts_S1x41x16x44_S41x16x44 : S1x41x16x44.ShapeCasts S41x16x44
  reduces_S41x16x44_S16x44 : S41x16x44.Reduces [0] S16x44
  shapeCasts_S16x44_S1x16x44 : S16x44.ShapeCasts S1x16x44
  broadcasts_S1x16x44_S41x16x44 : S1x16x44.Broadcasts S41x16x44
  inb_S1x64x16x44_S1x64x16x44_0_0_0_0 : ∀ a, (![0, 0, 0, 0] : Fin 4 → Nat) a + S1x64x16x44.size a ≤ S1x64x16x44.size a
  h_S1x64x16x44 : 0 < S1x64x16x44.numel
  shapeCasts_S1x64x16x44_S64x16x44 : S1x64x16x44.ShapeCasts S64x16x44
  transposes_S64x16x44_p1_2_0_S16x44x64 : S64x16x44.Transposes [1, 2, 0] S16x44x64
  shapeCasts_S41x16x44_S41x16x44x1 : S41x16x44.ShapeCasts S41x16x44x1
  shapeCasts_S16x44x64_S1x16x44x64 : S16x44x64.ShapeCasts S1x16x44x64
  broadcasts_S41x16x44x1_S41x16x44x64 : S41x16x44x1.Broadcasts S41x16x44x64
  broadcasts_S1x16x44x64_S41x16x44x64 : S1x16x44x64.Broadcasts S41x16x44x64
  bitsLt_bf16_f32 : FTy.bits .bf16 < FTy.bits .f32
  inb_S1x41x16x44x64_S1x41x16x44x64_0_0_0_0_0 : ∀ a, (![0, 0, 0, 0, 0] : Fin 5 → Nat) a + S1x41x16x44x64.size a ≤ S1x41x16x44x64.size a
  h_S1x41x16x44x64 : 0 < S1x41x16x44x64.numel
  shapeCasts_S1x41x16x44x64_S41x16x44x64 : S1x41x16x44x64.ShapeCasts S41x16x44x64
  shapeCasts_S41x16x44x64_S1x41x16x44x64 : S41x16x44x64.ShapeCasts S1x41x16x44x64
  packedbf16_S1x41x16x44x64_S1x41x16x44x64_0_0_0_0_0 : (Rect.unit (s := S1x41x16x44x64) ![0, 0, 0, 0, 0] S1x41x16x44x64.size inb_S1x41x16x44x64_S1x41x16x44x64_0_0_0_0_0).PackedRows (EltTy.packing .bf16)
  shapeCasts_S48x41x16x44x64_S8x6x41x16x44x64 : S48x41x16x44x64.ShapeCasts S8x6x41x16x44x64
  shapeCasts_S8x6x41x16x44x64_S1385472x64 : S8x6x41x16x44x64.ShapeCasts S1385472x64
  shapeCasts_S8x6x41x16x44_S1385472 : S8x6x41x16x44.ShapeCasts S1385472
  bcast_S_S320000x64 : S_.BroadcastsInDim S320000x64 (![] : Fin 0 → Fin S320000x64.rank)
  bcast_S1385472_S1385472x1_0 : S1385472.BroadcastsInDim S1385472x1 (![0] : Fin 1 → Fin S1385472x1.rank)
  shapeCasts_S320000x64_S8x1x200x200x64 : S320000x64.ShapeCasts S8x1x200x200x64
  transposes_S8x1x200x200x64_S8x1x64x200x200_0_1_4_2_3 : S8x1x200x200x64.Transposes [0, 1, 4, 2, 3] S8x1x64x200x200
  shapeCasts_S8x1x64x200x200_S8x64x200x200 : S8x1x64x200x200.ShapeCasts S8x64x200x200
  scatter_S320000x64_S1385472x1_S1385472x64_1_0_0_1_wf : ScatterDims.WF S320000x64 S1385472x1 S1385472x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x41x16x44.size a ≤ S48x41x16x44.size a
  hwx0_0 : ∀ i : grid0.Coords, EltTy.bits .f32 = 32 ∨ (Rect.block (s := S48x41x16x44) S1x41x16x44.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x16x44.size a ≤ S48x64x16x44.size a
  hwx0_1 : ∀ i : grid0.Coords, EltTy.bits .f32 = 32 ∨ (Rect.block (s := S48x64x16x44) S1x64x16x44.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x41x16x44.size a ≤ S48x41x16x44.size a
  hwx0_2 : ∀ i : grid0.Coords, EltTy.bits .f32 = 32 ∨ (Rect.block (s := S48x41x16x44) S1x41x16x44.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x41x16x44x64.size a ≤ S48x41x16x44x64.size a
  hwx0_3 : ∀ i : grid0.Coords, EltTy.bits .bf16 = 32 ∨ (Rect.block (s := S48x41x16x44x64) S1x41x16x44x64.size (cc0_transform_3 i) (hinb0_3 i)).WholeWords (EltTy.packing .bf16)

variable [Facts₀]

def scatter_S320000x64_S1385472x1_S1385472x64_1_0_0_1 : ScatterDims S320000x64 S1385472x1 S1385472x64 where
  updateWindowDims := [1]
  insertedWindowDims := [0]
  scatterDimsToOperandDims := [0]
  indexVectorDim := 1
  wf := scatter_S320000x64_S1385472x1_S1385472x64_1_0_0_1_wf

abbrev win0_0 : Pipeline.Window sig grid0 :=
  Pipeline.Window.ofSpec (Memref.whole main_arg0) S1x41x16x44.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x16x44.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x41x16x44.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S1x41x16x44x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S48x41x16x44 : Shape := ⟨4, ![48, 41, 16, 44]⟩
abbrev S48x64x16x44 : Shape := ⟨4, ![48, 64, 16, 44]⟩
abbrev S8x6x41x16x44x3 : Shape := ⟨6, ![8, 6, 41, 16, 44, 3]⟩
abbrev S3 : Shape := ⟨1, ![3]⟩
abbrev S_ : Shape := ⟨0, ![]⟩
abbrev S48x16x44 : Shape := ⟨3, ![48, 16, 44]⟩
abbrev S48x1x16x44 : Shape := ⟨4, ![48, 1, 16, 44]⟩
abbrev S48x1x41x16x44 : Shape := ⟨5, ![48, 1, 41, 16, 44]⟩
abbrev S48x64x1x16x44 : Shape := ⟨5, ![48, 64, 1, 16, 44]⟩
abbrev S48x64x41x16x44 : Shape := ⟨5, ![48, 64, 41, 16, 44]⟩
abbrev S8x6x64x41x16x44 : Shape := ⟨6, ![8, 6, 64, 41, 16, 44]⟩
abbrev S8x6x41x16x44x64 : Shape := ⟨6, ![8, 6, 41, 16, 44, 64]⟩
abbrev S1385472x64 : Shape := ⟨2, ![1385472, 64]⟩
abbrev S1x1x1x1x1x3 : Shape := ⟨6, ![1, 1, 1, 1, 1, 3]⟩
abbrev S1385472x3 : Shape := ⟨2, ![1385472, 3]⟩
abbrev S8 : Shape := ⟨1, ![8]⟩
abbrev S8x173184 : Shape := ⟨2, ![8, 173184]⟩
abbrev S1385472 : Shape := ⟨1, ![1385472]⟩
abbrev S1385472x1 : Shape := ⟨2, ![1385472, 1]⟩
abbrev S320000x64 : Shape := ⟨2, ![320000, 64]⟩
abbrev S8x1x200x200x64 : Shape := ⟨5, ![8, 1, 200, 200, 64]⟩
abbrev S8x1x64x200x200 : Shape := ⟨5, ![8, 1, 64, 200, 200]⟩
abbrev S8x64x200x200 : Shape := ⟨4, ![8, 64, 200, 200]⟩

abbrev nBuf : Space → Nat
  | .hbm => 112
  | .vmem => 0
  | .smem => 0
  | _ => 0

abbrev bufTy : (tb : Table) → Fin (tcTables nBuf tb) → BufTy
  | .hbm, ⟨0, _⟩ => ⟨S48x41x16x44, .f32⟩
  | .hbm, ⟨1, _⟩ => ⟨S48x64x16x44, .f32⟩
  | .hbm, ⟨2, _⟩ => ⟨S8x6x41x16x44x3, .f32⟩
  | .hbm, ⟨3, _⟩ => ⟨S3, .f32⟩
  | .hbm, ⟨4, _⟩ => ⟨S3, .f32⟩
  | .hbm, ⟨5, _⟩ => ⟨S_, .f32⟩
  | .hbm, ⟨6, _⟩ => ⟨S48x16x44, .f32⟩
  | .hbm, ⟨7, _⟩ => ⟨S_, .f32⟩
  | .hbm, ⟨8, _⟩ => ⟨S48x16x44, .f32⟩
  | .hbm, ⟨9, _⟩ => ⟨S48x16x44, .f32⟩
  | .hbm, ⟨10, _⟩ => ⟨S48x1x16x44, .f32⟩
  | .hbm, ⟨11, _⟩ => ⟨S48x41x16x44, .f32⟩
  | .hbm, ⟨12, _⟩ => ⟨S48x41x16x44, .f32⟩
  | .hbm, ⟨13, _⟩ => ⟨S48x41x16x44, .f32⟩
  | .hbm, ⟨14, _⟩ => ⟨S_, .f32⟩
  | .hbm, ⟨15, _⟩ => ⟨S48x16x44, .f32⟩
  | .hbm, ⟨16, _⟩ => ⟨S48x1x16x44, .f32⟩
  | .hbm, ⟨17, _⟩ => ⟨S48x41x16x44, .f32⟩
  | .hbm, ⟨18, _⟩ => ⟨S48x41x16x44, .f32⟩
  | .hbm, ⟨19, _⟩ => ⟨S48x1x41x16x44, .f32⟩
  | .hbm, ⟨20, _⟩ => ⟨S48x64x1x16x44, .f32⟩
  | .hbm, ⟨21, _⟩ => ⟨S48x64x41x16x44, .f32⟩
  | .hbm, ⟨22, _⟩ => ⟨S48x64x41x16x44, .f32⟩
  | .hbm, ⟨23, _⟩ => ⟨S48x64x41x16x44, .f32⟩
  | .hbm, ⟨24, _⟩ => ⟨S8x6x64x41x16x44, .f32⟩
  | .hbm, ⟨25, _⟩ => ⟨S8x6x41x16x44x64, .f32⟩
  | .hbm, ⟨26, _⟩ => ⟨S1385472x64, .f32⟩
  | .hbm, ⟨27, _⟩ => ⟨S_, .f32⟩
  | .hbm, ⟨28, _⟩ => ⟨S3, .f32⟩
  | .hbm, ⟨29, _⟩ => ⟨S3, .f32⟩
  | .hbm, ⟨30, _⟩ => ⟨S3, .f32⟩
  | .hbm, ⟨31, _⟩ => ⟨S1x1x1x1x1x3, .f32⟩
  | .hbm, ⟨32, _⟩ => ⟨S8x6x41x16x44x3, .f32⟩
  | .hbm, ⟨33, _⟩ => ⟨S8x6x41x16x44x3, .f32⟩
  | .hbm, ⟨34, _⟩ => ⟨S1x1x1x1x1x3, .f32⟩
  | .hbm, ⟨35, _⟩ => ⟨S8x6x41x16x44x3, .f32⟩
  | .hbm, ⟨36, _⟩ => ⟨S8x6x41x16x44x3, .f32⟩
  | .hbm, ⟨37, _⟩ => ⟨S8x6x41x16x44x3, .f32⟩
  | .hbm, ⟨38, _⟩ => ⟨S8x6x41x16x44x3, .i32⟩
  | .hbm, ⟨39, _⟩ => ⟨S1385472x3, .i32⟩
  | .hbm, ⟨40, _⟩ => ⟨S8, .i32⟩
  | .hbm, ⟨41, _⟩ => ⟨S8x173184, .i32⟩
  | .hbm, ⟨42, _⟩ => ⟨S1385472, .i32⟩
  | .hbm, ⟨43, _⟩ => ⟨S1385472x1, .i32⟩
  | .hbm, ⟨44, _⟩ => ⟨S1385472, .i32⟩
  | .hbm, ⟨45, _⟩ => ⟨S_, .i32⟩
  | .hbm, ⟨46, _⟩ => ⟨S1385472, .i32⟩
  | .hbm, ⟨47, _⟩ => ⟨S1385472, .i1⟩
  | .hbm, ⟨48, _⟩ => ⟨S1385472x1, .i32⟩
  | .hbm, ⟨49, _⟩ => ⟨S1385472, .i32⟩
  | .hbm, ⟨50, _⟩ => ⟨S_, .i32⟩
  | .hbm, ⟨51, _⟩ => ⟨S1385472, .i32⟩
  | .hbm, ⟨52, _⟩ => ⟨S1385472, .i1⟩
  | .hbm, ⟨53, _⟩ => ⟨S1385472, .i1⟩
  | .hbm, ⟨54, _⟩ => ⟨S1385472x1, .i32⟩
  | .hbm, ⟨55, _⟩ => ⟨S1385472, .i32⟩
  | .hbm, ⟨56, _⟩ => ⟨S_, .i32⟩
  | .hbm, ⟨57, _⟩ => ⟨S1385472, .i32⟩
  | .hbm, ⟨58, _⟩ => ⟨S1385472, .i1⟩
  | .hbm, ⟨59, _⟩ => ⟨S1385472, .i1⟩
  | .hbm, ⟨60, _⟩ => ⟨S1385472x1, .i32⟩
  | .hbm, ⟨61, _⟩ => ⟨S1385472, .i32⟩
  | .hbm, ⟨62, _⟩ => ⟨S_, .i32⟩
  | .hbm, ⟨63, _⟩ => ⟨S1385472, .i32⟩
  | .hbm, ⟨64, _⟩ => ⟨S1385472, .i1⟩
  | .hbm, ⟨65, _⟩ => ⟨S1385472, .i1⟩
  | .hbm, ⟨66, _⟩ => ⟨S1385472x1, .i32⟩
  | .hbm, ⟨67, _⟩ => ⟨S1385472, .i32⟩
  | .hbm, ⟨68, _⟩ => ⟨S_, .i32⟩
  | .hbm, ⟨69, _⟩ => ⟨S1385472, .i32⟩
  | .hbm, ⟨70, _⟩ => ⟨S1385472, .i1⟩
  | .hbm, ⟨71, _⟩ => ⟨S1385472, .i1⟩
  | .hbm, ⟨72, _⟩ => ⟨S1385472x1, .i32⟩
  | .hbm, ⟨73, _⟩ => ⟨S1385472, .i32⟩
  | .hbm, ⟨74, _⟩ => ⟨S_, .i32⟩
  | .hbm, ⟨75, _⟩ => ⟨S1385472, .i32⟩
  | .hbm, ⟨76, _⟩ => ⟨S1385472, .i1⟩
  | .hbm, ⟨77, _⟩ => ⟨S1385472, .i1⟩
  | .hbm, ⟨78, _⟩ => ⟨S_, .i32⟩
  | .hbm, ⟨79, _⟩ => ⟨S1385472, .i32⟩
  | .hbm, ⟨80, _⟩ => ⟨S1385472, .i32⟩
  | .hbm, ⟨81, _⟩ => ⟨S1385472x1, .i32⟩
  | .hbm, ⟨82, _⟩ => ⟨S1385472, .i32⟩
  | .hbm, ⟨83, _⟩ => ⟨S1385472, .i32⟩
  | .hbm, ⟨84, _⟩ => ⟨S_, .i32⟩
  | .hbm, ⟨85, _⟩ => ⟨S1385472, .i32⟩
  | .hbm, ⟨86, _⟩ => ⟨S1385472, .i32⟩
  | .hbm, ⟨87, _⟩ => ⟨S1385472x1, .i32⟩
  | .hbm, ⟨88, _⟩ => ⟨S1385472, .i32⟩
  | .hbm, ⟨89, _⟩ => ⟨S1385472, .i32⟩
  | .hbm, ⟨90, _⟩ => ⟨S_, .i32⟩
  | .hbm, ⟨91, _⟩ => ⟨S1385472, .i32⟩
  | .hbm, ⟨92, _⟩ => ⟨S1385472, .i32⟩
  | .hbm, ⟨93, _⟩ => ⟨S1385472x1, .i32⟩
  | .hbm, ⟨94, _⟩ => ⟨S1385472, .i32⟩
  | .hbm, ⟨95, _⟩ => ⟨S1385472, .i32⟩
  | .hbm, ⟨96, _⟩ => ⟨S_, .i32⟩
  | .hbm, ⟨97, _⟩ => ⟨S_, .i32⟩
  | .hbm, ⟨98, _⟩ => ⟨S1385472, .i32⟩
  | .hbm, ⟨99, _⟩ => ⟨S1385472, .i32⟩
  | .hbm, ⟨100, _⟩ => ⟨S1385472x1, .i1⟩
  | .hbm, ⟨101, _⟩ => ⟨S_, .f32⟩
  | .hbm, ⟨102, _⟩ => ⟨S1385472x64, .i1⟩
  | .hbm, ⟨103, _⟩ => ⟨S1385472x64, .f32⟩
  | .hbm, ⟨104, _⟩ => ⟨S1385472x64, .f32⟩
  | .hbm, ⟨105, _⟩ => ⟨S_, .f32⟩
  | .hbm, ⟨106, _⟩ => ⟨S320000x64, .f32⟩
  | .hbm, ⟨107, _⟩ => ⟨S1385472x1, .i32⟩
  | .hbm, ⟨108, _⟩ => ⟨S320000x64, .f32⟩
  | .hbm, ⟨109, _⟩ => ⟨S8x1x200x200x64, .f32⟩
  | .hbm, ⟨110, _⟩ => ⟨S8x1x64x200x200, .f32⟩
  | .hbm, ⟨111, _⟩ => ⟨S8x64x200x200, .f32⟩
  | _, _ => ⟨S48x41x16x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_cst_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_11 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_c_12 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_c_13 : Ref sig .tc := ⟨.hbm, 96, rfl⟩
abbrev main_call0_v0 : Ref sig .tc := ⟨.hbm, 97, rfl⟩
abbrev main_call0_v1 : Ref sig .tc := ⟨.hbm, 98, rfl⟩
abbrev main_v78 : Ref sig .tc := ⟨.hbm, 99, rfl⟩
abbrev main_v79 : Ref sig .tc := ⟨.hbm, 100, rfl⟩
abbrev main_cst_14 : Ref sig .tc := ⟨.hbm, 101, rfl⟩
abbrev main_call1_v0 : Ref sig .tc := ⟨.hbm, 102, rfl⟩
abbrev main_call1_v1 : Ref sig .tc := ⟨.hbm, 103, rfl⟩
abbrev main_v80 : Ref sig .tc := ⟨.hbm, 104, rfl⟩
abbrev main_cst_15 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]

class Facts₀ : Prop where
  reducesTo_S48x41x16x44_S48x16x44_d1 : S48x41x16x44.ReducesTo [1] S48x16x44
  h_S_ : 0 < S_.numel
  bcast_S_S48x16x44 : S_.BroadcastsInDim S48x16x44 (![] : Fin 0 → Fin S48x16x44.rank)
  bcast_S48x16x44_S48x1x16x44_0_2_3 : S48x16x44.BroadcastsInDim S48x1x16x44 (![0, 2, 3] : Fin 3 → Fin S48x1x16x44.rank)
  bcast_S48x1x16x44_S48x41x16x44_0_1_2_3 : S48x1x16x44.BroadcastsInDim S48x41x16x44 (![0, 1, 2, 3] : Fin 4 → Fin S48x41x16x44.rank)
  bcast_S48x41x16x44_S48x1x41x16x44_0_2_3_4 : S48x41x16x44.BroadcastsInDim S48x1x41x16x44 (![0, 2, 3, 4] : Fin 4 → Fin S48x1x41x16x44.rank)
  bcast_S48x64x16x44_S48x64x1x16x44_0_1_3_4 : S48x64x16x44.BroadcastsInDim S48x64x1x16x44 (![0, 1, 3, 4] : Fin 4 → Fin S48x64x1x16x44.rank)
  bcast_S48x1x41x16x44_S48x64x41x16x44_0_1_2_3_4 : S48x1x41x16x44.BroadcastsInDim S48x64x41x16x44 (![0, 1, 2, 3, 4] : Fin 5 → Fin S48x64x41x16x44.rank)
  bcast_S48x64x1x16x44_S48x64x41x16x44_0_1_2_3_4 : S48x64x1x16x44.BroadcastsInDim S48x64x41x16x44 (![0, 1, 2, 3, 4] : Fin 5 → Fin S48x64x41x16x44.rank)
  shapeCasts_S48x64x41x16x44_S8x6x64x41x16x44 : S48x64x41x16x44.ShapeCasts S8x6x64x41x16x44
  transposes_S8x6x64x41x16x44_S8x6x41x16x44x64_0_1_3_4_5_2 : S8x6x64x41x16x44.Transposes [0, 1, 3, 4, 5, 2] S8x6x41x16x44x64
  shapeCasts_S8x6x41x16x44x64_S1385472x64 : S8x6x41x16x44x64.ShapeCasts S1385472x64
  bcast_S_S3 : S_.BroadcastsInDim S3 (![] : Fin 0 → Fin S3.rank)
  bcast_S3_S1x1x1x1x1x3_5 : S3.BroadcastsInDim S1x1x1x1x1x3 (![5] : Fin 1 → Fin S1x1x1x1x1x3.rank)
  bcast_S1x1x1x1x1x3_S8x6x41x16x44x3_0_1_2_3_4_5 : S1x1x1x1x1x3.BroadcastsInDim S8x6x41x16x44x3 (![0, 1, 2, 3, 4, 5] : Fin 6 → Fin S8x6x41x16x44x3.rank)
  shapeCasts_S8x6x41x16x44x3_S1385472x3 : S8x6x41x16x44x3.ShapeCasts S1385472x3
  bcast_S8_S8x173184_0 : S8.BroadcastsInDim S8x173184 (![0] : Fin 1 → Fin S8x173184.rank)
  shapeCasts_S8x173184_S1385472 : S8x173184.ShapeCasts S1385472
  slices_S1385472x3_S1385472x1_0_0 : S1385472x3.Slices ![0, 0] S1385472x1
  shapeCasts_S1385472x1_S1385472 : S1385472x1.ShapeCasts S1385472
  bcast_S_S1385472 : S_.BroadcastsInDim S1385472 (![] : Fin 0 → Fin S1385472.rank)
  slices_S1385472x3_S1385472x1_0_1 : S1385472x3.Slices ![0, 1] S1385472x1
  slices_S1385472x3_S1385472x1_0_2 : S1385472x3.Slices ![0, 2] S1385472x1
  bcast_S1385472_S1385472x1_0 : S1385472.BroadcastsInDim S1385472x1 (![0] : Fin 1 → Fin S1385472x1.rank)
  bcast_S1385472x1_S1385472x64_0_1 : S1385472x1.BroadcastsInDim S1385472x64 (![0, 1] : Fin 2 → Fin S1385472x64.rank)
  bcast_S_S1385472x64 : S_.BroadcastsInDim S1385472x64 (![] : Fin 0 → Fin S1385472x64.rank)
  bcast_S_S320000x64 : S_.BroadcastsInDim S320000x64 (![] : Fin 0 → Fin S320000x64.rank)
  shapeCasts_S320000x64_S8x1x200x200x64 : S320000x64.ShapeCasts S8x1x200x200x64
  transposes_S8x1x200x200x64_S8x1x64x200x200_0_1_4_2_3 : S8x1x200x200x64.Transposes [0, 1, 4, 2, 3] S8x1x64x200x200
  shapeCasts_S8x1x64x200x200_S8x64x200x200 : S8x1x64x200x200.ShapeCasts S8x64x200x200
  scatter_S320000x64_S1385472x1_S1385472x64_1_0_0_1_wf : ScatterDims.WF S320000x64 S1385472x1 S1385472x64 [1] [0] [0] 1

variable [Facts₀]

def scatter_S320000x64_S1385472x1_S1385472x64_1_0_0_1 : ScatterDims S320000x64 S1385472x1 S1385472x64 where
  updateWindowDims := [1]
  insertedWindowDims := [0]
  scatterDimsToOperandDims := [0]
  indexVectorDim := 1
  wf := scatter_S320000x64_S1385472x1_S1385472x64_1_0_0_1_wf

class Facts : Prop extends Facts₀ where

variable [Facts]
-- ==== Proof.KerPayload.lean ====
/-
  The kernel body's arithmetic read at one index of the block it stores.
  For a pixel (h, w) of the image the body takes the 41 depth logits of that pixel, subtracts their maximum,
  exponentiates, divides by the sum of the exponentials (a softmax over the depth axis), and multiplies the
  probability of depth d by channel c of the pixel's feature vector and by the 0/1 weight of the point (d, h, w).
  Every layout operation in between (dropping or adding a unit axis, repeating a value along a new axis, the
  channel-last transposition of the features) moves values without changing them, so at index (0, d, h, w, c)
  the stored block is
      exp (x[d,h,w] - M) / (∑ₖ exp (x[k,h,w] - M)) * f[c,h,w] * kf[d,h,w],   M = maxₖ x[k,h,w].
-/
import proofs.«181644_j3272765080377_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KerValue

open Idealize.ShloMosaic Idealize.ShloMosaic.ValueIdx Cert.KernelIdeal Cert.KernelIdeal.Gen

/-! ## The layout operations at an index -/

/-- A block [1, n, 16, 44] viewed without its unit axis: (a, h, w) reads (0, a, h, w). -/
theorem dropLead_apply {n : Nat} (x : FVec Ideal ⟨4, ![1, n, 16, 44]⟩ .f32)
    (hs : (⟨4, ![1, n, 16, 44]⟩ : Shape).ShapeCasts ⟨3, ![n, 16, 44]⟩) (a : Fin n) (h : Fin 16) (w : Fin 44) :
    shapeCast ⟨3, ![n, 16, 44]⟩ x hs (ix3 a h w) = x (ix4 0 a h w) :=
  shapeCast_apply x hs (ix3 a h w) (ix4 0 a h w) (by
    rw [Shape.rowMajor_val_three, Shape.rowMajor_val_four]
    show ((0 * n + a.val) * 16 + h.val) * 44 + w.val = (a.val * 16 + h.val) * 44 + w.val
    omega)

/-- A per-pixel value [16, 44] given a leading unit axis: (0, h, w) reads (h, w). -/
theorem keepLead_apply (x : FVec Ideal S16x44 .f32) (hs : S16x44.ShapeCasts S1x16x44) (h : Fin 16) (w : Fin 44) :
    shapeCast S1x16x44 x hs (ix3 0 h w) = x (ix2 h w) :=
  shapeCast_apply x hs (ix3 0 h w) (ix2 h w) (by
    rw [Shape.rowMajor_val_two, Shape.rowMajor_val_three]
    show h.val * 44 + w.val = ((0 : Fin 1).val * 16 + h.val) * 44 + w.val
    show h.val * 44 + w.val = (0 * 16 + h.val) * 44 + w.val
    omega)

/-- A per-pixel value repeated along the depth axis: (d, h, w) reads (0, h, w). -/
theorem alongDepth_apply (x : FVec Ideal S1x16x44 .f32) (hb : S1x16x44.Broadcasts S41x16x44) (d : Fin 41) (h : Fin 16) (w : Fin 44) :
    broadcastTo S41x16x44 x hb (ix3 d h w) = x (ix3 0 h w) :=
  broadcastTo_apply x hb (ix3 d h w) (ix3 0 h w) fun a => match a with
    | ⟨0, _⟩ => rfl
    | ⟨1, _⟩ => rfl
    | ⟨2, _⟩ => rfl

/-- A value per point (d, h, w) given a trailing unit axis: (d, h, w, 0) reads (d, h, w). -/
theorem keepLast_apply (x : FVec Ideal S41x16x44 .f32) (hs : S41x16x44.ShapeCasts S41x16x44x1) (d : Fin 41) (h : Fin 16) (w : Fin 44) :
    shapeCast S41x16x44x1 x hs (ix4 d h w 0) = x (ix3 d h w) :=
  shapeCast_apply x hs (ix4 d h w 0) (ix3 d h w) (by
    rw [Shape.rowMajor_val_three, Shape.rowMajor_val_four]
    show (d.val * 16 + h.val) * 44 + w.val = ((d.val * 16 + h.val) * 44 + w.val) * 1 + 0
    omega)

/-- A value per point repeated along the channel axis: (d, h, w, c) reads (d, h, w, 0). -/
theorem alongChannel_apply (x : FVec Ideal S41x16x44x1 .f32) (hb : S41x16x44x1.Broadcasts S41x16x44x64)
    (d : Fin 41) (h : Fin 16) (w : Fin 44) (c : Fin 64) :
    broadcastTo S41x16x44x64 x hb (ix4 d h w c) = x (ix4 d h w 0) :=
  broadcastTo_apply x hb (ix4 d h w c) (ix4 d h w 0) fun a => match a with
    | ⟨0, _⟩ => rfl
    | ⟨1, _⟩ => rfl
    | ⟨2, _⟩ => rfl
    | ⟨3, _⟩ => rfl

/-- The features moved channel-last: (h, w, c) reads (c, h, w). -/
theorem channelLast_apply (x : FVec Ideal S64x16x44 .f32) (ht : S64x16x44.Transposes [1, 2, 0] S16x44x64)
    (h : Fin 16) (w : Fin 44) (c : Fin 64) :
    transpose S16x44x64 [1, 2, 0] x ht (ix3 h w c) = x (ix3 c h w) :=
  transpose_apply [1, 2, 0] x ht (ix3 h w c) (ix3 c h w) fun b => match b with
    | ⟨0, _⟩ => rfl
    | ⟨1, _⟩ => rfl
    | ⟨2, _⟩ => rfl

/-- The channel-last features given a leading unit axis: (0, h, w, c) reads (h, w, c). -/
theorem keepLeadFeat_apply (x : FVec Ideal S16x44x64 .f32) (hs : S16x44x64.ShapeCasts S1x16x44x64)
    (h : Fin 16) (w : Fin 44) (c : Fin 64) :
    shapeCast S1x16x44x64 x hs (ix4 0 h w c) = x (ix3 h w c) :=
  shapeCast_apply x hs (ix4 0 h w c) (ix3 h w c) (by
    rw [Shape.rowMajor_val_three, Shape.rowMajor_val_four]
    show (h.val * 44 + w.val) * 64 + c.val = ((0 * 16 + h.val) * 44 + w.val) * 64 + c.val
    omega)

/-- The channel-last features repeated along the depth axis: (d, h, w, c) reads (0, h, w, c). -/
theorem featAlongDepth_apply (x : FVec Ideal S1x16x44x64 .f32) (hb : S1x16x44x64.Broadcasts S41x16x44x64)
    (d : Fin 41) (h : Fin 16) (w : Fin 44) (c : Fin 64) :
    broadcastTo S41x16x44x64 x hb (ix4 d h w c) = x (ix4 0 h w c) :=
  broadcastTo_apply x hb (ix4 d h w c) (ix4 0 h w c) fun a => match a with
    | ⟨0, _⟩ => rfl
    | ⟨1, _⟩ => rfl
    | ⟨2, _⟩ => rfl
    | ⟨3, _⟩ => rfl

/-- The result given the block's leading unit axis: (0, d, h, w, c) reads (d, h, w, c). -/
theorem keepLeadOut_apply (x : FVec Ideal S41x16x44x64 .bf16) (hs : S41x16x44x64.ShapeCasts S1x41x16x44x64)
    (d : Fin 41) (h : Fin 16) (w : Fin 44) (c : Fin 64) :
    shapeCast S1x41x16x44x64 x hs (ix5 0 d h w c) = x (ix4 d h w c) :=
  shapeCast_apply x hs (ix5 0 d h w c) (ix4 d h w c) (by
    rw [Shape.rowMajor_val_four, Shape.rowMajor_val_five]
    show ((d.val * 16 + h.val) * 44 + w.val) * 64 + c.val = (((0 * 41 + d.val) * 16 + h.val) * 44 + w.val) * 64 + c.val
    omega)

/-! ## The two reductions over the depth axis at a pixel -/

/-- The pixel (h, w) with depth k inserted is the point (k, h, w). -/
theorem lift_depth (hr : S41x16x44.Reduces [0] S16x44) (h : Fin 16) (w : Fin 44) (k : Fin 41) :
    hr.lift (ix2 h w) k = ix3 k h w := by
  funext a
  match a with
  | ⟨0, _⟩ => exact Fin.ext rfl
  | ⟨1, _⟩ => exact Fin.ext rfl
  | ⟨2, _⟩ => exact Fin.ext rfl

/-- The maximum over the depth axis, from −∞, at a pixel. -/
theorem depthMax_apply (x : FVec Ideal S41x16x44 .f32) (hr : S41x16x44.Reduces [0] S16x44) (hφ : FKind.Formats .f32)
    (hacc : (0xFF800000#32 : BitVec FTy.f32.bits) = FKind.maximumf.neutral .f32 hφ) (h : Fin 16) (w : Fin 44) :
    multiReduction .maximumf [0] S16x44 x 0xFF800000#32 hr hφ hacc (ix2 h w)
      = (Finset.univ : Finset (Fin 41)).fold max (Ideal.ofBits .f32 0xFF800000#32) (fun k => x (ix3 k h w)) := by
  refine (Ideal.multiReduction_maximumf_single x 0xFF800000#32 hr hφ hacc (ix2 h w)).trans ?_
  show (Finset.univ : Finset (Fin 41)).fold max (Ideal.ofBits .f32 0xFF800000#32) (fun k => x (hr.lift (ix2 h w) k)) = _
  exact congrArg (fun f => (Finset.univ : Finset (Fin 41)).fold max (Ideal.ofBits .f32 0xFF800000#32) f)
    (funext fun k => congrArg x (lift_depth hr h w k))

/-- The sum over the depth axis, from 0, at a pixel. -/
theorem depthSum_apply (x : FVec Ideal S41x16x44 .f32) (hr : S41x16x44.Reduces [0] S16x44) (hφ : FKind.Formats .f32)
    (hacc : (0x00000000#32 : BitVec FTy.f32.bits) = FKind.add.neutral .f32 hφ) (h : Fin 16) (w : Fin 44) :
    multiReduction .add [0] S16x44 x 0x00000000#32 hr hφ hacc (ix2 h w) = ∑ k : Fin 41, x (ix3 k h w) := by
  refine (Ideal.multiReduction_add_single x 0x00000000#32 hr hφ hacc (ix2 h w)).trans ?_
  show ∑ k : Fin 41, x (hr.lift (ix2 h w) k) = _
  exact Finset.sum_congr rfl fun k _ => congrArg x (lift_depth hr h w k)

/-! ## The softmax over the depth axis at a point -/

/-- A value per point minus its pixel's maximum over the depths, exponentiated: when the values along the pixel's depth
    column are e k, the point (k, h, w) reads exp (e k − max over the column). -/
theorem expShift_apply (v : FVec Ideal S41x16x44 .f32) (hr : S41x16x44.Reduces [0] S16x44) (hφ : FKind.Formats .f32)
    (hacc : (0xFF800000#32 : BitVec FTy.f32.bits) = FKind.maximumf.neutral .f32 hφ)
    (hs : S16x44.ShapeCasts S1x16x44) (hb : S1x16x44.Broadcasts S41x16x44) (h : Fin 16) (w : Fin 44)
    (e : Fin 41 → EReal) (he : ∀ k, v (ix3 k h w) = e k) (k : Fin 41) :
    exp (subf v (broadcastTo S41x16x44 (shapeCast S1x16x44 (multiReduction .maximumf [0] S16x44 v 0xFF800000#32 hr hφ hacc) hs) hb))
        (ix3 k h w)
      = Ideal.exp (e k - (Finset.univ : Finset (Fin 41)).fold max (Ideal.ofBits .f32 0xFF800000#32) e) := by
  show Ideal.exp (v (ix3 k h w)
      - broadcastTo S41x16x44 (shapeCast S1x16x44 (multiReduction .maximumf [0] S16x44 v 0xFF800000#32 hr hφ hacc) hs) hb (ix3 k h w)) = _
  rw [alongDepth_apply, keepLead_apply, depthMax_apply, he k]
  exact congrArg (fun f => Ideal.exp (e k - (Finset.univ : Finset (Fin 41)).fold max (Ideal.ofBits .f32 0xFF800000#32) f))
    (funext he)

/-- A value per point divided by its pixel's sum over the depths: when the values along the pixel's depth column are
    e k, the point (d, h, w) reads e d / ∑ₖ e k. -/
theorem divBySum_apply (v : FVec Ideal S41x16x44 .f32) (hr : S41x16x44.Reduces [0] S16x44) (hφ : FKind.Formats .f32)
    (hacc : (0x00000000#32 : BitVec FTy.f32.bits) = FKind.add.neutral .f32 hφ)
    (hs : S16x44.ShapeCasts S1x16x44) (hb : S1x16x44.Broadcasts S41x16x44) (h : Fin 16) (w : Fin 44)
    (e : Fin 41 → EReal) (he : ∀ k, v (ix3 k h w) = e k) (d : Fin 41) :
    divf v (broadcastTo S41x16x44 (shapeCast S1x16x44 (multiReduction .add [0] S16x44 v 0x00000000#32 hr hφ hacc) hs) hb) (ix3 d h w)
      = Ideal.div (e d) (∑ k : Fin 41, e k) := by
  show Ideal.div (v (ix3 d h w))
      (broadcastTo S41x16x44 (shapeCast S1x16x44 (multiReduction .add [0] S16x44 v 0x00000000#32 hr hφ hacc) hs) hb (ix3 d h w)) = _
  rw [alongDepth_apply, keepLead_apply, depthSum_apply, he d]
  exact congrArg (Ideal.div (e d)) (Finset.sum_congr rfl fun k _ => he k)

/-! ## The payload at an index -/

/-- The stored block at (0, d, h, w, c): the softmax over the depths of the pixel's logits at depth d, times channel c of
    the pixel's features, times the point's weight. -/
theorem pay_apply (x0 : Vec Ideal S1x41x16x44 .f32) (x1 : Vec Ideal S1x64x16x44 .f32) (x2 : Vec Ideal S1x41x16x44 .f32)
    (d : Fin 41) (h : Fin 16) (w : Fin 44) (c : Fin 64) :
    Gen.k0_pay1 x0 x1 x2 (ix5 (0 : Fin 1) d h w c)
      = Ideal.div (Ideal.exp (x0 (ix4 0 d h w) - (Finset.univ : Finset (Fin 41)).fold max (Ideal.ofBits .f32 0xFF800000#32) (fun k => x0 (ix4 0 k h w))))
                  (∑ k : Fin 41, Ideal.exp (x0 (ix4 0 k h w) - (Finset.univ : Finset (Fin 41)).fold max (Ideal.ofBits .f32 0xFF800000#32) (fun k' => x0 (ix4 0 k' h w))))
        * x1 (ix4 0 c h w) * x2 (ix4 0 d h w) := by
  unfold Gen.k0_pay1
  refine (keepLeadOut_apply _ _ d h w c).trans ?_
  refine (truncf_apply (φ := .f32) (ψ := .bf16) _ bitsLt_bf16_f32 (ix4 d h w c)).trans ?_
  refine (mulf_apply (φ := .f32) _ _ (ix4 d h w c)).trans ?_
  refine congrArg₂ (fun a b : EReal => a * b)
    ((mulf_apply (φ := .f32) _ _ (ix4 d h w c)).trans (congrArg₂ (fun a b : EReal => a * b) ?_ ?_)) ?_
  · -- the probability: repeated along the channels, a softmax over the pixel's depth column
    refine (alongChannel_apply _ _ d h w c).trans ?_
    refine (keepLast_apply _ _ d h w).trans ?_
    exact divBySum_apply _ _ _ _ _ _ h w
      (fun k => Ideal.exp (x0 (ix4 0 k h w) - (Finset.univ : Finset (Fin 41)).fold max (Ideal.ofBits .f32 0xFF800000#32) (fun k' => x0 (ix4 0 k' h w))))
      (fun k => expShift_apply _ _ _ _ _ _ h w (fun k' => x0 (ix4 0 k' h w)) (fun k' => dropLead_apply x0 _ k' h w) k) d
  · -- the feature: channel-last, repeated along the depths
    refine (featAlongDepth_apply _ _ d h w c).trans ?_
    refine (keepLeadFeat_apply _ _ h w c).trans ?_
    refine (channelLast_apply _ _ h w c).trans ?_
    exact dropLead_apply x1 _ c h w
  · -- the weight: repeated along the channels
    refine (alongChannel_apply _ _ d h w c).trans ?_
    refine (keepLast_apply _ _ d h w).trans ?_
    exact dropLead_apply x2 _ d h w

end Cert.KernelIdeal.KerValue

end
-- ==== Proof.Spec.lean ====
/-
  What both programs compute before the voxel sum, as functions on the extended reals.
  For one camera image `bn` and one pixel `(h, w)` the 41 depth logits `x[bn, ·, h, w]` are turned into a
  distribution over the depths: `soft x bn d h w = exp (x[bn,d,h,w] − M) / ∑ₖ exp (x[bn,k,h,w] − M)` with `M` the
  column's maximum (the fold of `max` from −∞ over the 41 entries). A point `(bn, d, h, w)` then carries, per
  channel `c`, the camera feature `f[bn,c,h,w]` weighted by that probability, and by a 0/1 weight `kf[bn,d,h,w]`
  saying whether the point falls inside the voxel grid.
-/
import Idealize.ShloMosaic.PureOps.Ideal
import Idealize.ShloMosaic.Lib.ValueIdx

noncomputable section

namespace Cert.Lift

open Idealize.ShloMosaic Idealize.ShloMosaic.ValueIdx

/-- The depth logits, the 0/1 weights: [48, 41, 16, 44]. -/
abbrev SD : Shape := ⟨4, ![48, 41, 16, 44]⟩
/-- The camera features: [48, 64, 16, 44]. -/
abbrev SF : Shape := ⟨4, ![48, 64, 16, 44]⟩
/-- The lifted points, channel last: [48, 41, 16, 44, 64]. -/
abbrev SL : Shape := ⟨5, ![48, 41, 16, 44, 64]⟩

/-- The maximum of a pixel's 41 depth logits: the fold of `max` from −∞ (the f32 pattern of −∞). -/
def colMax (x : SD.Idx → EReal) (bn : Fin 48) (h : Fin 16) (w : Fin 44) : EReal :=
  (Finset.univ : Finset (Fin 41)).fold max (Ideal.ofBits .f32 0xFF800000#32) (fun k => x (ix4 bn k h w))

/-- A logit shifted by its column's maximum, exponentiated. -/
def colExp (x : SD.Idx → EReal) (bn : Fin 48) (d : Fin 41) (h : Fin 16) (w : Fin 44) : EReal :=
  Ideal.exp (x (ix4 bn d h w) - colMax x bn h w)

/-- The column's normalizer. -/
def colSum (x : SD.Idx → EReal) (bn : Fin 48) (h : Fin 16) (w : Fin 44) : EReal :=
  ∑ k : Fin 41, colExp x bn k h w

/-- The depth distribution at a point. -/
def soft (x : SD.Idx → EReal) (bn : Fin 48) (d : Fin 41) (h : Fin 16) (w : Fin 44) : EReal :=
  Ideal.div (colExp x bn d h w) (colSum x bn h w)

/-- A lifted point's channel `c`: probability × feature × weight, in that association. -/
def liftAt (x : SD.Idx → EReal) (f : SF.Idx → EReal) (kf : SD.Idx → EReal)
    (bn : Fin 48) (d : Fin 41) (h : Fin 16) (w : Fin 44) (c : Fin 64) : EReal :=
  soft x bn d h w * f (ix4 bn c h w) * kf (ix4 bn d h w)

/-- The lifted points as one array [48, 41, 16, 44, 64]. -/
def lifted (x : SD.Idx → EReal) (f : SF.Idx → EReal) (kf : SD.Idx → EReal) : SL.Idx → EReal :=
  fun j => liftAt x f kf (j 0) (j 1) (j 2) (j 3) (j 4)

theorem lifted_ix5 (x : SD.Idx → EReal) (f : SF.Idx → EReal) (kf : SD.Idx → EReal)
    (bn : Fin 48) (d : Fin 41) (h : Fin 16) (w : Fin 44) (c : Fin 64) :
    lifted x f kf (ix5 bn d h w c) = liftAt x f kf bn d h w c := rfl

end Cert.Lift

end
-- ==== Proof.KerBlocks.lean ====
/-
  From the blocks to the whole array.
  The grid has one point per camera image bn (48 of them). At point bn the body reads the image's block of depth
  logits x[bn], of features f[bn] and of 0/1 weights kf[bn], and stores the image's block of lifted points; the value
  it stores at (d, h, w, c) is the softmax over the depths of x[bn, ·, h, w] at d, times f[bn, c, h, w], times
  kf[bn, d, h, w] (the payload at an index). A block's element (0, d, h, w, c) sits in the array at (bn, d, h, w, c),
  the 48 blocks tile the array along its first axis, so the array ends holding the lifted points of the three arrays
  the region finds.
-/
import proofs.«181644_j3272765080377_1_alg».proof.Proof.Gen.KernelIdeal.Frame
import proofs.«181644_j3272765080377_1_alg».proof.Proof.KerPayload
import proofs.«181644_j3272765080377_1_alg».proof.Proof.Spec
import Idealize.ShloMosaic.Lib.Pipeline.Value

noncomputable section

namespace Cert.KernelIdeal.KerValue

open Idealize.ShloMosaic Idealize.ShloMosaic.TcCoe Idealize.ShloMosaic.ValueIdx Idealize.SL.Sem
open Idealize.ShloMosaic.Pipeline (Dat)
open Cert.KernelIdeal Cert.KernelIdeal.Gen

/-! ## The value at a point as a function of the pixel's depth column -/

/-- The value of a lifted point from its pixel's column of depth logits col, its feature f and its weight kf: the
    softmax of the column at depth d, times f, times kf. -/
def pointValue (col : Fin 41 → EReal) (f kf : EReal) (d : Fin 41) : EReal :=
  Ideal.div (Ideal.exp (col d - (Finset.univ : Finset (Fin 41)).fold max (Ideal.ofBits .f32 0xFF800000#32) col))
      (∑ k : Fin 41, Ideal.exp (col k - (Finset.univ : Finset (Fin 41)).fold max (Ideal.ofBits .f32 0xFF800000#32) col))
    * f * kf

/-- It depends on the column, the feature and the weight only through their values. -/
theorem pointValue_congr {col col' : Fin 41 → EReal} {f f' kf kf' : EReal} (hcol : ∀ k, col k = col' k) (hf : f = f')
    (hkf : kf = kf') (d : Fin 41) : pointValue col f kf d = pointValue col' f' kf' d := by
  obtain rfl : col = col' := funext hcol
  subst hf hkf
  rfl

/-- The stored block at an index with coordinates (0, d, h, w, c). -/
theorem block_apply (x0 : Vec Ideal S1x41x16x44 .f32) (x1 : Vec Ideal S1x64x16x44 .f32) (x2 : Vec Ideal S1x41x16x44 .f32)
    (j : S1x41x16x44x64.Idx) (d : Fin 41) (h : Fin 16) (w : Fin 44) (c : Fin 64)
    (hd : (j 1).val = d.val) (hh : (j 2).val = h.val) (hw : (j 3).val = w.val) (hc : (j 4).val = c.val) :
    k0_pay1 x0 x1 x2 j
      = pointValue (fun k => x0 (ix4 (0 : Fin 1) k h w)) (x1 (ix4 (0 : Fin 1) c h w)) (x2 (ix4 (0 : Fin 1) d h w)) d := by
  have hj : j = ix5 (0 : Fin 1) d h w c := funext fun a => match a with
    | ⟨0, _⟩ => Fin.ext (by have h0 : (j 0).val < 1 := (j 0).isLt; show (j 0).val = 0; omega)
    | ⟨1, _⟩ => Fin.ext hd
    | ⟨2, _⟩ => Fin.ext hh
    | ⟨3, _⟩ => Fin.ext hw
    | ⟨4, _⟩ => Fin.ext hc
  rw [hj]
  exact pay_apply x0 x1 x2 d h w c

/-- The lifted points at an index with coordinates (bn, d, h, w, c). -/
theorem lifted_apply (x : Cert.Lift.SD.Idx → EReal) (f : Cert.Lift.SF.Idx → EReal) (kf : Cert.Lift.SD.Idx → EReal)
    (i : Cert.Lift.SL.Idx) (bn : Fin 48) (d : Fin 41) (h : Fin 16) (w : Fin 44) (c : Fin 64)
    (hbn : (i 0).val = bn.val) (hd : (i 1).val = d.val) (hh : (i 2).val = h.val) (hw : (i 3).val = w.val)
    (hc : (i 4).val = c.val) :
    Cert.Lift.lifted x f kf i
      = pointValue (fun k => x (ix4 bn k h w)) (f (ix4 bn c h w)) (kf (ix4 bn d h w)) d := by
  have hi : i = ix5 bn d h w c := funext fun a => match a with
    | ⟨0, _⟩ => Fin.ext hbn
    | ⟨1, _⟩ => Fin.ext hd
    | ⟨2, _⟩ => Fin.ext hh
    | ⟨3, _⟩ => Fin.ext hw
    | ⟨4, _⟩ => Fin.ext hc
  rw [hi]
  rfl

/-! ## The blocks' places in their arrays -/

variable (m : (ℓ : Loc nD τ sig) → Buf (Elt Ideal) ℓ)

theorem zero4 : (![0, 0, 0, 0] : Fin 4 → Nat) = fun _ => 0 := funext fun a => by fin_cases a <;> rfl
theorem zero5 : (![0, 0, 0, 0, 0] : Fin 5 → Nat) = fun _ => 0 := funext fun a => by fin_cases a <;> rfl

/-- At grid point t every window's block is image t's: block index t along the first axis, 0 along the others. -/
theorem block_index : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 5) = t.val ∧ win0_3.index t (1 : Fin 5) = 0 ∧ win0_3.index t (2 : Fin 5) = 0 ∧ win0_3.index t (3 : Fin 5) = 0
        ∧ win0_3.index t (4 : Fin 5) = 0) :=
  (by decide +kernel : ∀ t : Fin grid0.N, _)

/-- The depth logits' block at point t, element (0, k, h, w), is the array's element (t, k, h, w). -/
theorem logits_block (c : Dev nD) (t : Fin cfg0.N) (bn : Fin 48) (hbn : bn.val = t.val) (k : Fin 41) (h : Fin 16) (w : Fin 44) :
    (iblk m c 0 t : Vec Ideal S1x41x16x44 .f32) (ix4 (0 : Fin 1) k h w)
      = (V m c main_arg0 : Cert.Lift.SD.Idx → EReal) (ix4 bn k h w) := by
  obtain ⟨⟨e0, e1, e2, e3⟩, -, -, -⟩ := block_index t
  show V m c main_arg0 (((cfg0.win 0).blk t).view.emb (ix4 (0 : Fin 1) k h w)) = V m c main_arg0 (ix4 bn k h w)
  refine congrArg (V m c main_arg0 : Cert.Lift.SD.Idx → EReal) (funext fun a => Fin.ext ?_)
  match a with
  | ⟨0, _⟩ => show win0_0.index t (0 : Fin 4) * 1 + 1 * 0 = bn.val; rw [e0]; omega
  | ⟨1, _⟩ => show win0_0.index t (1 : Fin 4) * 41 + 1 * k.val = k.val; rw [e1]; omega
  | ⟨2, _⟩ => show win0_0.index t (2 : Fin 4) * 16 + 1 * h.val = h.val; rw [e2]; omega
  | ⟨3, _⟩ => show win0_0.index t (3 : Fin 4) * 44 + 1 * w.val = w.val; rw [e3]; omega

/-- The features' block at point t, element (0, ch, h, w), is the array's element (t, ch, h, w). -/
theorem features_block (c : Dev nD) (t : Fin cfg0.N) (bn : Fin 48) (hbn : bn.val = t.val) (ch : Fin 64) (h : Fin 16) (w : Fin 44) :
    (iblk m c 1 t : Vec Ideal S1x64x16x44 .f32) (ix4 (0 : Fin 1) ch h w)
      = (V m c main_arg1 : Cert.Lift.SF.Idx → EReal) (ix4 bn ch h w) := by
  obtain ⟨-, ⟨e0, e1, e2, e3⟩, -, -⟩ := block_index t
  show V m c main_arg1 (((cfg0.win 1).blk t).view.emb (ix4 (0 : Fin 1) ch h w)) = V m c main_arg1 (ix4 bn ch h w)
  refine congrArg (V m c main_arg1 : Cert.Lift.SF.Idx → EReal) (funext fun a => Fin.ext ?_)
  match a with
  | ⟨0, _⟩ => show win0_1.index t (0 : Fin 4) * 1 + 1 * 0 = bn.val; rw [e0]; omega
  | ⟨1, _⟩ => show win0_1.index t (1 : Fin 4) * 64 + 1 * ch.val = ch.val; rw [e1]; omega
  | ⟨2, _⟩ => show win0_1.index t (2 : Fin 4) * 16 + 1 * h.val = h.val; rw [e2]; omega
  | ⟨3, _⟩ => show win0_1.index t (3 : Fin 4) * 44 + 1 * w.val = w.val; rw [e3]; omega

/-- The weights' block at point t, element (0, k, h, w), is the array's element (t, k, h, w). -/
theorem weights_block (c : Dev nD) (t : Fin cfg0.N) (bn : Fin 48) (hbn : bn.val = t.val) (k : Fin 41) (h : Fin 16) (w : Fin 44) :
    (iblk m c 2 t : Vec Ideal S1x41x16x44 .f32) (ix4 (0 : Fin 1) k h w)
      = (V m c main_v48 : Cert.Lift.SD.Idx → EReal) (ix4 bn k h w) := by
  obtain ⟨-, -, ⟨e0, e1, e2, e3⟩, -⟩ := block_index t
  show V m c main_v48 (((cfg0.win 2).blk t).view.emb (ix4 (0 : Fin 1) k h w)) = V m c main_v48 (ix4 bn k h w)
  refine congrArg (V m c main_v48 : Cert.Lift.SD.Idx → EReal) (funext fun a => Fin.ext ?_)
  match a with
  | ⟨0, _⟩ => show win0_2.index t (0 : Fin 4) * 1 + 1 * 0 = bn.val; rw [e0]; omega
  | ⟨1, _⟩ => show win0_2.index t (1 : Fin 4) * 41 + 1 * k.val = k.val; rw [e1]; omega
  | ⟨2, _⟩ => show win0_2.index t (2 : Fin 4) * 16 + 1 * h.val = h.val; rw [e2]; omega
  | ⟨3, _⟩ => show win0_2.index t (3 : Fin 4) * 44 + 1 * w.val = w.val; rw [e3]; omega

/-! ## What each point writes back, and the array after the run -/

/-- The lifted points of the three arrays as the region finds them. -/
abbrev liftedOf (c : Dev nD) : Cert.Lift.SL.Idx → EReal :=
  Cert.Lift.lifted (V m c main_arg0 : Cert.Lift.SD.Idx → EReal) (V m c main_arg1 : Cert.Lift.SF.Idx → EReal)
    (V m c main_v48 : Cert.Lift.SD.Idx → EReal)

/-- What point t writes back is block t of the lifted points. -/
theorem flushed_eq (c : Dev nD) (t : Fin cfg0.N) :
    (dats m 0 c).flushed 3 t = ((cfg0.win 3).blk t).view.read (Elt Ideal) (liftedOf m c) := by
  show (cfg0.win 3).cut (grid0.coords t) ((dats m 0 c).after 3 t) = _
  rw [after0_3]
  unfold out0_3
  rw [View.canon_unit_zero zero5]
  simp only [View.ld_unit_zero (S := S1x41x16x44) zero4, View.ld_unit_zero (S := S1x64x16x44) zero4]
  funext y
  obtain ⟨-, -, -, ⟨e0, e1, e2, e3, e4⟩⟩ := block_index t
  have hN : t.val < 48 := Nat.lt_of_lt_of_eq t.isLt (show cfg0.N = 48 from N_0)
  have hy0 : (y 0).val < 1 := (y 0).isLt
  have hy1 : (y 1).val < 41 := (y 1).isLt
  have hy2 : (y 2).val < 16 := (y 2).isLt
  have hy3 : (y 3).val < 44 := (y 3).isLt
  have hy4 : (y 4).val < 64 := (y 4).isLt
  refine (block_apply (iblk m c 0 t) (iblk m c 1 t) (iblk m c 2 t) ((cfg0.win 3).xinj (grid0.coords t) y)
    ⟨(y 1).val, hy1⟩ ⟨(y 2).val, hy2⟩ ⟨(y 3).val, hy3⟩ ⟨(y 4).val, hy4⟩ rfl rfl rfl rfl).trans ?_
  show _ = liftedOf m c (((cfg0.win 3).blk t).view.emb y)
  refine Eq.trans ?_ (lifted_apply _ _ _ (((cfg0.win 3).blk t).view.emb y) ⟨t.val, hN⟩
    ⟨(y 1).val, hy1⟩ ⟨(y 2).val, hy2⟩ ⟨(y 3).val, hy3⟩ ⟨(y 4).val, hy4⟩ ?_ ?_ ?_ ?_ ?_).symm
  · exact pointValue_congr
      (fun k => logits_block m c t ⟨t.val, hN⟩ rfl k ⟨(y 2).val, hy2⟩ ⟨(y 3).val, hy3⟩)
      (features_block m c t ⟨t.val, hN⟩ rfl ⟨(y 4).val, hy4⟩ ⟨(y 2).val, hy2⟩ ⟨(y 3).val, hy3⟩)
      (weights_block m c t ⟨t.val, hN⟩ rfl ⟨(y 1).val, hy1⟩ ⟨(y 2).val, hy2⟩ ⟨(y 3).val, hy3⟩) _
  · show win0_3.index t (0 : Fin 5) * 1 + 1 * (y 0).val = t.val; rw [e0]; omega
  · show win0_3.index t (1 : Fin 5) * 41 + 1 * (y 1).val = (y 1).val; rw [e1]; omega
  · show win0_3.index t (2 : Fin 5) * 16 + 1 * (y 2).val = (y 2).val; rw [e2]; omega
  · show win0_3.index t (3 : Fin 5) * 44 + 1 * (y 3).val = (y 3).val; rw [e3]; omega
  · show win0_3.index t (4 : Fin 5) * 64 + 1 * (y 4).val = (y 4).val; rw [e4]; omega

/-- An index of the array is in point t's block iff each coordinate is in the block's range on its axis. -/
theorem mem_blk (t : Fin cfg0.N) (i : S48x41x16x44x64.Idx) :
    i ∈ ((cfg0.win 3).blk t).view.set ↔ ∀ a : Fin 5, win0_3.index t a * S1x41x16x44x64.size a ≤ (i a).val
      ∧ (i a).val < win0_3.index t a * S1x41x16x44x64.size a + S1x41x16x44x64.size a := by
  show i ∈ ((View.whole main_v49).slice (win0_3.rect t)).set ↔ _
  rw [View.set_slice_whole, Rect.mem_set_unit]
  exact Iff.rfl

/-- Every index of the array is in the block of the point its first coordinate names. -/
theorem covered (i : S48x41x16x44x64.Idx) :
    ∃ t : Fin cfg0.N, (cfg0.win 3).flush t = true ∧ i ∈ ((cfg0.win 3).blk t).view.set := by
  have hi0 : (i 0).val < 48 := (i 0).isLt
  have hi1 : (i 1).val < 41 := (i 1).isLt
  have hi2 : (i 2).val < 16 := (i 2).isLt
  have hi3 : (i 3).val < 44 := (i 3).isLt
  have hi4 : (i 4).val < 64 := (i 4).isLt
  refine ⟨⟨(i 0).val, Nat.lt_of_lt_of_eq hi0 (show 48 = cfg0.N from N_0.symm)⟩, flush0_3 _, ?_⟩
  obtain ⟨-, -, -, ⟨e0, e1, e2, e3, e4⟩⟩ := block_index ⟨(i 0).val, Nat.lt_of_lt_of_eq hi0 (show 48 = cfg0.N from N_0.symm)⟩
  rw [mem_blk]
  intro a
  match a with
  | ⟨0, _⟩ => show win0_3.index _ (0 : Fin 5) * 1 ≤ (i 0).val ∧ (i 0).val < win0_3.index _ (0 : Fin 5) * 1 + 1; rw [e0]; show (i 0).val * 1 ≤ (i 0).val ∧ (i 0).val < (i 0).val * 1 + 1; omega
  | ⟨1, _⟩ => show win0_3.index _ (1 : Fin 5) * 41 ≤ (i 1).val ∧ (i 1).val < win0_3.index _ (1 : Fin 5) * 41 + 41; rw [e1]; omega
  | ⟨2, _⟩ => show win0_3.index _ (2 : Fin 5) * 16 ≤ (i 2).val ∧ (i 2).val < win0_3.index _ (2 : Fin 5) * 16 + 16; rw [e2]; omega
  | ⟨3, _⟩ => show win0_3.index _ (3 : Fin 5) * 44 ≤ (i 3).val ∧ (i 3).val < win0_3.index _ (3 : Fin 5) * 44 + 44; rw [e3]; omega
  | ⟨4, _⟩ => show win0_3.index _ (4 : Fin 5) * 64 ≤ (i 4).val ∧ (i 4).val < win0_3.index _ (4 : Fin 5) * 64 + 64; rw [e4]; omega

/-- THE ARRAY after the run: the lifted points of the depth logits, the features and the weights as the region finds them. -/
theorem final (c : Dev nD) :
    (Gen.dats m 0 c).arrAt 3 cfg0.N
      = Cert.Lift.lifted (Gen.V m c main_arg0 : Cert.Lift.SD.Idx → EReal) (Gen.V m c main_arg1 : Cert.Lift.SF.Idx → EReal)
          (Gen.V m c main_v48 : Cert.Lift.SD.Idx → EReal) :=
  (dats m 0 c).arrAt_eq_of_cover 3 (liftedOf m c) (fun t _ => flushed_eq m c t) covered

end Cert.KernelIdeal.KerValue

end
-- ==== Proof.KerHost.lean ====
/-
  The kernel's program around its one region, as functions of the arguments.
  Before the region the host computes, from the geometry alone, every point's integer voxel coordinates (`gi`), whether
  the point lies in the grid (`kept5`, over [8, 6, 41, 16, 44]), its cell's number (`seg5`, `segSel5`), and the 0/1
  weights the region multiplies by (`keptF`: the bit as a float, viewed [48, 41, 16, 44]). After the region it lists the
  lifted points row by row (`pts64`), flattens the cell numbers (`flat`), adds each row into its cell from zeros
  (`pool`) and re-lays the cells (`tail`).
-/
import proofs.«181644_j3272765080377_1_alg».proof.Proof.Gen.KernelIdeal.Frame
import Idealize.ShloMosaic.Lib.StableHlo.Run
import Idealize.ShloMosaic.Lib.Pipeline.FrameSuffix

noncomputable section

namespace Cert.KernelIdeal.KerHost

open Cert.KernelIdeal Cert.KernelIdeal.Gen Idealize.ShloMosaic Idealize.ShloMosaic.TcCoe Idealize.SL.Sem Idealize.ShloMosaic.StableHlo

variable {F : FTy → Type} [FloatOps F]

/-- The voxel coordinates of every point and axis: ⌊(geom − (bx − dx/2)) / dx⌋ as 32-bit integers. -/
def gi (a2 : (⟨S8x6x41x16x44x3, .f32⟩ : BufTy).Contents (Elt F)) : (⟨S8x6x41x16x44x3, .i32⟩ : BufTy).Contents (Elt F) :=
  ((fptosi 32 : (⟨S8x6x41x16x44x3, .f32⟩ : BufTy).Contents (Elt F) → (⟨S8x6x41x16x44x3, .i32⟩ : BufTy).Contents (Elt F)) ((Host.floor : (⟨S8x6x41x16x44x3, .f32⟩ : BufTy).Contents (Elt F) → (⟨S8x6x41x16x44x3, .f32⟩ : BufTy).Contents (Elt F)) ((Host.divf : (⟨S8x6x41x16x44x3, .f32⟩ : BufTy).Contents (Elt F) → (⟨S8x6x41x16x44x3, .f32⟩ : BufTy).Contents (Elt F) → (⟨S8x6x41x16x44x3, .f32⟩ : BufTy).Contents (Elt F)) ((subf : (⟨S8x6x41x16x44x3, .f32⟩ : BufTy).Contents (Elt F) → (⟨S8x6x41x16x44x3, .f32⟩ : BufTy).Contents (Elt F) → (⟨S8x6x41x16x44x3, .f32⟩ : BufTy).Contents (Elt F)) a2 ((broadcastInDim S8x6x41x16x44x3 ![0, 1, 2, 3, 4, 5] bcast_S1x1x1x1x1x3_S8x6x41x16x44x3_0_1_2_3_4_5 : (⟨S1x1x1x1x1x3, .f32⟩ : BufTy).Contents (Elt F) → (⟨S8x6x41x16x44x3, .f32⟩ : BufTy).Contents (Elt F)) ((broadcastInDim S1x1x1x1x1x3 ![5] bcast_S3_S1x1x1x1x1x3_5 : (⟨S3, .f32⟩ : BufTy).Contents (Elt F) → (⟨S1x1x1x1x1x3, .f32⟩ : BufTy).Contents (Elt F)) ((subf : (⟨S3, .f32⟩ : BufTy).Contents (Elt F) → (⟨S3, .f32⟩ : BufTy).Contents (Elt F) → (⟨S3, .f32⟩ : BufTy).Contents (Elt F)) ((fun i => FloatOps.ofBits .f32 (lit1 (S3.rowMajor i)))) ((Host.divf : (⟨S3, .f32⟩ : BufTy).Contents (Elt F) → (⟨S3, .f32⟩ : BufTy).Contents (Elt F) → (⟨S3, .f32⟩ : BufTy).Contents (Elt F)) ((fun i => FloatOps.ofBits .f32 (lit0 (S3.rowMajor i)))) ((broadcastInDim S3 ![] bcast_S_S3 : (⟨S_, .f32⟩ : BufTy).Contents (Elt F) → (⟨S3, .f32⟩ : BufTy).Contents (Elt F)) ((constant S_ .f32 0x40000000#32)))))))) ((broadcastInDim S8x6x41x16x44x3 ![0, 1, 2, 3, 4, 5] bcast_S1x1x1x1x1x3_S8x6x41x16x44x3_0_1_2_3_4_5 : (⟨S1x1x1x1x1x3, .f32⟩ : BufTy).Contents (Elt F) → (⟨S8x6x41x16x44x3, .f32⟩ : BufTy).Contents (Elt F)) ((broadcastInDim S1x1x1x1x1x3 ![5] bcast_S3_S1x1x1x1x1x3_5 : (⟨S3, .f32⟩ : BufTy).Contents (Elt F) → (⟨S1x1x1x1x1x3, .f32⟩ : BufTy).Contents (Elt F)) ((fun i => FloatOps.ofBits .f32 (lit0 (S3.rowMajor i)))))))))

/-- A point lies in the grid: 0 ≤ x < 200, 0 ≤ y < 200, 0 ≤ z < 1. -/
def kept5 (g : (⟨S8x6x41x16x44x3, .i32⟩ : BufTy).Contents (Elt F)) : (⟨S8x6x41x16x44, .i1⟩ : BufTy).Contents (Elt F) :=
  ((andi : (⟨S8x6x41x16x44, .i1⟩ : BufTy).Contents (Elt F) → (⟨S8x6x41x16x44, .i1⟩ : BufTy).Contents (Elt F) → (⟨S8x6x41x16x44, .i1⟩ : BufTy).Contents (Elt F)) ((andi : (⟨S8x6x41x16x44, .i1⟩ : BufTy).Contents (Elt F) → (⟨S8x6x41x16x44, .i1⟩ : BufTy).Contents (Elt F) → (⟨S8x6x41x16x44, .i1⟩ : BufTy).Contents (Elt F)) ((andi : (⟨S8x6x41x16x44, .i1⟩ : BufTy).Contents (Elt F) → (⟨S8x6x41x16x44, .i1⟩ : BufTy).Contents (Elt F) → (⟨S8x6x41x16x44, .i1⟩ : BufTy).Contents (Elt F)) ((andi : (⟨S8x6x41x16x44, .i1⟩ : BufTy).Contents (Elt F) → (⟨S8x6x41x16x44, .i1⟩ : BufTy).Contents (Elt F) → (⟨S8x6x41x16x44, .i1⟩ : BufTy).Contents (Elt F)) ((andi : (⟨S8x6x41x16x44, .i1⟩ : BufTy).Contents (Elt F) → (⟨S8x6x41x16x44, .i1⟩ : BufTy).Contents (Elt F) → (⟨S8x6x41x16x44, .i1⟩ : BufTy).Contents (Elt F)) ((cmpi .sge : (⟨S8x6x41x16x44, .i32⟩ : BufTy).Contents (Elt F) → (⟨S8x6x41x16x44, .i32⟩ : BufTy).Contents (Elt F) → (⟨S8x6x41x16x44, .i1⟩ : BufTy).Contents (Elt F)) (shapeCast S8x6x41x16x44 (((extractStridedSlice S8x6x41x16x44x1 ![0, 0, 0, 0, 0, 0] · slices_S8x6x41x16x44x3_S8x6x41x16x44x1_0_0_0_0_0_0) : (⟨S8x6x41x16x44x3, .i32⟩ : BufTy).Contents (Elt F) → (⟨S8x6x41x16x44x1, .i32⟩ : BufTy).Contents (Elt F)) g) shapeCasts_S8x6x41x16x44x1_S8x6x41x16x44) ((broadcastInDim S8x6x41x16x44 ![] bcast_S_S8x6x41x16x44 : (⟨S_, .i32⟩ : BufTy).Contents (Elt F) → (⟨S8x6x41x16x44, .i32⟩ : BufTy).Contents (Elt F)) ((constantI S_ 32 0#32)))) ((cmpi .slt : (⟨S8x6x41x16x44, .i32⟩ : BufTy).Contents (Elt F) → (⟨S8x6x41x16x44, .i32⟩ : BufTy).Contents (Elt F) → (⟨S8x6x41x16x44, .i1⟩ : BufTy).Contents (Elt F)) (shapeCast S8x6x41x16x44 (((extractStridedSlice S8x6x41x16x44x1 ![0, 0, 0, 0, 0, 0] · slices_S8x6x41x16x44x3_S8x6x41x16x44x1_0_0_0_0_0_0) : (⟨S8x6x41x16x44x3, .i32⟩ : BufTy).Contents (Elt F) → (⟨S8x6x41x16x44x1, .i32⟩ : BufTy).Contents (Elt F)) g) shapeCasts_S8x6x41x16x44x1_S8x6x41x16x44) ((broadcastInDim S8x6x41x16x44 ![] bcast_S_S8x6x41x16x44 : (⟨S_, .i32⟩ : BufTy).Contents (Elt F) → (⟨S8x6x41x16x44, .i32⟩ : BufTy).Contents (Elt F)) ((constantI S_ 32 200#32))))) ((cmpi .sge : (⟨S8x6x41x16x44, .i32⟩ : BufTy).Contents (Elt F) → (⟨S8x6x41x16x44, .i32⟩ : BufTy).Contents (Elt F) → (⟨S8x6x41x16x44, .i1⟩ : BufTy).Contents (Elt F)) (shapeCast S8x6x41x16x44 (((extractStridedSlice S8x6x41x16x44x1 ![0, 0, 0, 0, 0, 1] · slices_S8x6x41x16x44x3_S8x6x41x16x44x1_0_0_0_0_0_1) : (⟨S8x6x41x16x44x3, .i32⟩ : BufTy).Contents (Elt F) → (⟨S8x6x41x16x44x1, .i32⟩ : BufTy).Contents (Elt F)) g) shapeCasts_S8x6x41x16x44x1_S8x6x41x16x44) ((broadcastInDim S8x6x41x16x44 ![] bcast_S_S8x6x41x16x44 : (⟨S_, .i32⟩ : BufTy).Contents (Elt F) → (⟨S8x6x41x16x44, .i32⟩ : BufTy).Contents (Elt F)) ((constantI S_ 32 0#32))))) ((cmpi .slt : (⟨S8x6x41x16x44, .i32⟩ : BufTy).Contents (Elt F) → (⟨S8x6x41x16x44, .i32⟩ : BufTy).Contents (Elt F) → (⟨S8x6x41x16x44, .i1⟩ : BufTy).Contents (Elt F)) (shapeCast S8x6x41x16x44 (((extractStridedSlice S8x6x41x16x44x1 ![0, 0, 0, 0, 0, 1] · slices_S8x6x41x16x44x3_S8x6x41x16x44x1_0_0_0_0_0_1) : (⟨S8x6x41x16x44x3, .i32⟩ : BufTy).Contents (Elt F) → (⟨S8x6x41x16x44x1, .i32⟩ : BufTy).Contents (Elt F)) g) shapeCasts_S8x6x41x16x44x1_S8x6x41x16x44) ((broadcastInDim S8x6x41x16x44 ![] bcast_S_S8x6x41x16x44 : (⟨S_, .i32⟩ : BufTy).Contents (Elt F) → (⟨S8x6x41x16x44, .i32⟩ : BufTy).Contents (Elt F)) ((constantI S_ 32 200#32))))) ((cmpi .sge : (⟨S8x6x41x16x44, .i32⟩ : BufTy).Contents (Elt F) → (⟨S8x6x41x16x44, .i32⟩ : BufTy).Contents (Elt F) → (⟨S8x6x41x16x44, .i1⟩ : BufTy).Contents (Elt F)) (shapeCast S8x6x41x16x44 (((extractStridedSlice S8x6x41x16x44x1 ![0, 0, 0, 0, 0, 2] · slices_S8x6x41x16x44x3_S8x6x41x16x44x1_0_0_0_0_0_2) : (⟨S8x6x41x16x44x3, .i32⟩ : BufTy).Contents (Elt F) → (⟨S8x6x41x16x44x1, .i32⟩ : BufTy).Contents (Elt F)) g) shapeCasts_S8x6x41x16x44x1_S8x6x41x16x44) ((broadcastInDim S8x6x41x16x44 ![] bcast_S_S8x6x41x16x44 : (⟨S_, .i32⟩ : BufTy).Contents (Elt F) → (⟨S8x6x41x16x44, .i32⟩ : BufTy).Contents (Elt F)) ((constantI S_ 32 0#32))))) ((cmpi .slt : (⟨S8x6x41x16x44, .i32⟩ : BufTy).Contents (Elt F) → (⟨S8x6x41x16x44, .i32⟩ : BufTy).Contents (Elt F) → (⟨S8x6x41x16x44, .i1⟩ : BufTy).Contents (Elt F)) (shapeCast S8x6x41x16x44 (((extractStridedSlice S8x6x41x16x44x1 ![0, 0, 0, 0, 0, 2] · slices_S8x6x41x16x44x3_S8x6x41x16x44x1_0_0_0_0_0_2) : (⟨S8x6x41x16x44x3, .i32⟩ : BufTy).Contents (Elt F) → (⟨S8x6x41x16x44x1, .i32⟩ : BufTy).Contents (Elt F)) g) shapeCasts_S8x6x41x16x44x1_S8x6x41x16x44) ((broadcastInDim S8x6x41x16x44 ![] bcast_S_S8x6x41x16x44 : (⟨S_, .i32⟩ : BufTy).Contents (Elt F) → (⟨S8x6x41x16x44, .i32⟩ : BufTy).Contents (Elt F)) ((constantI S_ 32 1#32)))))

/-- The number of a point's cell: ((b · 1 + z) · 200 + x) · 200 + y. -/
def seg5 (g : (⟨S8x6x41x16x44x3, .i32⟩ : BufTy).Contents (Elt F)) : (⟨S8x6x41x16x44, .i32⟩ : BufTy).Contents (Elt F) :=
  ((addi : (⟨S8x6x41x16x44, .i32⟩ : BufTy).Contents (Elt F) → (⟨S8x6x41x16x44, .i32⟩ : BufTy).Contents (Elt F) → (⟨S8x6x41x16x44, .i32⟩ : BufTy).Contents (Elt F)) ((muli : (⟨S8x6x41x16x44, .i32⟩ : BufTy).Contents (Elt F) → (⟨S8x6x41x16x44, .i32⟩ : BufTy).Contents (Elt F) → (⟨S8x6x41x16x44, .i32⟩ : BufTy).Contents (Elt F)) ((addi : (⟨S8x6x41x16x44, .i32⟩ : BufTy).Contents (Elt F) → (⟨S8x6x41x16x44, .i32⟩ : BufTy).Contents (Elt F) → (⟨S8x6x41x16x44, .i32⟩ : BufTy).Contents (Elt F)) ((muli : (⟨S8x6x41x16x44, .i32⟩ : BufTy).Contents (Elt F) → (⟨S8x6x41x16x44, .i32⟩ : BufTy).Contents (Elt F) → (⟨S8x6x41x16x44, .i32⟩ : BufTy).Contents (Elt F)) ((addi : (⟨S8x6x41x16x44, .i32⟩ : BufTy).Contents (Elt F) → (⟨S8x6x41x16x44, .i32⟩ : BufTy).Contents (Elt F) → (⟨S8x6x41x16x44, .i32⟩ : BufTy).Contents (Elt F)) ((broadcastInDim S8x6x41x16x44 ![0, 1, 2, 3, 4] bcast_S8x1x1x1x1_S8x6x41x16x44_0_1_2_3_4 : (⟨S8x1x1x1x1, .i32⟩ : BufTy).Contents (Elt F) → (⟨S8x6x41x16x44, .i32⟩ : BufTy).Contents (Elt F)) ((muli : (⟨S8x1x1x1x1, .i32⟩ : BufTy).Contents (Elt F) → (⟨S8x1x1x1x1, .i32⟩ : BufTy).Contents (Elt F) → (⟨S8x1x1x1x1, .i32⟩ : BufTy).Contents (Elt F)) ((broadcastInDim S8x1x1x1x1 ![0] bcast_S8_S8x1x1x1x1_0 : (⟨S8, .i32⟩ : BufTy).Contents (Elt F) → (⟨S8x1x1x1x1, .i32⟩ : BufTy).Contents (Elt F)) ((iotaInDim S8 32 0))) ((broadcastInDim S8x1x1x1x1 ![] bcast_S_S8x1x1x1x1 : (⟨S_, .i32⟩ : BufTy).Contents (Elt F) → (⟨S8x1x1x1x1, .i32⟩ : BufTy).Contents (Elt F)) ((constantI S_ 32 1#32))))) (shapeCast S8x6x41x16x44 (((extractStridedSlice S8x6x41x16x44x1 ![0, 0, 0, 0, 0, 2] · slices_S8x6x41x16x44x3_S8x6x41x16x44x1_0_0_0_0_0_2) : (⟨S8x6x41x16x44x3, .i32⟩ : BufTy).Contents (Elt F) → (⟨S8x6x41x16x44x1, .i32⟩ : BufTy).Contents (Elt F)) g) shapeCasts_S8x6x41x16x44x1_S8x6x41x16x44)) ((broadcastInDim S8x6x41x16x44 ![] bcast_S_S8x6x41x16x44 : (⟨S_, .i32⟩ : BufTy).Contents (Elt F) → (⟨S8x6x41x16x44, .i32⟩ : BufTy).Contents (Elt F)) ((constantI S_ 32 200#32)))) (shapeCast S8x6x41x16x44 (((extractStridedSlice S8x6x41x16x44x1 ![0, 0, 0, 0, 0, 0] · slices_S8x6x41x16x44x3_S8x6x41x16x44x1_0_0_0_0_0_0) : (⟨S8x6x41x16x44x3, .i32⟩ : BufTy).Contents (Elt F) → (⟨S8x6x41x16x44x1, .i32⟩ : BufTy).Contents (Elt F)) g) shapeCasts_S8x6x41x16x44x1_S8x6x41x16x44)) ((broadcastInDim S8x6x41x16x44 ![] bcast_S_S8x6x41x16x44 : (⟨S_, .i32⟩ : BufTy).Contents (Elt F) → (⟨S8x6x41x16x44, .i32⟩ : BufTy).Contents (Elt F)) ((constantI S_ 32 200#32)))) (shapeCast S8x6x41x16x44 (((extractStridedSlice S8x6x41x16x44x1 ![0, 0, 0, 0, 0, 1] · slices_S8x6x41x16x44x3_S8x6x41x16x44x1_0_0_0_0_0_1) : (⟨S8x6x41x16x44x3, .i32⟩ : BufTy).Contents (Elt F) → (⟨S8x6x41x16x44x1, .i32⟩ : BufTy).Contents (Elt F)) g) shapeCasts_S8x6x41x16x44x1_S8x6x41x16x44))

/-- The cell a point is added to: its own, or cell 0 when it lies outside the grid. -/
def segSel5 (k : (⟨S8x6x41x16x44, .i1⟩ : BufTy).Contents (Elt F)) (s : (⟨S8x6x41x16x44, .i32⟩ : BufTy).Contents (Elt F)) : (⟨S8x6x41x16x44, .i32⟩ : BufTy).Contents (Elt F) :=
  (select k s ((broadcastInDim S8x6x41x16x44 ![] bcast_S_S8x6x41x16x44) ((constantI S_ 32 0#32))))

/-- The 0/1 weights: the bit as a float, viewed [48, 41, 16, 44]. -/
def keptF (k : (⟨S8x6x41x16x44, .i1⟩ : BufTy).Contents (Elt F)) : (⟨S48x41x16x44, .f32⟩ : BufTy).Contents (Elt F) :=
  (shapeCast S48x41x16x44 ((uitofp .f32 : (⟨S8x6x41x16x44, .i1⟩ : BufTy).Contents (Elt F) → (⟨S8x6x41x16x44, .f32⟩ : BufTy).Contents (Elt F)) k) shapeCasts_S8x6x41x16x44_S48x41x16x44)

/-- The lifted points, one row of 64 channels per point. -/
def pts64 (o : (⟨S48x41x16x44x64, .bf16⟩ : BufTy).Contents (Elt F)) : (⟨S1385472x64, .f32⟩ : BufTy).Contents (Elt F) :=
  (shapeCast S1385472x64 (((extf .f32 · bitsLt_bf16_f32) : (⟨S8x6x41x16x44x64, .bf16⟩ : BufTy).Contents (Elt F) → (⟨S8x6x41x16x44x64, .f32⟩ : BufTy).Contents (Elt F)) (shapeCast S8x6x41x16x44x64 o shapeCasts_S48x41x16x44x64_S8x6x41x16x44x64)) shapeCasts_S8x6x41x16x44x64_S1385472x64)

/-- The cell numbers, one per point. -/
def flat (s : (⟨S8x6x41x16x44, .i32⟩ : BufTy).Contents (Elt F)) : (⟨S1385472, .i32⟩ : BufTy).Contents (Elt F) :=
  (shapeCast S1385472 s shapeCasts_S8x6x41x16x44_S1385472)

/-- Each point's row added into its cell's row, from zeros. -/
def pool (s : (⟨S1385472, .i32⟩ : BufTy).Contents (Elt F)) (u : (⟨S1385472x64, .f32⟩ : BufTy).Contents (Elt F)) : (⟨S320000x64, .f32⟩ : BufTy).Contents (Elt F) :=
  (((fun x i u => Host.scatterAdd scatter_S320000x64_S1385472x1_S1385472x64_1_0_0_1 x i u) : (⟨S320000x64, .f32⟩ : BufTy).Contents (Elt F) → (⟨S1385472x1, .i32⟩ : BufTy).Contents (Elt F) → (⟨S1385472x64, .f32⟩ : BufTy).Contents (Elt F) → (⟨S320000x64, .f32⟩ : BufTy).Contents (Elt F)) ((broadcastInDim S320000x64 ![] bcast_S_S320000x64 : (⟨S_, .f32⟩ : BufTy).Contents (Elt F) → (⟨S320000x64, .f32⟩ : BufTy).Contents (Elt F)) ((constant S_ .f32 0x00000000#32))) ((broadcastInDim S1385472x1 ![0] bcast_S1385472_S1385472x1_0 : (⟨S1385472, .i32⟩ : BufTy).Contents (Elt F) → (⟨S1385472x1, .i32⟩ : BufTy).Contents (Elt F)) s) u)

/-- The cells re-laid [8·1·200·200, 64] → [8, 64, 200, 200]. -/
def tail (x : (⟨S320000x64, .f32⟩ : BufTy).Contents (Elt F)) : (⟨S8x64x200x200, .f32⟩ : BufTy).Contents (Elt F) :=
  (shapeCast S8x64x200x200 (((transpose S8x1x64x200x200 [0, 1, 4, 2, 3] · transposes_S8x1x200x200x64_S8x1x64x200x200_0_1_4_2_3) : (⟨S8x1x200x200x64, .f32⟩ : BufTy).Contents (Elt F) → (⟨S8x1x64x200x200, .f32⟩ : BufTy).Contents (Elt F)) (shapeCast S8x1x200x200x64 x shapeCasts_S320000x64_S8x1x200x200x64)) shapeCasts_S8x1x64x200x200_S8x64x200x200)

variable (m : (ℓ : Loc nD τ sig) → Buf (Elt F) ℓ)

set_option maxRecDepth 16384 in
set_option maxHeartbeats 4000000 in
/-- The weights the region finds: a function of the geometry as launched. -/
theorem V_v48 (c : Dev nD) :
    Gen.V m c main_v48 = keptF (kept5 (gi (m ((c : Thread nD τ).loc main_arg2)))) := by
  dsimp only [Gen.V, Gen.V0]
  simp only [Gen.hostOps0, Gen.hostOps0_1, Gen.hostOps0_2, List.flatten_cons, List.flatten_nil, List.append_nil, List.cons_append,
    List.nil_append]
  after_results_simp
  rfl

set_option maxRecDepth 16384 in
set_option maxHeartbeats 4000000 in
/-- The cell numbers the region leaves untouched: a function of the geometry as launched. -/
theorem V0_v46 (c : Dev nD) :
    Gen.V0 m c (Proc.devRef .tc main_v46)
      = segSel5 (kept5 (gi (m ((c : Thread nD τ).loc main_arg2)))) (seg5 (gi (m ((c : Thread nD τ).loc main_arg2)))) := by
  dsimp only [Gen.V0]
  simp only [Gen.hostOps0, Gen.hostOps0_1, Gen.hostOps0_2, List.flatten_cons, List.flatten_nil, List.append_nil, List.cons_append,
    List.nil_append]
  after_results_simp
  rfl

/-- The program's result after the lines that follow the region: the pooled, re-laid rows of the region's output array. -/
theorem tail_eq (c : Dev nD) :
    Pipeline.afterTail₀ cfgs (Gen.dats m) 0 (Gen.V0 m) [Gen.hostOps1] c main_v59
      = tail (pool (flat (Gen.V0 m c (Proc.devRef .tc main_v46))) (pts64 ((Gen.dats m 0 c).arrAt 3 cfg0.N))) := by
  have h49 : ∀ (V : Valuation τ sig (Elt F)) A, Pipeline.withArrays spec0 c V A (Proc.devRef .tc main_v49) = A 3 :=
    fun V A => Pipeline.withArrays_arr spec0 Gen.launch0.win.arr_inj c V A 3
  have h46 : ∀ (V : Valuation τ sig (Elt F)) A, Pipeline.withArrays spec0 c V A (Proc.devRef .tc main_v46) = V (Proc.devRef .tc main_v46) :=
    fun V A => Pipeline.withArrays_of_ne spec0 c V A main_v46 (by decide)
  unfold Pipeline.afterTail₀
  show StableHlo.after Gen.hostOps1 _ (Proc.devRef .tc main_v59) = _
  after_results
  rw [h49, h46]
  rfl

end Cert.KernelIdeal.KerHost

end
-- ==== Proof.RefRun.lean ====
/-
  The reference's @main as ONE straight line of host operations: its own 103 and, at the two calls of the
  outlined `where`, the callee's three (the scalar converted to its own type, its broadcast, the select) over the
  call's buffers. Every weakly fair execution of it terminates with each buffer at the fold of the operations'
  results over the launch contents.
-/
import proofs.«181644_j3272765080377_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls inlined. -/
abbrev ops : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_cst_1 (constant S_ .f32 0xFF800000#32),
    StableHlo.binary main_arg0 main_cst_1 main_v0 ((fun x v => Host.reduce FloatOps.maximumf x v reducesTo_S48x41x16x44_S48x16x44_d1 h_S_) : (⟨S48x41x16x44, .f32⟩ : BufTy).Contents (Elt F) → (⟨S_, .f32⟩ : BufTy).Contents (Elt F) → (⟨S48x16x44, .f32⟩ : BufTy).Contents (Elt F)),
    StableHlo.nullary main_cst_2 (constant S_ .f32 0xFF800000#32),
    StableHlo.unary main_cst_2 main_v1 (broadcastInDim S48x16x44 ![] bcast_S_S48x16x44 : (⟨S_, .f32⟩ : BufTy).Contents (Elt F) → (⟨S48x16x44, .f32⟩ : BufTy).Contents (Elt F)),
    StableHlo.binary main_v1 main_v0 main_v2 (maximumf : (⟨S48x16x44, .f32⟩ : BufTy).Contents (Elt F) → (⟨S48x16x44, .f32⟩ : BufTy).Contents (Elt F) → (⟨S48x16x44, .f32⟩ : BufTy).Contents (Elt F)),
    StableHlo.unary main_v2 main_v3 (broadcastInDim S48x1x16x44 ![0, 2, 3] bcast_S48x16x44_S48x1x16x44_0_2_3 : (⟨S48x16x44, .f32⟩ : BufTy).Contents (Elt F) → (⟨S48x1x16x44, .f32⟩ : BufTy).Contents (Elt F)),
    StableHlo.unary main_v3 main_v4 (broadcastInDim S48x41x16x44 ![0, 1, 2, 3] bcast_S48x1x16x44_S48x41x16x44_0_1_2_3 : (⟨S48x1x16x44, .f32⟩ : BufTy).Contents (Elt F) → (⟨S48x41x16x44, .f32⟩ : BufTy).Contents (Elt F)),
    StableHlo.binary main_arg0 main_v4 main_v5 (subf : (⟨S48x41x16x44, .f32⟩ : BufTy).Contents (Elt F) → (⟨S48x41x16x44, .f32⟩ : BufTy).Contents (Elt F) → (⟨S48x41x16x44, .f32⟩ : BufTy).Contents (Elt F)),
    StableHlo.unary main_v5 main_v6 (Host.exp : (⟨S48x41x16x44, .f32⟩ : BufTy).Contents (Elt F) → (⟨S48x41x16x44, .f32⟩ : BufTy).Contents (Elt F)),
    StableHlo.nullary main_cst_3 (constant S_ .f32 0x00000000#32),
    StableHlo.binary main_v6 main_cst_3 main_v7 ((fun x v => Host.reduceAdd x v reducesTo_S48x41x16x44_S48x16x44_d1 h_S_) : (⟨S48x41x16x44, .f32⟩ : BufTy).Contents (Elt F) → (⟨S_, .f32⟩ : BufTy).Contents (Elt F) → (⟨S48x16x44, .f32⟩ : BufTy).Contents (Elt F)),
    StableHlo.unary main_v7 main_v8 (broadcastInDim S48x1x16x44 ![0, 2, 3] bcast_S48x16x44_S48x1x16x44_0_2_3 : (⟨S48x16x44, .f32⟩ : BufTy).Contents (Elt F) → (⟨S48x1x16x44, .f32⟩ : BufTy).Contents (Elt F)),
    StableHlo.unary main_v8 main_v9 (broadcastInDim S48x41x16x44 ![0, 1, 2, 3] bcast_S48x1x16x44_S48x41x16x44_0_1_2_3 : (⟨S48x1x16x44, .f32⟩ : BufTy).Contents (Elt F) → (⟨S48x41x16x44, .f32⟩ : BufTy).Contents (Elt F)),
    StableHlo.binary main_v6 main_v9 main_v10 (Host.divf : (⟨S48x41x16x44, .f32⟩ : BufTy).Contents (Elt F) → (⟨S48x41x16x44, .f32⟩ : BufTy).Contents (Elt F) → (⟨S48x41x16x44, .f32⟩ : BufTy).Contents (Elt F)),
    StableHlo.unary main_v10 main_v11 (broadcastInDim S48x1x41x16x44 ![0, 2, 3, 4] bcast_S48x41x16x44_S48x1x41x16x44_0_2_3_4 : (⟨S48x41x16x44, .f32⟩ : BufTy).Contents (Elt F) → (⟨S48x1x41x16x44, .f32⟩ : BufTy).Contents (Elt F)),
    StableHlo.unary main_arg1 main_v12 (broadcastInDim S48x64x1x16x44 ![0, 1, 3, 4] bcast_S48x64x16x44_S48x64x1x16x44_0_1_3_4 : (⟨S48x64x16x44, .f32⟩ : BufTy).Contents (Elt F) → (⟨S48x64x1x16x44, .f32⟩ : BufTy).Contents (Elt F)),
    StableHlo.unary main_v11 main_v13 (broadcastInDim S48x64x41x16x44 ![0, 1, 2, 3, 4] bcast_S48x1x41x16x44_S48x64x41x16x44_0_1_2_3_4 : (⟨S48x1x41x16x44, .f32⟩ : BufTy).Contents (Elt F) → (⟨S48x64x41x16x44, .f32⟩ : BufTy).Contents (Elt F)),
    StableHlo.unary main_v12 main_v14 (broadcastInDim S48x64x41x16x44 ![0, 1, 2, 3, 4] bcast_S48x64x1x16x44_S48x64x41x16x44_0_1_2_3_4 : (⟨S48x64x1x16x44, .f32⟩ : BufTy).Contents (Elt F) → (⟨S48x64x41x16x44, .f32⟩ : BufTy).Contents (Elt F)),
    StableHlo.binary main_v13 main_v14 main_v15 (mulf : (⟨S48x64x41x16x44, .f32⟩ : BufTy).Contents (Elt F) → (⟨S48x64x41x16x44, .f32⟩ : BufTy).Contents (Elt F) → (⟨S48x64x41x16x44, .f32⟩ : BufTy).Contents (Elt F)),
    StableHlo.reshape main_v15 main_v16 rfl shapeCasts_S48x64x41x16x44_S8x6x64x41x16x44,
    StableHlo.unary main_v16 main_v17 ((transpose S8x6x41x16x44x64 [0, 1, 3, 4, 5, 2] · transposes_S8x6x64x41x16x44_S8x6x41x16x44x64_0_1_3_4_5_2) : (⟨S8x6x64x41x16x44, .f32⟩ : BufTy).Contents (Elt F) → (⟨S8x6x41x16x44x64, .f32⟩ : BufTy).Contents (Elt F)),
    StableHlo.reshape main_v17 main_v18 rfl shapeCasts_S8x6x41x16x44x64_S1385472x64,
    StableHlo.nullary main_cst_4 (constant S_ .f32 0x40000000#32),
    StableHlo.unary main_cst_4 main_v19 (broadcastInDim S3 ![] bcast_S_S3 : (⟨S_, .f32⟩ : BufTy).Contents (Elt F) → (⟨S3, .f32⟩ : BufTy).Contents (Elt F)),
    StableHlo.binary main_cst main_v19 main_v20 (Host.divf : (⟨S3, .f32⟩ : BufTy).Contents (Elt F) → (⟨S3, .f32⟩ : BufTy).Contents (Elt F) → (⟨S3, .f32⟩ : BufTy).Contents (Elt F)),
    StableHlo.binary main_cst_0 main_v20 main_v21 (subf : (⟨S3, .f32⟩ : BufTy).Contents (Elt F) → (⟨S3, .f32⟩ : BufTy).Contents (Elt F) → (⟨S3, .f32⟩ : BufTy).Contents (Elt F)),
    StableHlo.unary main_v21 main_v22 (broadcastInDim S1x1x1x1x1x3 ![5] bcast_S3_S1x1x1x1x1x3_5 : (⟨S3, .f32⟩ : BufTy).Contents (Elt F) → (⟨S1x1x1x1x1x3, .f32⟩ : BufTy).Contents (Elt F)),
    StableHlo.unary main_v22 main_v23 (broadcastInDim S8x6x41x16x44x3 ![0, 1, 2, 3, 4, 5] bcast_S1x1x1x1x1x3_S8x6x41x16x44x3_0_1_2_3_4_5 : (⟨S1x1x1x1x1x3, .f32⟩ : BufTy).Contents (Elt F) → (⟨S8x6x41x16x44x3, .f32⟩ : BufTy).Contents (Elt F)),
    StableHlo.binary main_arg2 main_v23 main_v24 (subf : (⟨S8x6x41x16x44x3, .f32⟩ : BufTy).Contents (Elt F) → (⟨S8x6x41x16x44x3, .f32⟩ : BufTy).Contents (Elt F) → (⟨S8x6x41x16x44x3, .f32⟩ : BufTy).Contents (Elt F)),
    StableHlo.unary main_cst main_v25 (broadcastInDim S1x1x1x1x1x3 ![5] bcast_S3_S1x1x1x1x1x3_5 : (⟨S3, .f32⟩ : BufTy).Contents (Elt F) → (⟨S1x1x1x1x1x3, .f32⟩ : BufTy).Contents (Elt F)),
    StableHlo.unary main_v25 main_v26 (broadcastInDim S8x6x41x16x44x3 ![0, 1, 2, 3, 4, 5] bcast_S1x1x1x1x1x3_S8x6x41x16x44x3_0_1_2_3_4_5 : (⟨S1x1x1x1x1x3, .f32⟩ : BufTy).Contents (Elt F) → (⟨S8x6x41x16x44x3, .f32⟩ : BufTy).Contents (Elt F)),
    StableHlo.binary main_v24 main_v26 main_v27 (Host.divf : (⟨S8x6x41x16x44x3, .f32⟩ : BufTy).Contents (Elt F) → (⟨S8x6x41x16x44x3, .f32⟩ : BufTy).Contents (Elt F) → (⟨S8x6x41x16x44x3, .f32⟩ : BufTy).Contents (Elt F)),
    StableHlo.unary main_v27 main_v28 (Host.floor : (⟨S8x6x41x16x44x3, .f32⟩ : BufTy).Contents (Elt F) → (⟨S8x6x41x16x44x3, .f32⟩ : BufTy).Contents (Elt F)),
    StableHlo.unary main_v28 main_v29 (fptosi 32 : (⟨S8x6x41x16x44x3, .f32⟩ : BufTy).Contents (Elt F) → (⟨S8x6x41x16x44x3, .i32⟩ : BufTy).Contents (Elt F)),
    StableHlo.reshape main_v29 main_v30 rfl shapeCasts_S8x6x41x16x44x3_S1385472x3,
    StableHlo.nullary main_v31 (iotaInDim S8 32 0),
    StableHlo.unary main_v31 main_v32 (broadcastInDim S8x173184 ![0] bcast_S8_S8x173184_0 : (⟨S8, .i32⟩ : BufTy).Contents (Elt F) → (⟨S8x173184, .i32⟩ : BufTy).Contents (Elt F)),
    StableHlo.reshape main_v32 main_v33 rfl shapeCasts_S8x173184_S1385472,
    StableHlo.unary main_v30 main_v34 ((extractStridedSlice S1385472x1 ![0, 0] · slices_S1385472x3_S1385472x1_0_0) : (⟨S1385472x3, .i32⟩ : BufTy).Contents (Elt F) → (⟨S1385472x1, .i32⟩ : BufTy).Contents (Elt F)),
    StableHlo.reshape main_v34 main_v35 rfl shapeCasts_S1385472x1_S1385472,
    StableHlo.nullary main_c (constantI S_ 32 0#32),
    StableHlo.unary main_c main_v36 (broadcastInDim S1385472 ![] bcast_S_S1385472 : (⟨S_, .i32⟩ : BufTy).Contents (Elt F) → (⟨S1385472, .i32⟩ : BufTy).Contents (Elt F)),
    StableHlo.binary main_v35 main_v36 main_v37 (cmpi .sge : (⟨S1385472, .i32⟩ : BufTy).Contents (Elt F) → (⟨S1385472, .i32⟩ : BufTy).Contents (Elt F) → (⟨S1385472, .i1⟩ : BufTy).Contents (Elt F)),
    StableHlo.unary main_v30 main_v38 ((extractStridedSlice S1385472x1 ![0, 0] · slices_S1385472x3_S1385472x1_0_0) : (⟨S1385472x3, .i32⟩ : BufTy).Contents (Elt F) → (⟨S1385472x1, .i32⟩ : BufTy).Contents (Elt F)),
    StableHlo.reshape main_v38 main_v39 rfl shapeCasts_S1385472x1_S1385472,
    StableHlo.nullary main_c_5 (constantI S_ 32 200#32),
    StableHlo.unary main_c_5 main_v40 (broadcastInDim S1385472 ![] bcast_S_S1385472 : (⟨S_, .i32⟩ : BufTy).Contents (Elt F) → (⟨S1385472, .i32⟩ : BufTy).Contents (Elt F)),
    StableHlo.binary main_v39 main_v40 main_v41 (cmpi .slt : (⟨S1385472, .i32⟩ : BufTy).Contents (Elt F) → (⟨S1385472, .i32⟩ : BufTy).Contents (Elt F) → (⟨S1385472, .i1⟩ : BufTy).Contents (Elt F)),
    StableHlo.binary main_v37 main_v41 main_v42 (andi : (⟨S1385472, .i1⟩ : BufTy).Contents (Elt F) → (⟨S1385472, .i1⟩ : BufTy).Contents (Elt F) → (⟨S1385472, .i1⟩ : BufTy).Contents (Elt F)),
    StableHlo.unary main_v30 main_v43 ((extractStridedSlice S1385472x1 ![0, 1] · slices_S1385472x3_S1385472x1_0_1) : (⟨S1385472x3, .i32⟩ : BufTy).Contents (Elt F) → (⟨S1385472x1, .i32⟩ : BufTy).Contents (Elt F)),
    StableHlo.reshape main_v43 main_v44 rfl shapeCasts_S1385472x1_S1385472,
    StableHlo.nullary main_c_6 (constantI S_ 32 0#32),
    StableHlo.unary main_c_6 main_v45 (broadcastInDim S1385472 ![] bcast_S_S1385472 : (⟨S_, .i32⟩ : BufTy).Contents (Elt F) → (⟨S1385472, .i32⟩ : BufTy).Contents (Elt F)),
    StableHlo.binary main_v44 main_v45 main_v46 (cmpi .sge : (⟨S1385472, .i32⟩ : BufTy).Contents (Elt F) → (⟨S1385472, .i32⟩ : BufTy).Contents (Elt F) → (⟨S1385472, .i1⟩ : BufTy).Contents (Elt F)),
    StableHlo.binary main_v42 main_v46 main_v47 (andi : (⟨S1385472, .i1⟩ : BufTy).Contents (Elt F) → (⟨S1385472, .i1⟩ : BufTy).Contents (Elt F) → (⟨S1385472, .i1⟩ : BufTy).Contents (Elt F)),
    StableHlo.unary main_v30 main_v48 ((extractStridedSlice S1385472x1 ![0, 1] · slices_S1385472x3_S1385472x1_0_1) : (⟨S1385472x3, .i32⟩ : BufTy).Contents (Elt F) → (⟨S1385472x1, .i32⟩ : BufTy).Contents (Elt F)),
    StableHlo.reshape main_v48 main_v49 rfl shapeCasts_S1385472x1_S1385472,
    StableHlo.nullary main_c_7 (constantI S_ 32 200#32),
    StableHlo.unary main_c_7 main_v50 (broadcastInDim S1385472 ![] bcast_S_S1385472 : (⟨S_, .i32⟩ : BufTy).Contents (Elt F) → (⟨S1385472, .i32⟩ : BufTy).Contents (Elt F)),
    StableHlo.binary main_v49 main_v50 main_v51 (cmpi .slt : (⟨S1385472, .i32⟩ : BufTy).Contents (Elt F) → (⟨S1385472, .i32⟩ : BufTy).Contents (Elt F) → (⟨S1385472, .i1⟩ : BufTy).Contents (Elt F)),
    StableHlo.binary main_v47 main_v51 main_v52 (andi : (⟨S1385472, .i1⟩ : BufTy).Contents (Elt F) → (⟨S1385472, .i1⟩ : BufTy).Contents (Elt F) → (⟨S1385472, .i1⟩ : BufTy).Contents (Elt F)),
    StableHlo.unary main_v30 main_v53 ((extractStridedSlice S1385472x1 ![0, 2] · slices_S1385472x3_S1385472x1_0_2) : (⟨S1385472x3, .i32⟩ : BufTy).Contents (Elt F) → (⟨S1385472x1, .i32⟩ : BufTy).Contents (Elt F)),
    StableHlo.reshape main_v53 main_v54 rfl shapeCasts_S1385472x1_S1385472,
    StableHlo.nullary main_c_8 (constantI S_ 32 0#32),
    StableHlo.unary main_c_8 main_v55 (broadcastInDim S1385472 ![] bcast_S_S1385472 : (⟨S_, .i32⟩ : BufTy).Contents (Elt F) → (⟨S1385472, .i32⟩ : BufTy).Contents (Elt F)),
    StableHlo.binary main_v54 main_v55 main_v56 (cmpi .sge : (⟨S1385472, .i32⟩ : BufTy).Contents (Elt F) → (⟨S1385472, .i32⟩ : BufTy).Contents (Elt F) → (⟨S1385472, .i1⟩ : BufTy).Contents (Elt F)),
    StableHlo.binary main_v52 main_v56 main_v57 (andi : (⟨S1385472, .i1⟩ : BufTy).Contents (Elt F) → (⟨S1385472, .i1⟩ : BufTy).Contents (Elt F) → (⟨S1385472, .i1⟩ : BufTy).Contents (Elt F)),
    StableHlo.unary main_v30 main_v58 ((extractStridedSlice S1385472x1 ![0, 2] · slices_S1385472x3_S1385472x1_0_2) : (⟨S1385472x3, .i32⟩ : BufTy).Contents (Elt F) → (⟨S1385472x1, .i32⟩ : BufTy).Contents (Elt F)),
    StableHlo.reshape main_v58 main_v59 rfl shapeCasts_S1385472x1_S1385472,
    StableHlo.nullary main_c_9 (constantI S_ 32 1#32),
    StableHlo.unary main_c_9 main_v60 (broadcastInDim S1385472 ![] bcast_S_S1385472 : (⟨S_, .i32⟩ : BufTy).Contents (Elt F) → (⟨S1385472, .i32⟩ : BufTy).Contents (Elt F)),
    StableHlo.binary main_v59 main_v60 main_v61 (cmpi .slt : (⟨S1385472, .i32⟩ : BufTy).Contents (Elt F) → (⟨S1385472, .i32⟩ : BufTy).Contents (Elt F) → (⟨S1385472, .i1⟩ : BufTy).Contents (Elt F)),
    StableHlo.binary main_v57 main_v61 main_v62 (andi : (⟨S1385472, .i1⟩ : BufTy).Contents (Elt F) → (⟨S1385472, .i1⟩ : BufTy).Contents (Elt F) → (⟨S1385472, .i1⟩ : BufTy).Contents (Elt F)),
    StableHlo.nullary main_c_10 (constantI S_ 32 1#32),
    StableHlo.unary main_c_10 main_v63 (broadcastInDim S1385472 ![] bcast_S_S1385472 : (⟨S_, .i32⟩ : BufTy).Contents (Elt F) → (⟨S1385472, .i32⟩ : BufTy).Contents (Elt F)),
    StableHlo.binary main_v33 main_v63 main_v64 (muli : (⟨S1385472, .i32⟩ : BufTy).Contents (Elt F) → (⟨S1385472, .i32⟩ : BufTy).Contents (Elt F) → (⟨S1385472, .i32⟩ : BufTy).Contents (Elt F)),
    StableHlo.unary main_v30 main_v65 ((extractStridedSlice S1385472x1 ![0, 2] · slices_S1385472x3_S1385472x1_0_2) : (⟨S1385472x3, .i32⟩ : BufTy).Contents (Elt F) → (⟨S1385472x1, .i32⟩ : BufTy).Contents (Elt F)),
    StableHlo.reshape main_v65 main_v66 rfl shapeCasts_S1385472x1_S1385472,
    StableHlo.binary main_v64 main_v66 main_v67 (addi : (⟨S1385472, .i32⟩ : BufTy).Contents (Elt F) → (⟨S1385472, .i32⟩ : BufTy).Contents (Elt F) → (⟨S1385472, .i32⟩ : BufTy).Contents (Elt F)),
    StableHlo.nullary main_c_11 (constantI S_ 32 200#32),
    StableHlo.unary main_c_11 main_v68 (broadcastInDim S1385472 ![] bcast_S_S1385472 : (⟨S_, .i32⟩ : BufTy).Contents (Elt F) → (⟨S1385472, .i32⟩ : BufTy).Contents (Elt F)),
    StableHlo.binary main_v67 main_v68 main_v69 (muli : (⟨S1385472, .i32⟩ : BufTy).Contents (Elt F) → (⟨S1385472, .i32⟩ : BufTy).Contents (Elt F) → (⟨S1385472, .i32⟩ : BufTy).Contents (Elt F)),
    StableHlo.unary main_v30 main_v70 ((extractStridedSlice S1385472x1 ![0, 0] · slices_S1385472x3_S1385472x1_0_0) : (⟨S1385472x3, .i32⟩ : BufTy).Contents (Elt F) → (⟨S1385472x1, .i32⟩ : BufTy).Contents (Elt F)),
    StableHlo.reshape main_v70 main_v71 rfl shapeCasts_S1385472x1_S1385472,
    StableHlo.binary main_v69 main_v71 main_v72 (addi : (⟨S1385472, .i32⟩ : BufTy).Contents (Elt F) → (⟨S1385472, .i32⟩ : BufTy).Contents (Elt F) → (⟨S1385472, .i32⟩ : BufTy).Contents (Elt F)),
    StableHlo.nullary main_c_12 (constantI S_ 32 200#32),
    StableHlo.unary main_c_12 main_v73 (broadcastInDim S1385472 ![] bcast_S_S1385472 : (⟨S_, .i32⟩ : BufTy).Contents (Elt F) → (⟨S1385472, .i32⟩ : BufTy).Contents (Elt F)),
    StableHlo.binary main_v72 main_v73 main_v74 (muli : (⟨S1385472, .i32⟩ : BufTy).Contents (Elt F) → (⟨S1385472, .i32⟩ : BufTy).Contents (Elt F) → (⟨S1385472, .i32⟩ : BufTy).Contents (Elt F)),
    StableHlo.unary main_v30 main_v75 ((extractStridedSlice S1385472x1 ![0, 1] · slices_S1385472x3_S1385472x1_0_1) : (⟨S1385472x3, .i32⟩ : BufTy).Contents (Elt F) → (⟨S1385472x1, .i32⟩ : BufTy).Contents (Elt F)),
    StableHlo.reshape main_v75 main_v76 rfl shapeCasts_S1385472x1_S1385472,
    StableHlo.binary main_v74 main_v76 main_v77 (addi : (⟨S1385472, .i32⟩ : BufTy).Contents (Elt F) → (⟨S1385472, .i32⟩ : BufTy).Contents (Elt F) → (⟨S1385472, .i32⟩ : BufTy).Contents (Elt F)),
    StableHlo.nullary main_c_13 (constantI S_ 32 0#32),
    StableHlo.TRef.unary (.of main_c_13 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1385472, .i32⟩) (broadcastInDim S1385472 ![] bcast_S_S1385472),
    StableHlo.TRef.ternary (.of main_v62 : StableHlo.TRef sig ⟨S1385472, .i1⟩) (.of main_v77 : StableHlo.TRef sig ⟨S1385472, .i32⟩) (.of main_call0_v1 : StableHlo.TRef sig ⟨S1385472, .i32⟩) (.of main_v78 : StableHlo.TRef sig ⟨S1385472, .i32⟩) select,
    StableHlo.unary main_v62 main_v79 (broadcastInDim S1385472x1 ![0] bcast_S1385472_S1385472x1_0 : (⟨S1385472, .i1⟩ : BufTy).Contents (Elt F) → (⟨S1385472x1, .i1⟩ : BufTy).Contents (Elt F)),
    StableHlo.nullary main_cst_14 (constant S_ .f32 0x00000000#32),
    StableHlo.TRef.unary (.of main_v79 : StableHlo.TRef sig ⟨S1385472x1, .i1⟩) (.of main_call1_v0 : StableHlo.TRef sig ⟨S1385472x64, .i1⟩) (broadcastInDim S1385472x64 ![0, 1] bcast_S1385472x1_S1385472x64_0_1),
    StableHlo.TRef.unary (.of main_cst_14 : StableHlo.TRef sig ⟨S_, .f32⟩) (.of main_call1_v1 : StableHlo.TRef sig ⟨S1385472x64, .f32⟩) (broadcastInDim S1385472x64 ![] bcast_S_S1385472x64),
    StableHlo.TRef.ternary (.of main_call1_v0 : StableHlo.TRef sig ⟨S1385472x64, .i1⟩) (.of main_v18 : StableHlo.TRef sig ⟨S1385472x64, .f32⟩) (.of main_call1_v1 : StableHlo.TRef sig ⟨S1385472x64, .f32⟩) (.of main_v80 : StableHlo.TRef sig ⟨S1385472x64, .f32⟩) select,
    StableHlo.nullary main_cst_15 (constant S_ .f32 0x00000000#32),
    StableHlo.unary main_cst_15 main_v81 (broadcastInDim S320000x64 ![] bcast_S_S320000x64 : (⟨S_, .f32⟩ : BufTy).Contents (Elt F) → (⟨S320000x64, .f32⟩ : BufTy).Contents (Elt F)),
    StableHlo.unary main_v78 main_v82 (broadcastInDim S1385472x1 ![0] bcast_S1385472_S1385472x1_0 : (⟨S1385472, .i32⟩ : BufTy).Contents (Elt F) → (⟨S1385472x1, .i32⟩ : BufTy).Contents (Elt F)),
    StableHlo.ternary main_v81 main_v82 main_v80 main_v83 ((fun x i u => Host.scatterAdd scatter_S320000x64_S1385472x1_S1385472x64_1_0_0_1 x i u) : (⟨S320000x64, .f32⟩ : BufTy).Contents (Elt F) → (⟨S1385472x1, .i32⟩ : BufTy).Contents (Elt F) → (⟨S1385472x64, .f32⟩ : BufTy).Contents (Elt F) → (⟨S320000x64, .f32⟩ : BufTy).Contents (Elt F)),
    StableHlo.reshape main_v83 main_v84 rfl shapeCasts_S320000x64_S8x1x200x200x64,
    StableHlo.unary main_v84 main_v85 ((transpose S8x1x64x200x200 [0, 1, 4, 2, 3] · transposes_S8x1x200x200x64_S8x1x64x200x200_0_1_4_2_3) : (⟨S8x1x200x200x64, .f32⟩ : BufTy).Contents (Elt F) → (⟨S8x1x64x200x200, .f32⟩ : BufTy).Contents (Elt F)),
    StableHlo.reshape main_v85 main_v86 rfl shapeCasts_S8x1x64x200x200_S8x64x200x200 ]

set_option maxRecDepth 8192 in
set_option maxHeartbeats 4000000 in
/-- @main is that straight line: its two windows in sequence, the callee's definition unfolded at each call, the
    sequencing reassociated. -/
theorem main_eq (c : Dev nD) : main (F := F) c = seq ops := by
  simp only [main, main_part0, main_part1, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., nullary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., reshape_bufs_sub .., nullary_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., unary_bufs_sub .., ternary_bufs_sub .., reshape_bufs_sub .., unary_bufs_sub .., reshape_bufs_sub ..⟩

/-- From any memory with zero counters every weakly fair execution of @main terminates, each buffer at the fold of
    the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result as a function of its three arguments, cut at the joints of the mathematics:
  `gi` the integer voxel coordinates of every point (floor of (geom − origin) / dx, as 32-bit integers), `pts` the same
  listed point by point ([P, 3], P = 8·6·41·16·44), `kept` whether a point lies in the 200 × 200 × 1 grid, `seg` its
  cell's number, `prob` the softmax over the depths, `pf` probability × feature listed point by point ([P, 64]),
  `upd` the same with the points outside the grid set to zero, `pool` the sum of the points' rows per cell, `tail` the
  re-layout of the cells to [8, 64, 200, 200]. The run's fold at the result buffer is `out` of the launch contents.
-/
import proofs.«181644_j3272765080377_1_alg».proof.Proof.RefRun

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The voxel coordinates of every point and axis: ⌊(geom − (bx − dx/2)) / dx⌋ as 32-bit integers. -/
def gi (a2 : (⟨S8x6x41x16x44x3, .f32⟩ : BufTy).Contents (Elt F)) : (⟨S8x6x41x16x44x3, .i32⟩ : BufTy).Contents (Elt F) :=
  ((fptosi 32 : (⟨S8x6x41x16x44x3, .f32⟩ : BufTy).Contents (Elt F) → (⟨S8x6x41x16x44x3, .i32⟩ : BufTy).Contents (Elt F)) ((Host.floor : (⟨S8x6x41x16x44x3, .f32⟩ : BufTy).Contents (Elt F) → (⟨S8x6x41x16x44x3, .f32⟩ : BufTy).Contents (Elt F)) ((Host.divf : (⟨S8x6x41x16x44x3, .f32⟩ : BufTy).Contents (Elt F) → (⟨S8x6x41x16x44x3, .f32⟩ : BufTy).Contents (Elt F) → (⟨S8x6x41x16x44x3, .f32⟩ : BufTy).Contents (Elt F)) ((subf : (⟨S8x6x41x16x44x3, .f32⟩ : BufTy).Contents (Elt F) → (⟨S8x6x41x16x44x3, .f32⟩ : BufTy).Contents (Elt F) → (⟨S8x6x41x16x44x3, .f32⟩ : BufTy).Contents (Elt F)) a2 ((broadcastInDim S8x6x41x16x44x3 ![0, 1, 2, 3, 4, 5] bcast_S1x1x1x1x1x3_S8x6x41x16x44x3_0_1_2_3_4_5 : (⟨S1x1x1x1x1x3, .f32⟩ : BufTy).Contents (Elt F) → (⟨S8x6x41x16x44x3, .f32⟩ : BufTy).Contents (Elt F)) ((broadcastInDim S1x1x1x1x1x3 ![5] bcast_S3_S1x1x1x1x1x3_5 : (⟨S3, .f32⟩ : BufTy).Contents (Elt F) → (⟨S1x1x1x1x1x3, .f32⟩ : BufTy).Contents (Elt F)) ((subf : (⟨S3, .f32⟩ : BufTy).Contents (Elt F) → (⟨S3, .f32⟩ : BufTy).Contents (Elt F) → (⟨S3, .f32⟩ : BufTy).Contents (Elt F)) ((fun i => FloatOps.ofBits .f32 (lit1 (S3.rowMajor i)))) ((Host.divf : (⟨S3, .f32⟩ : BufTy).Contents (Elt F) → (⟨S3, .f32⟩ : BufTy).Contents (Elt F) → (⟨S3, .f32⟩ : BufTy).Contents (Elt F)) ((fun i => FloatOps.ofBits .f32 (lit0 (S3.rowMajor i)))) ((broadcastInDim S3 ![] bcast_S_S3 : (⟨S_, .f32⟩ : BufTy).Contents (Elt F) → (⟨S3, .f32⟩ : BufTy).Contents (Elt F)) ((constant S_ .f32 0x40000000#32)))))))) ((broadcastInDim S8x6x41x16x44x3 ![0, 1, 2, 3, 4, 5] bcast_S1x1x1x1x1x3_S8x6x41x16x44x3_0_1_2_3_4_5 : (⟨S1x1x1x1x1x3, .f32⟩ : BufTy).Contents (Elt F) → (⟨S8x6x41x16x44x3, .f32⟩ : BufTy).Contents (Elt F)) ((broadcastInDim S1x1x1x1x1x3 ![5] bcast_S3_S1x1x1x1x1x3_5 : (⟨S3, .f32⟩ : BufTy).Contents (Elt F) → (⟨S1x1x1x1x1x3, .f32⟩ : BufTy).Contents (Elt F)) ((fun i => FloatOps.ofBits .f32 (lit0 (S3.rowMajor i)))))))))

/-- The same, one row of three per point. -/
def pts (g : (⟨S8x6x41x16x44x3, .i32⟩ : BufTy).Contents (Elt F)) : (⟨S1385472x3, .i32⟩ : BufTy).Contents (Elt F) :=
  (shapeCast S1385472x3 g shapeCasts_S8x6x41x16x44x3_S1385472x3)

/-- A point lies in the grid: 0 ≤ x < 200, 0 ≤ y < 200, 0 ≤ z < 1. -/
def kept (p : (⟨S1385472x3, .i32⟩ : BufTy).Contents (Elt F)) : (⟨S1385472, .i1⟩ : BufTy).Contents (Elt F) :=
  ((andi : (⟨S1385472, .i1⟩ : BufTy).Contents (Elt F) → (⟨S1385472, .i1⟩ : BufTy).Contents (Elt F) → (⟨S1385472, .i1⟩ : BufTy).Contents (Elt F)) ((andi : (⟨S1385472, .i1⟩ : BufTy).Contents (Elt F) → (⟨S1385472, .i1⟩ : BufTy).Contents (Elt F) → (⟨S1385472, .i1⟩ : BufTy).Contents (Elt F)) ((andi : (⟨S1385472, .i1⟩ : BufTy).Contents (Elt F) → (⟨S1385472, .i1⟩ : BufTy).Contents (Elt F) → (⟨S1385472, .i1⟩ : BufTy).Contents (Elt F)) ((andi : (⟨S1385472, .i1⟩ : BufTy).Contents (Elt F) → (⟨S1385472, .i1⟩ : BufTy).Contents (Elt F) → (⟨S1385472, .i1⟩ : BufTy).Contents (Elt F)) ((andi : (⟨S1385472, .i1⟩ : BufTy).Contents (Elt F) → (⟨S1385472, .i1⟩ : BufTy).Contents (Elt F) → (⟨S1385472, .i1⟩ : BufTy).Contents (Elt F)) ((cmpi .sge : (⟨S1385472, .i32⟩ : BufTy).Contents (Elt F) → (⟨S1385472, .i32⟩ : BufTy).Contents (Elt F) → (⟨S1385472, .i1⟩ : BufTy).Contents (Elt F)) (shapeCast S1385472 (((extractStridedSlice S1385472x1 ![0, 0] · slices_S1385472x3_S1385472x1_0_0) : (⟨S1385472x3, .i32⟩ : BufTy).Contents (Elt F) → (⟨S1385472x1, .i32⟩ : BufTy).Contents (Elt F)) p) shapeCasts_S1385472x1_S1385472) ((broadcastInDim S1385472 ![] bcast_S_S1385472 : (⟨S_, .i32⟩ : BufTy).Contents (Elt F) → (⟨S1385472, .i32⟩ : BufTy).Contents (Elt F)) ((constantI S_ 32 0#32)))) ((cmpi .slt : (⟨S1385472, .i32⟩ : BufTy).Contents (Elt F) → (⟨S1385472, .i32⟩ : BufTy).Contents (Elt F) → (⟨S1385472, .i1⟩ : BufTy).Contents (Elt F)) (shapeCast S1385472 (((extractStridedSlice S1385472x1 ![0, 0] · slices_S1385472x3_S1385472x1_0_0) : (⟨S1385472x3, .i32⟩ : BufTy).Contents (Elt F) → (⟨S1385472x1, .i32⟩ : BufTy).Contents (Elt F)) p) shapeCasts_S1385472x1_S1385472) ((broadcastInDim S1385472 ![] bcast_S_S1385472 : (⟨S_, .i32⟩ : BufTy).Contents (Elt F) → (⟨S1385472, .i32⟩ : BufTy).Contents (Elt F)) ((constantI S_ 32 200#32))))) ((cmpi .sge : (⟨S1385472, .i32⟩ : BufTy).Contents (Elt F) → (⟨S1385472, .i32⟩ : BufTy).Contents (Elt F) → (⟨S1385472, .i1⟩ : BufTy).Contents (Elt F)) (shapeCast S1385472 (((extractStridedSlice S1385472x1 ![0, 1] · slices_S1385472x3_S1385472x1_0_1) : (⟨S1385472x3, .i32⟩ : BufTy).Contents (Elt F) → (⟨S1385472x1, .i32⟩ : BufTy).Contents (Elt F)) p) shapeCasts_S1385472x1_S1385472) ((broadcastInDim S1385472 ![] bcast_S_S1385472 : (⟨S_, .i32⟩ : BufTy).Contents (Elt F) → (⟨S1385472, .i32⟩ : BufTy).Contents (Elt F)) ((constantI S_ 32 0#32))))) ((cmpi .slt : (⟨S1385472, .i32⟩ : BufTy).Contents (Elt F) → (⟨S1385472, .i32⟩ : BufTy).Contents (Elt F) → (⟨S1385472, .i1⟩ : BufTy).Contents (Elt F)) (shapeCast S1385472 (((extractStridedSlice S1385472x1 ![0, 1] · slices_S1385472x3_S1385472x1_0_1) : (⟨S1385472x3, .i32⟩ : BufTy).Contents (Elt F) → (⟨S1385472x1, .i32⟩ : BufTy).Contents (Elt F)) p) shapeCasts_S1385472x1_S1385472) ((broadcastInDim S1385472 ![] bcast_S_S1385472 : (⟨S_, .i32⟩ : BufTy).Contents (Elt F) → (⟨S1385472, .i32⟩ : BufTy).Contents (Elt F)) ((constantI S_ 32 200#32))))) ((cmpi .sge : (⟨S1385472, .i32⟩ : BufTy).Contents (Elt F) → (⟨S1385472, .i32⟩ : BufTy).Contents (Elt F) → (⟨S1385472, .i1⟩ : BufTy).Contents (Elt F)) (shapeCast S1385472 (((extractStridedSlice S1385472x1 ![0, 2] · slices_S1385472x3_S1385472x1_0_2) : (⟨S1385472x3, .i32⟩ : BufTy).Contents (Elt F) → (⟨S1385472x1, .i32⟩ : BufTy).Contents (Elt F)) p) shapeCasts_S1385472x1_S1385472) ((broadcastInDim S1385472 ![] bcast_S_S1385472 : (⟨S_, .i32⟩ : BufTy).Contents (Elt F) → (⟨S1385472, .i32⟩ : BufTy).Contents (Elt F)) ((constantI S_ 32 0#32))))) ((cmpi .slt : (⟨S1385472, .i32⟩ : BufTy).Contents (Elt F) → (⟨S1385472, .i32⟩ : BufTy).Contents (Elt F) → (⟨S1385472, .i1⟩ : BufTy).Contents (Elt F)) (shapeCast S1385472 (((extractStridedSlice S1385472x1 ![0, 2] · slices_S1385472x3_S1385472x1_0_2) : (⟨S1385472x3, .i32⟩ : BufTy).Contents (Elt F) → (⟨S1385472x1, .i32⟩ : BufTy).Contents (Elt F)) p) shapeCasts_S1385472x1_S1385472) ((broadcastInDim S1385472 ![] bcast_S_S1385472 : (⟨S_, .i32⟩ : BufTy).Contents (Elt F) → (⟨S1385472, .i32⟩ : BufTy).Contents (Elt F)) ((constantI S_ 32 1#32)))))

/-- The number of a point's cell: ((b · 1 + z) · 200 + x) · 200 + y, b the point's batch. -/
def seg (p : (⟨S1385472x3, .i32⟩ : BufTy).Contents (Elt F)) : (⟨S1385472, .i32⟩ : BufTy).Contents (Elt F) :=
  ((addi : (⟨S1385472, .i32⟩ : BufTy).Contents (Elt F) → (⟨S1385472, .i32⟩ : BufTy).Contents (Elt F) → (⟨S1385472, .i32⟩ : BufTy).Contents (Elt F)) ((muli : (⟨S1385472, .i32⟩ : BufTy).Contents (Elt F) → (⟨S1385472, .i32⟩ : BufTy).Contents (Elt F) → (⟨S1385472, .i32⟩ : BufTy).Contents (Elt F)) ((addi : (⟨S1385472, .i32⟩ : BufTy).Contents (Elt F) → (⟨S1385472, .i32⟩ : BufTy).Contents (Elt F) → (⟨S1385472, .i32⟩ : BufTy).Contents (Elt F)) ((muli : (⟨S1385472, .i32⟩ : BufTy).Contents (Elt F) → (⟨S1385472, .i32⟩ : BufTy).Contents (Elt F) → (⟨S1385472, .i32⟩ : BufTy).Contents (Elt F)) ((addi : (⟨S1385472, .i32⟩ : BufTy).Contents (Elt F) → (⟨S1385472, .i32⟩ : BufTy).Contents (Elt F) → (⟨S1385472, .i32⟩ : BufTy).Contents (Elt F)) ((muli : (⟨S1385472, .i32⟩ : BufTy).Contents (Elt F) → (⟨S1385472, .i32⟩ : BufTy).Contents (Elt F) → (⟨S1385472, .i32⟩ : BufTy).Contents (Elt F)) (shapeCast S1385472 ((broadcastInDim S8x173184 ![0] bcast_S8_S8x173184_0 : (⟨S8, .i32⟩ : BufTy).Contents (Elt F) → (⟨S8x173184, .i32⟩ : BufTy).Contents (Elt F)) ((iotaInDim S8 32 0))) shapeCasts_S8x173184_S1385472) ((broadcastInDim S1385472 ![] bcast_S_S1385472 : (⟨S_, .i32⟩ : BufTy).Contents (Elt F) → (⟨S1385472, .i32⟩ : BufTy).Contents (Elt F)) ((constantI S_ 32 1#32)))) (shapeCast S1385472 (((extractStridedSlice S1385472x1 ![0, 2] · slices_S1385472x3_S1385472x1_0_2) : (⟨S1385472x3, .i32⟩ : BufTy).Contents (Elt F) → (⟨S1385472x1, .i32⟩ : BufTy).Contents (Elt F)) p) shapeCasts_S1385472x1_S1385472)) ((broadcastInDim S1385472 ![] bcast_S_S1385472 : (⟨S_, .i32⟩ : BufTy).Contents (Elt F) → (⟨S1385472, .i32⟩ : BufTy).Contents (Elt F)) ((constantI S_ 32 200#32)))) (shapeCast S1385472 (((extractStridedSlice S1385472x1 ![0, 0] · slices_S1385472x3_S1385472x1_0_0) : (⟨S1385472x3, .i32⟩ : BufTy).Contents (Elt F) → (⟨S1385472x1, .i32⟩ : BufTy).Contents (Elt F)) p) shapeCasts_S1385472x1_S1385472)) ((broadcastInDim S1385472 ![] bcast_S_S1385472 : (⟨S_, .i32⟩ : BufTy).Contents (Elt F) → (⟨S1385472, .i32⟩ : BufTy).Contents (Elt F)) ((constantI S_ 32 200#32)))) (shapeCast S1385472 (((extractStridedSlice S1385472x1 ![0, 1] · slices_S1385472x3_S1385472x1_0_1) : (⟨S1385472x3, .i32⟩ : BufTy).Contents (Elt F) → (⟨S1385472x1, .i32⟩ : BufTy).Contents (Elt F)) p) shapeCasts_S1385472x1_S1385472))

/-- The cell a point is added to: its own, or cell 0 (with a zero row) when it lies outside the grid. -/
def segSel (k : (⟨S1385472, .i1⟩ : BufTy).Contents (Elt F)) (s : (⟨S1385472, .i32⟩ : BufTy).Contents (Elt F)) : (⟨S1385472, .i32⟩ : BufTy).Contents (Elt F) :=
  (select k s ((broadcastInDim S1385472 ![] bcast_S_S1385472) ((constantI S_ 32 0#32))))

/-- The softmax over the 41 depths. -/
def prob (a0 : (⟨S48x41x16x44, .f32⟩ : BufTy).Contents (Elt F)) : (⟨S48x41x16x44, .f32⟩ : BufTy).Contents (Elt F) :=
  ((Host.divf : (⟨S48x41x16x44, .f32⟩ : BufTy).Contents (Elt F) → (⟨S48x41x16x44, .f32⟩ : BufTy).Contents (Elt F) → (⟨S48x41x16x44, .f32⟩ : BufTy).Contents (Elt F)) ((Host.exp : (⟨S48x41x16x44, .f32⟩ : BufTy).Contents (Elt F) → (⟨S48x41x16x44, .f32⟩ : BufTy).Contents (Elt F)) ((subf : (⟨S48x41x16x44, .f32⟩ : BufTy).Contents (Elt F) → (⟨S48x41x16x44, .f32⟩ : BufTy).Contents (Elt F) → (⟨S48x41x16x44, .f32⟩ : BufTy).Contents (Elt F)) a0 ((broadcastInDim S48x41x16x44 ![0, 1, 2, 3] bcast_S48x1x16x44_S48x41x16x44_0_1_2_3 : (⟨S48x1x16x44, .f32⟩ : BufTy).Contents (Elt F) → (⟨S48x41x16x44, .f32⟩ : BufTy).Contents (Elt F)) ((broadcastInDim S48x1x16x44 ![0, 2, 3] bcast_S48x16x44_S48x1x16x44_0_2_3 : (⟨S48x16x44, .f32⟩ : BufTy).Contents (Elt F) → (⟨S48x1x16x44, .f32⟩ : BufTy).Contents (Elt F)) ((maximumf : (⟨S48x16x44, .f32⟩ : BufTy).Contents (Elt F) → (⟨S48x16x44, .f32⟩ : BufTy).Contents (Elt F) → (⟨S48x16x44, .f32⟩ : BufTy).Contents (Elt F)) ((broadcastInDim S48x16x44 ![] bcast_S_S48x16x44 : (⟨S_, .f32⟩ : BufTy).Contents (Elt F) → (⟨S48x16x44, .f32⟩ : BufTy).Contents (Elt F)) ((constant S_ .f32 0xFF800000#32))) (((fun x v => Host.reduce FloatOps.maximumf x v reducesTo_S48x41x16x44_S48x16x44_d1 h_S_) : (⟨S48x41x16x44, .f32⟩ : BufTy).Contents (Elt F) → (⟨S_, .f32⟩ : BufTy).Contents (Elt F) → (⟨S48x16x44, .f32⟩ : BufTy).Contents (Elt F)) a0 ((constant S_ .f32 0xFF800000#32)))))))) ((broadcastInDim S48x41x16x44 ![0, 1, 2, 3] bcast_S48x1x16x44_S48x41x16x44_0_1_2_3 : (⟨S48x1x16x44, .f32⟩ : BufTy).Contents (Elt F) → (⟨S48x41x16x44, .f32⟩ : BufTy).Contents (Elt F)) ((broadcastInDim S48x1x16x44 ![0, 2, 3] bcast_S48x16x44_S48x1x16x44_0_2_3 : (⟨S48x16x44, .f32⟩ : BufTy).Contents (Elt F) → (⟨S48x1x16x44, .f32⟩ : BufTy).Contents (Elt F)) (((fun x v => Host.reduceAdd x v reducesTo_S48x41x16x44_S48x16x44_d1 h_S_) : (⟨S48x41x16x44, .f32⟩ : BufTy).Contents (Elt F) → (⟨S_, .f32⟩ : BufTy).Contents (Elt F) → (⟨S48x16x44, .f32⟩ : BufTy).Contents (Elt F)) ((Host.exp : (⟨S48x41x16x44, .f32⟩ : BufTy).Contents (Elt F) → (⟨S48x41x16x44, .f32⟩ : BufTy).Contents (Elt F)) ((subf : (⟨S48x41x16x44, .f32⟩ : BufTy).Contents (Elt F) → (⟨S48x41x16x44, .f32⟩ : BufTy).Contents (Elt F) → (⟨S48x41x16x44, .f32⟩ : BufTy).Contents (Elt F)) a0 ((broadcastInDim S48x41x16x44 ![0, 1, 2, 3] bcast_S48x1x16x44_S48x41x16x44_0_1_2_3 : (⟨S48x1x16x44, .f32⟩ : BufTy).Contents (Elt F) → (⟨S48x41x16x44, .f32⟩ : BufTy).Contents (Elt F)) ((broadcastInDim S48x1x16x44 ![0, 2, 3] bcast_S48x16x44_S48x1x16x44_0_2_3 : (⟨S48x16x44, .f32⟩ : BufTy).Contents (Elt F) → (⟨S48x1x16x44, .f32⟩ : BufTy).Contents (Elt F)) ((maximumf : (⟨S48x16x44, .f32⟩ : BufTy).Contents (Elt F) → (⟨S48x16x44, .f32⟩ : BufTy).Contents (Elt F) → (⟨S48x16x44, .f32⟩ : BufTy).Contents (Elt F)) ((broadcastInDim S48x16x44 ![] bcast_S_S48x16x44 : (⟨S_, .f32⟩ : BufTy).Contents (Elt F) → (⟨S48x16x44, .f32⟩ : BufTy).Contents (Elt F)) ((constant S_ .f32 0xFF800000#32))) (((fun x v => Host.reduce FloatOps.maximumf x v reducesTo_S48x41x16x44_S48x16x44_d1 h_S_) : (⟨S48x41x16x44, .f32⟩ : BufTy).Contents (Elt F) → (⟨S_, .f32⟩ : BufTy).Contents (Elt F) → (⟨S48x16x44, .f32⟩ : BufTy).Contents (Elt F)) a0 ((constant S_ .f32 0xFF800000#32)))))))) ((constant S_ .f32 0x00000000#32))))))

/-- Probability × feature, one row of 64 channels per point. -/
def pf (q : (⟨S48x41x16x44, .f32⟩ : BufTy).Contents (Elt F)) (a1 : (⟨S48x64x16x44, .f32⟩ : BufTy).Contents (Elt F)) : (⟨S1385472x64, .f32⟩ : BufTy).Contents (Elt F) :=
  (shapeCast S1385472x64 (((transpose S8x6x41x16x44x64 [0, 1, 3, 4, 5, 2] · transposes_S8x6x64x41x16x44_S8x6x41x16x44x64_0_1_3_4_5_2) : (⟨S8x6x64x41x16x44, .f32⟩ : BufTy).Contents (Elt F) → (⟨S8x6x41x16x44x64, .f32⟩ : BufTy).Contents (Elt F)) (shapeCast S8x6x64x41x16x44 ((mulf : (⟨S48x64x41x16x44, .f32⟩ : BufTy).Contents (Elt F) → (⟨S48x64x41x16x44, .f32⟩ : BufTy).Contents (Elt F) → (⟨S48x64x41x16x44, .f32⟩ : BufTy).Contents (Elt F)) ((broadcastInDim S48x64x41x16x44 ![0, 1, 2, 3, 4] bcast_S48x1x41x16x44_S48x64x41x16x44_0_1_2_3_4 : (⟨S48x1x41x16x44, .f32⟩ : BufTy).Contents (Elt F) → (⟨S48x64x41x16x44, .f32⟩ : BufTy).Contents (Elt F)) ((broadcastInDim S48x1x41x16x44 ![0, 2, 3, 4] bcast_S48x41x16x44_S48x1x41x16x44_0_2_3_4 : (⟨S48x41x16x44, .f32⟩ : BufTy).Contents (Elt F) → (⟨S48x1x41x16x44, .f32⟩ : BufTy).Contents (Elt F)) q)) ((broadcastInDim S48x64x41x16x44 ![0, 1, 2, 3, 4] bcast_S48x64x1x16x44_S48x64x41x16x44_0_1_2_3_4 : (⟨S48x64x1x16x44, .f32⟩ : BufTy).Contents (Elt F) → (⟨S48x64x41x16x44, .f32⟩ : BufTy).Contents (Elt F)) ((broadcastInDim S48x64x1x16x44 ![0, 1, 3, 4] bcast_S48x64x16x44_S48x64x1x16x44_0_1_3_4 : (⟨S48x64x16x44, .f32⟩ : BufTy).Contents (Elt F) → (⟨S48x64x1x16x44, .f32⟩ : BufTy).Contents (Elt F)) a1))) shapeCasts_S48x64x41x16x44_S8x6x64x41x16x44)) shapeCasts_S8x6x41x16x44x64_S1385472x64)

/-- The rows of the points outside the grid set to zero. -/
def upd (k : (⟨S1385472, .i1⟩ : BufTy).Contents (Elt F)) (x : (⟨S1385472x64, .f32⟩ : BufTy).Contents (Elt F)) : (⟨S1385472x64, .f32⟩ : BufTy).Contents (Elt F) :=
  (select ((broadcastInDim S1385472x64 ![0, 1] bcast_S1385472x1_S1385472x64_0_1) ((broadcastInDim S1385472x1 ![0] bcast_S1385472_S1385472x1_0 : (⟨S1385472, .i1⟩ : BufTy).Contents (Elt F) → (⟨S1385472x1, .i1⟩ : BufTy).Contents (Elt F)) k)) x ((broadcastInDim S1385472x64 ![] bcast_S_S1385472x64) ((constant S_ .f32 0x00000000#32))))

/-- Each point's row added into its cell's row, from zeros. -/
def pool (s : (⟨S1385472, .i32⟩ : BufTy).Contents (Elt F)) (u : (⟨S1385472x64, .f32⟩ : BufTy).Contents (Elt F)) : (⟨S320000x64, .f32⟩ : BufTy).Contents (Elt F) :=
  (((fun x i u => Host.scatterAdd scatter_S320000x64_S1385472x1_S1385472x64_1_0_0_1 x i u) : (⟨S320000x64, .f32⟩ : BufTy).Contents (Elt F) → (⟨S1385472x1, .i32⟩ : BufTy).Contents (Elt F) → (⟨S1385472x64, .f32⟩ : BufTy).Contents (Elt F) → (⟨S320000x64, .f32⟩ : BufTy).Contents (Elt F)) ((broadcastInDim S320000x64 ![] bcast_S_S320000x64 : (⟨S_, .f32⟩ : BufTy).Contents (Elt F) → (⟨S320000x64, .f32⟩ : BufTy).Contents (Elt F)) ((constant S_ .f32 0x00000000#32))) ((broadcastInDim S1385472x1 ![0] bcast_S1385472_S1385472x1_0 : (⟨S1385472, .i32⟩ : BufTy).Contents (Elt F) → (⟨S1385472x1, .i32⟩ : BufTy).Contents (Elt F)) s) u)

/-- The cells re-laid [8·1·200·200, 64] → [8, 64, 200, 200]. -/
def tail (x : (⟨S320000x64, .f32⟩ : BufTy).Contents (Elt F)) : (⟨S8x64x200x200, .f32⟩ : BufTy).Contents (Elt F) :=
  (shapeCast S8x64x200x200 (((transpose S8x1x64x200x200 [0, 1, 4, 2, 3] · transposes_S8x1x200x200x64_S8x1x64x200x200_0_1_4_2_3) : (⟨S8x1x200x200x64, .f32⟩ : BufTy).Contents (Elt F) → (⟨S8x1x64x200x200, .f32⟩ : BufTy).Contents (Elt F)) (shapeCast S8x1x200x200x64 x shapeCasts_S320000x64_S8x1x200x200x64)) shapeCasts_S8x1x64x200x200_S8x64x200x200)

/-- The reference's result of its arguments. -/
def out (a0 : (⟨S48x41x16x44, .f32⟩ : BufTy).Contents (Elt F)) (a1 : (⟨S48x64x16x44, .f32⟩ : BufTy).Contents (Elt F)) (a2 : (⟨S8x6x41x16x44x3, .f32⟩ : BufTy).Contents (Elt F)) : (⟨S8x64x200x200, .f32⟩ : BufTy).Contents (Elt F) :=
  tail (pool (segSel (kept (pts (gi a2))) (seg (pts (gi a2)))) (upd (kept (pts (gi a2))) (pf (prob a0) a1)))

set_option maxRecDepth 16384 in
set_option maxHeartbeats 4000000 in
/-- The fold of the operations at the result buffer is `out` of the contents the arguments' buffers started with. -/
theorem out_eq (V : Valuation τ sig (Elt F)) :
    after ops V (main_v86 : DevRef τ sig)
      = out (V (main_arg0 : DevRef τ sig)) (V (main_arg1 : DevRef τ sig)) (V (main_arg2 : DevRef τ sig)) := by
  after_results_simp
  rfl

set_option maxRecDepth 16384 in
theorem arg0_eq (V : Valuation τ sig (Elt F)) : after ops V (main_arg0 : DevRef τ sig) = V (main_arg0 : DevRef τ sig) := by
  after_results_simp
set_option maxRecDepth 16384 in
theorem arg1_eq (V : Valuation τ sig (Elt F)) : after ops V (main_arg1 : DevRef τ sig) = V (main_arg1 : DevRef τ sig) := by
  after_results_simp
set_option maxRecDepth 16384 in
theorem arg2_eq (V : Valuation τ sig (Elt F)) : after ops V (main_arg2 : DevRef τ sig) = V (main_arg2 : DevRef τ sig) := by
  after_results_simp

/-- Every weakly fair execution of the reference terminates with its result at `out` of the arguments, which end
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v86).trans (out_eq _), (h c main_arg0).trans (arg0_eq _),
      (h c main_arg1).trans (arg1_eq _), (h c main_arg2).trans (arg2_eq _)⟩) (run_main m ρ)

end Cert.ReferenceIdeal.RefValue

end
-- ==== Proof.Points.lean ====
/-
  Points and their positions. A point is a camera (batch `b` of 8, camera `n` of 6), a depth `d` of 41 and a pixel
  `(h, w)` of 16 × 44; the programs list all 8·6·41·16·44 = 1385472 of them in that order, so point (b, n, d, h, w) sits at
  position `pt b n d h w = (((b·6 + n)·41 + d)·16 + h)·44 + w`, and its camera image is number `cam b n = b·6 + n` of 48.
  Every reshape the two programs make between the point-by-point layouts and the coordinate layouts is read here at
  such a position: a reshape keeps the row-major position, and the positions are compared as sums.
-/
import Idealize.ShloMosaic.Lib.ValueLayout

noncomputable section

namespace Cert.Lift

open Idealize.ShloMosaic Idealize.ShloMosaic.ValueIdx

/-- The position of point (b, n, d, h, w) among all points. -/
def pt (b : Fin 8) (n : Fin 6) (d : Fin 41) (h : Fin 16) (w : Fin 44) : Fin 1385472 :=
  ⟨(((b.val * 6 + n.val) * 41 + d.val) * 16 + h.val) * 44 + w.val, by omega⟩

/-- The number of camera image (b, n) among the 48. -/
def cam (b : Fin 8) (n : Fin 6) : Fin 48 := ⟨b.val * 6 + n.val, by omega⟩

/-- The position of (n, d, h, w) within one batch's 6·41·16·44 = 173184 points. -/
def inBatch (n : Fin 6) (d : Fin 41) (h : Fin 16) (w : Fin 44) : Fin 173184 :=
  ⟨((n.val * 41 + d.val) * 16 + h.val) * 44 + w.val, by omega⟩

/-- Every position is a point's. -/
theorem exists_pt (p : Fin 1385472) : ∃ b n d h w, p = pt b n d h w :=
  ⟨⟨p.val / 173184, by omega⟩, ⟨p.val / 28864 % 6, by omega⟩, ⟨p.val / 704 % 41, by omega⟩, ⟨p.val / 44 % 16, by omega⟩,
    ⟨p.val % 44, by omega⟩, Fin.ext (by simp only [pt]; omega)⟩

variable {α : Type}

/-- [8,6,41,16,44] listed point by point. -/
theorem flat5_apply (X : (⟨5, ![8, 6, 41, 16, 44]⟩ : Shape).Idx → α)
    (hc : (⟨5, ![8, 6, 41, 16, 44]⟩ : Shape).ShapeCasts ⟨1, ![1385472]⟩) (b : Fin 8) (n : Fin 6) (d : Fin 41) (h : Fin 16) (w : Fin 44) :
    shapeCast ⟨1, ![1385472]⟩ X hc (ix1 (pt b n d h w)) = X (ix5 b n d h w) :=
  shapeCast_apply X hc _ _ (by rw [Shape.rowMajor_val_five, Shape.rowMajor_val_one]; rfl)

/-- A trailing unit axis dropped. -/
theorem drop1_apply (X : (⟨6, ![8, 6, 41, 16, 44, 1]⟩ : Shape).Idx → α)
    (hc : (⟨6, ![8, 6, 41, 16, 44, 1]⟩ : Shape).ShapeCasts ⟨5, ![8, 6, 41, 16, 44]⟩) (b : Fin 8) (n : Fin 6) (d : Fin 41) (h : Fin 16) (w : Fin 44) :
    shapeCast ⟨5, ![8, 6, 41, 16, 44]⟩ X hc (ix5 b n d h w) = X (ix6 b n d h w (0 : Fin 1)) :=
  shapeCast_apply X hc _ _ (by rw [Shape.rowMajor_val_six, Shape.rowMajor_val_five]; show ((((b.val * 6 + n.val) * 41 + d.val) * 16 + h.val) * 44 + w.val) * 1 + 0 = (((b.val * 6 + n.val) * 41 + d.val) * 16 + h.val) * 44 + w.val; omega)

/-- [8,6,41,16,44,3] as one row of three per point. -/
theorem rows3_apply (X : (⟨6, ![8, 6, 41, 16, 44, 3]⟩ : Shape).Idx → α)
    (hc : (⟨6, ![8, 6, 41, 16, 44, 3]⟩ : Shape).ShapeCasts ⟨2, ![1385472, 3]⟩) (b : Fin 8) (n : Fin 6) (d : Fin 41) (h : Fin 16) (w : Fin 44)
    (k : Fin 3) :
    shapeCast ⟨2, ![1385472, 3]⟩ X hc (ix2 (pt b n d h w) k) = X (ix6 b n d h w k) :=
  shapeCast_apply X hc _ _ (by rw [Shape.rowMajor_val_six, Shape.rowMajor_val_two]; rfl)

/-- [8,6,41,16,44,64] as one row of 64 per point. -/
theorem rows64_apply (X : (⟨6, ![8, 6, 41, 16, 44, 64]⟩ : Shape).Idx → α)
    (hc : (⟨6, ![8, 6, 41, 16, 44, 64]⟩ : Shape).ShapeCasts ⟨2, ![1385472, 64]⟩) (b : Fin 8) (n : Fin 6) (d : Fin 41) (h : Fin 16) (w : Fin 44)
    (c : Fin 64) :
    shapeCast ⟨2, ![1385472, 64]⟩ X hc (ix2 (pt b n d h w) c) = X (ix6 b n d h w c) :=
  shapeCast_apply X hc _ _ (by rw [Shape.rowMajor_val_six, Shape.rowMajor_val_two]; rfl)

/-- A column [P, 1] as a vector [P]. -/
theorem col1_apply (X : (⟨2, ![1385472, 1]⟩ : Shape).Idx → α)
    (hc : (⟨2, ![1385472, 1]⟩ : Shape).ShapeCasts ⟨1, ![1385472]⟩) (p : Fin 1385472) :
    shapeCast ⟨1, ![1385472]⟩ X hc (ix1 p) = X (ix2 p (0 : Fin 1)) :=
  shapeCast_apply X hc _ _ (by rw [Shape.rowMajor_val_two, Shape.rowMajor_val_one]; show p.val * 1 + 0 = p.val; omega)

/-- The 48 camera images as 8 batches of 6, channel last. -/
theorem split48_apply (X : (⟨5, ![48, 41, 16, 44, 64]⟩ : Shape).Idx → α)
    (hc : (⟨5, ![48, 41, 16, 44, 64]⟩ : Shape).ShapeCasts ⟨6, ![8, 6, 41, 16, 44, 64]⟩) (b : Fin 8) (n : Fin 6) (d : Fin 41) (h : Fin 16)
    (w : Fin 44) (c : Fin 64) :
    shapeCast ⟨6, ![8, 6, 41, 16, 44, 64]⟩ X hc (ix6 b n d h w c) = X (ix5 (cam b n) d h w c) :=
  shapeCast_apply X hc _ _ (by rw [Shape.rowMajor_val_five, Shape.rowMajor_val_six]; rfl)

/-- The 48 camera images as 8 batches of 6, channel second. -/
theorem split48c_apply (X : (⟨5, ![48, 64, 41, 16, 44]⟩ : Shape).Idx → α)
    (hc : (⟨5, ![48, 64, 41, 16, 44]⟩ : Shape).ShapeCasts ⟨6, ![8, 6, 64, 41, 16, 44]⟩) (b : Fin 8) (n : Fin 6) (c : Fin 64) (d : Fin 41)
    (h : Fin 16) (w : Fin 44) :
    shapeCast ⟨6, ![8, 6, 64, 41, 16, 44]⟩ X hc (ix6 b n c d h w) = X (ix5 (cam b n) c d h w) :=
  shapeCast_apply X hc _ _ (by rw [Shape.rowMajor_val_five, Shape.rowMajor_val_six]; rfl)

/-- 8 batches of 6 cameras as 48 camera images. -/
theorem merge48_apply (X : (⟨5, ![8, 6, 41, 16, 44]⟩ : Shape).Idx → α)
    (hc : (⟨5, ![8, 6, 41, 16, 44]⟩ : Shape).ShapeCasts ⟨4, ![48, 41, 16, 44]⟩) (b : Fin 8) (n : Fin 6) (d : Fin 41) (h : Fin 16) (w : Fin 44) :
    shapeCast ⟨4, ![48, 41, 16, 44]⟩ X hc (ix4 (cam b n) d h w) = X (ix5 b n d h w) :=
  shapeCast_apply X hc _ _ (by rw [Shape.rowMajor_val_five, Shape.rowMajor_val_four]; rfl)

/-- Each batch's 173184 points in a row, listed point by point. -/
theorem batchRows_apply (X : (⟨2, ![8, 173184]⟩ : Shape).Idx → α)
    (hc : (⟨2, ![8, 173184]⟩ : Shape).ShapeCasts ⟨1, ![1385472]⟩) (b : Fin 8) (n : Fin 6) (d : Fin 41) (h : Fin 16) (w : Fin 44) :
    shapeCast ⟨1, ![1385472]⟩ X hc (ix1 (pt b n d h w)) = X (ix2 b (inBatch n d h w)) :=
  shapeCast_apply X hc _ _ (by rw [Shape.rowMajor_val_two, Shape.rowMajor_val_one]; show b.val * 173184 + (((n.val * 41 + d.val) * 16 + h.val) * 44 + w.val) = (((b.val * 6 + n.val) * 41 + d.val) * 16 + h.val) * 44 + w.val; omega)

end Cert.Lift

end
-- ==== Proof.Cells.lean ====
/-
  A point's cell, as functions of its three integer voxel coordinates (32-bit words, compared signed).
  `inGrid x y z`: the point lies in the 200 × 200 × 1 grid. `cell bt x y z`: its cell's number ((bt + z)·200 + x)·200 + y,
  `bt` the batch's word. And the one law that joins the two programs: the kernel multiplies a point's row by the bit
  "in the grid" read as a float (1 or 0), the reference keeps the row or replaces it by zeros; on the extended reals
  `x · 1 = x` and `x · 0 = 0` for EVERY x (Mathlib's convention `⊤ · 0 = 0`), so the two agree with no finiteness needed.
-/
import Idealize.ShloMosaic.PureOps.Ideal
import Idealize.ShloMosaic.Lib.ValueIdx

noncomputable section

namespace Cert.Lift

open Idealize.ShloMosaic Idealize.ShloMosaic.ValueIdx

/-- The point lies in the grid: 0 ≤ x < 200, 0 ≤ y < 200, 0 ≤ z < 1. -/
def inGrid (x y z : BitVec 32) : BitVec 1 :=
  IntOp.andi (IntOp.andi (IntOp.andi (IntOp.andi (IntOp.andi (IntOp.cmpi .sge x 0#32) (IntOp.cmpi .slt x 200#32))
    (IntOp.cmpi .sge y 0#32)) (IntOp.cmpi .slt y 200#32)) (IntOp.cmpi .sge z 0#32)) (IntOp.cmpi .slt z 1#32)

/-- The cell's number. -/
def cell (bt x y z : BitVec 32) : BitVec 32 :=
  IntOp.addi (IntOp.muli (IntOp.addi (IntOp.muli (IntOp.addi bt z) 200#32) x) 200#32) y

/-- A batch's word: its number times the one z-layer. -/
def batchWord (b : Fin 8) : BitVec 32 := IntOp.muli (BitVec.ofNat 32 b.val) 1#32

/-- The cell a point is added to: its own, or cell 0 when it lies outside the grid. -/
def cellSel (bt x y z : BitVec 32) : BitVec 32 := Scalar.select (inGrid x y z) (cell bt x y z) 0#32

/-- Multiplying by a bit's weight is keeping the value or replacing it by zero. -/
theorem mul_weight (x : EReal) (k : BitVec 1) :
    x * FloatOps.uitofp (F := Ideal) .f32 k = Scalar.select k x (Ideal.ofBits .f32 0x00000000#32) := by
  rcases BitVec.eq_zero_or_eq_one k with hk | hk <;> subst hk
  · rw [select_zero]
    show x * (((0#1 : BitVec 1).toNat : ℝ) : EReal) = _
    simp [Ideal.ofBits, Ideal.ieee]
  · rw [select_one]
    show x * (((1#1 : BitVec 1).toNat : ℝ) : EReal) = _
    simp

end Cert.Lift

end
-- ==== Proof.KerRead.lean ====
/-
  The kernel's host values read at a point (b, n, d, h, w). Its three coordinate arrays are the last-axis columns of the
  voxel coordinates; "in the grid" and the cell number are the scalar functions of those three words (and the batch's);
  the weights are the bit read as a float at the point's camera image; the rows handed to the sum are the region's
  output read at the point's camera image, depth and pixel; the cell numbers are listed in the points' order.
-/
import proofs.«181644_j3272765080377_1_alg».proof.Proof.KerHost
import proofs.«181644_j3272765080377_1_alg».proof.Proof.Points
import proofs.«181644_j3272765080377_1_alg».proof.Proof.Cells
import proofs.«181644_j3272765080377_1_alg».proof.Proof.Spec
import Idealize.ShloMosaic.Lib.IdealHost

noncomputable section

namespace Cert.KernelIdeal.KerRead

open Cert.KernelIdeal Cert.KernelIdeal.Gen Cert.KernelIdeal.KerHost Cert.Lift Idealize.ShloMosaic Idealize.ShloMosaic.ValueIdx

section Defs
variable {F : FTy → Type} [FloatOps F]

/-- The x, y, z coordinates of every point. -/
def cx (g : (⟨S8x6x41x16x44x3, .i32⟩ : BufTy).Contents (Elt F)) : (⟨S8x6x41x16x44, .i32⟩ : BufTy).Contents (Elt F) :=
  (shapeCast S8x6x41x16x44 (((extractStridedSlice S8x6x41x16x44x1 ![0, 0, 0, 0, 0, 0] · slices_S8x6x41x16x44x3_S8x6x41x16x44x1_0_0_0_0_0_0) : (⟨S8x6x41x16x44x3, .i32⟩ : BufTy).Contents (Elt F) → (⟨S8x6x41x16x44x1, .i32⟩ : BufTy).Contents (Elt F)) g) shapeCasts_S8x6x41x16x44x1_S8x6x41x16x44)
def cy (g : (⟨S8x6x41x16x44x3, .i32⟩ : BufTy).Contents (Elt F)) : (⟨S8x6x41x16x44, .i32⟩ : BufTy).Contents (Elt F) :=
  (shapeCast S8x6x41x16x44 (((extractStridedSlice S8x6x41x16x44x1 ![0, 0, 0, 0, 0, 1] · slices_S8x6x41x16x44x3_S8x6x41x16x44x1_0_0_0_0_0_1) : (⟨S8x6x41x16x44x3, .i32⟩ : BufTy).Contents (Elt F) → (⟨S8x6x41x16x44x1, .i32⟩ : BufTy).Contents (Elt F)) g) shapeCasts_S8x6x41x16x44x1_S8x6x41x16x44)
def cz (g : (⟨S8x6x41x16x44x3, .i32⟩ : BufTy).Contents (Elt F)) : (⟨S8x6x41x16x44, .i32⟩ : BufTy).Contents (Elt F) :=
  (shapeCast S8x6x41x16x44 (((extractStridedSlice S8x6x41x16x44x1 ![0, 0, 0, 0, 0, 2] · slices_S8x6x41x16x44x3_S8x6x41x16x44x1_0_0_0_0_0_2) : (⟨S8x6x41x16x44x3, .i32⟩ : BufTy).Contents (Elt F) → (⟨S8x6x41x16x44x1, .i32⟩ : BufTy).Contents (Elt F)) g) shapeCasts_S8x6x41x16x44x1_S8x6x41x16x44)

/-- Every point's batch word. -/
def bt : (⟨S8x6x41x16x44, .i32⟩ : BufTy).Contents (Elt F) :=
  ((broadcastInDim S8x6x41x16x44 ![0, 1, 2, 3, 4] bcast_S8x1x1x1x1_S8x6x41x16x44_0_1_2_3_4 : (⟨S8x1x1x1x1, .i32⟩ : BufTy).Contents (Elt F) → (⟨S8x6x41x16x44, .i32⟩ : BufTy).Contents (Elt F)) ((muli : (⟨S8x1x1x1x1, .i32⟩ : BufTy).Contents (Elt F) → (⟨S8x1x1x1x1, .i32⟩ : BufTy).Contents (Elt F) → (⟨S8x1x1x1x1, .i32⟩ : BufTy).Contents (Elt F)) ((broadcastInDim S8x1x1x1x1 ![0] bcast_S8_S8x1x1x1x1_0 : (⟨S8, .i32⟩ : BufTy).Contents (Elt F) → (⟨S8x1x1x1x1, .i32⟩ : BufTy).Contents (Elt F)) ((iotaInDim S8 32 0))) ((broadcastInDim S8x1x1x1x1 ![] bcast_S_S8x1x1x1x1 : (⟨S_, .i32⟩ : BufTy).Contents (Elt F) → (⟨S8x1x1x1x1, .i32⟩ : BufTy).Contents (Elt F)) ((constantI S_ 32 1#32)))))

/-- "In the grid" of three coordinate arrays. -/
def keptOf (x y z : (⟨S8x6x41x16x44, .i32⟩ : BufTy).Contents (Elt F)) : (⟨S8x6x41x16x44, .i1⟩ : BufTy).Contents (Elt F) :=
  ((andi : (⟨S8x6x41x16x44, .i1⟩ : BufTy).Contents (Elt F) → (⟨S8x6x41x16x44, .i1⟩ : BufTy).Contents (Elt F) → (⟨S8x6x41x16x44, .i1⟩ : BufTy).Contents (Elt F)) ((andi : (⟨S8x6x41x16x44, .i1⟩ : BufTy).Contents (Elt F) → (⟨S8x6x41x16x44, .i1⟩ : BufTy).Contents (Elt F) → (⟨S8x6x41x16x44, .i1⟩ : BufTy).Contents (Elt F)) ((andi : (⟨S8x6x41x16x44, .i1⟩ : BufTy).Contents (Elt F) → (⟨S8x6x41x16x44, .i1⟩ : BufTy).Contents (Elt F) → (⟨S8x6x41x16x44, .i1⟩ : BufTy).Contents (Elt F)) ((andi : (⟨S8x6x41x16x44, .i1⟩ : BufTy).Contents (Elt F) → (⟨S8x6x41x16x44, .i1⟩ : BufTy).Contents (Elt F) → (⟨S8x6x41x16x44, .i1⟩ : BufTy).Contents (Elt F)) ((andi : (⟨S8x6x41x16x44, .i1⟩ : BufTy).Contents (Elt F) → (⟨S8x6x41x16x44, .i1⟩ : BufTy).Contents (Elt F) → (⟨S8x6x41x16x44, .i1⟩ : BufTy).Contents (Elt F)) ((cmpi .sge : (⟨S8x6x41x16x44, .i32⟩ : BufTy).Contents (Elt F) → (⟨S8x6x41x16x44, .i32⟩ : BufTy).Contents (Elt F) → (⟨S8x6x41x16x44, .i1⟩ : BufTy).Contents (Elt F)) x ((broadcastInDim S8x6x41x16x44 ![] bcast_S_S8x6x41x16x44 : (⟨S_, .i32⟩ : BufTy).Contents (Elt F) → (⟨S8x6x41x16x44, .i32⟩ : BufTy).Contents (Elt F)) ((constantI S_ 32 0#32)))) ((cmpi .slt : (⟨S8x6x41x16x44, .i32⟩ : BufTy).Contents (Elt F) → (⟨S8x6x41x16x44, .i32⟩ : BufTy).Contents (Elt F) → (⟨S8x6x41x16x44, .i1⟩ : BufTy).Contents (Elt F)) x ((broadcastInDim S8x6x41x16x44 ![] bcast_S_S8x6x41x16x44 : (⟨S_, .i32⟩ : BufTy).Contents (Elt F) → (⟨S8x6x41x16x44, .i32⟩ : BufTy).Contents (Elt F)) ((constantI S_ 32 200#32))))) ((cmpi .sge : (⟨S8x6x41x16x44, .i32⟩ : BufTy).Contents (Elt F) → (⟨S8x6x41x16x44, .i32⟩ : BufTy).Contents (Elt F) → (⟨S8x6x41x16x44, .i1⟩ : BufTy).Contents (Elt F)) y ((broadcastInDim S8x6x41x16x44 ![] bcast_S_S8x6x41x16x44 : (⟨S_, .i32⟩ : BufTy).Contents (Elt F) → (⟨S8x6x41x16x44, .i32⟩ : BufTy).Contents (Elt F)) ((constantI S_ 32 0#32))))) ((cmpi .slt : (⟨S8x6x41x16x44, .i32⟩ : BufTy).Contents (Elt F) → (⟨S8x6x41x16x44, .i32⟩ : BufTy).Contents (Elt F) → (⟨S8x6x41x16x44, .i1⟩ : BufTy).Contents (Elt F)) y ((broadcastInDim S8x6x41x16x44 ![] bcast_S_S8x6x41x16x44 : (⟨S_, .i32⟩ : BufTy).Contents (Elt F) → (⟨S8x6x41x16x44, .i32⟩ : BufTy).Contents (Elt F)) ((constantI S_ 32 200#32))))) ((cmpi .sge : (⟨S8x6x41x16x44, .i32⟩ : BufTy).Contents (Elt F) → (⟨S8x6x41x16x44, .i32⟩ : BufTy).Contents (Elt F) → (⟨S8x6x41x16x44, .i1⟩ : BufTy).Contents (Elt F)) z ((broadcastInDim S8x6x41x16x44 ![] bcast_S_S8x6x41x16x44 : (⟨S_, .i32⟩ : BufTy).Contents (Elt F) → (⟨S8x6x41x16x44, .i32⟩ : BufTy).Contents (Elt F)) ((constantI S_ 32 0#32))))) ((cmpi .slt : (⟨S8x6x41x16x44, .i32⟩ : BufTy).Contents (Elt F) → (⟨S8x6x41x16x44, .i32⟩ : BufTy).Contents (Elt F) → (⟨S8x6x41x16x44, .i1⟩ : BufTy).Contents (Elt F)) z ((broadcastInDim S8x6x41x16x44 ![] bcast_S_S8x6x41x16x44 : (⟨S_, .i32⟩ : BufTy).Contents (Elt F) → (⟨S8x6x41x16x44, .i32⟩ : BufTy).Contents (Elt F)) ((constantI S_ 32 1#32)))))

/-- The cell numbers of a batch-word array and three coordinate arrays. -/
def segOf (t x y z : (⟨S8x6x41x16x44, .i32⟩ : BufTy).Contents (Elt F)) : (⟨S8x6x41x16x44, .i32⟩ : BufTy).Contents (Elt F) :=
  ((addi : (⟨S8x6x41x16x44, .i32⟩ : BufTy).Contents (Elt F) → (⟨S8x6x41x16x44, .i32⟩ : BufTy).Contents (Elt F) → (⟨S8x6x41x16x44, .i32⟩ : BufTy).Contents (Elt F)) ((muli : (⟨S8x6x41x16x44, .i32⟩ : BufTy).Contents (Elt F) → (⟨S8x6x41x16x44, .i32⟩ : BufTy).Contents (Elt F) → (⟨S8x6x41x16x44, .i32⟩ : BufTy).Contents (Elt F)) ((addi : (⟨S8x6x41x16x44, .i32⟩ : BufTy).Contents (Elt F) → (⟨S8x6x41x16x44, .i32⟩ : BufTy).Contents (Elt F) → (⟨S8x6x41x16x44, .i32⟩ : BufTy).Contents (Elt F)) ((muli : (⟨S8x6x41x16x44, .i32⟩ : BufTy).Contents (Elt F) → (⟨S8x6x41x16x44, .i32⟩ : BufTy).Contents (Elt F) → (⟨S8x6x41x16x44, .i32⟩ : BufTy).Contents (Elt F)) ((addi : (⟨S8x6x41x16x44, .i32⟩ : BufTy).Contents (Elt F) → (⟨S8x6x41x16x44, .i32⟩ : BufTy).Contents (Elt F) → (⟨S8x6x41x16x44, .i32⟩ : BufTy).Contents (Elt F)) t z) ((broadcastInDim S8x6x41x16x44 ![] bcast_S_S8x6x41x16x44 : (⟨S_, .i32⟩ : BufTy).Contents (Elt F) → (⟨S8x6x41x16x44, .i32⟩ : BufTy).Contents (Elt F)) ((constantI S_ 32 200#32)))) x) ((broadcastInDim S8x6x41x16x44 ![] bcast_S_S8x6x41x16x44 : (⟨S_, .i32⟩ : BufTy).Contents (Elt F) → (⟨S8x6x41x16x44, .i32⟩ : BufTy).Contents (Elt F)) ((constantI S_ 32 200#32)))) y)

theorem kept5_eq (g : (⟨S8x6x41x16x44x3, .i32⟩ : BufTy).Contents (Elt F)) : kept5 g = keptOf (cx g) (cy g) (cz g) := rfl
theorem seg5_eq (g : (⟨S8x6x41x16x44x3, .i32⟩ : BufTy).Contents (Elt F)) : seg5 g = segOf bt (cx g) (cy g) (cz g) := rfl

end Defs

abbrev S5 : Shape := ⟨5, ![8, 6, 41, 16, 44]⟩
abbrev S53 : Shape := ⟨6, ![8, 6, 41, 16, 44, 3]⟩

theorem keptOf_apply (x y z : S5.Idx → BitVec 32) (i : S5.Idx) : keptOf (F := Ideal) x y z i = inGrid (x i) (y i) (z i) := rfl
theorem segOf_apply (t x y z : S5.Idx → BitVec 32) (i : S5.Idx) : segOf (F := Ideal) t x y z i = cell (t i) (x i) (y i) (z i) := rfl
theorem segSel5_apply (k : S5.Idx → BitVec 1) (s : S5.Idx → BitVec 32) (i : S5.Idx) :
    segSel5 (F := Ideal) k s i = Scalar.select (k i) (s i) 0#32 := rfl

variable (g : S53.Idx → BitVec 32) (b : Fin 8) (n : Fin 6) (d : Fin 41) (h : Fin 16) (w : Fin 44)

theorem cx_apply : cx (F := Ideal) g (ix5 b n d h w) = g (ix6 b n d h w (0 : Fin 3)) := by
  unfold cx
  rw [drop1_apply]
  exact slice6_axis5_apply 0 g _ b n d h w (0 : Fin 1) (0 : Fin 3) rfl
theorem cy_apply : cy (F := Ideal) g (ix5 b n d h w) = g (ix6 b n d h w (1 : Fin 3)) := by
  unfold cy
  rw [drop1_apply]
  exact slice6_axis5_apply 1 g _ b n d h w (0 : Fin 1) (1 : Fin 3) rfl
theorem cz_apply : cz (F := Ideal) g (ix5 b n d h w) = g (ix6 b n d h w (2 : Fin 3)) := by
  unfold cz
  rw [drop1_apply]
  exact slice6_axis5_apply 2 g _ b n d h w (0 : Fin 1) (2 : Fin 3) rfl

theorem bt_apply : bt (F := Ideal) (ix5 b n d h w) = batchWord b := by
  unfold bt batchWord
  refine (broadcastInDim_apply _ _ _ (ix5 b n d h w) (ix5 b (0 : Fin 1) (0 : Fin 1) (0 : Fin 1) (0 : Fin 1)) (fun a => (by match a with | ⟨0, _⟩ => rfl | ⟨1, _⟩ => rfl | ⟨2, _⟩ => rfl | ⟨3, _⟩ => rfl | ⟨4, _⟩ => rfl))).trans ?_
  show IntOp.muli _ 1#32 = _
  refine congrArg (fun t => IntOp.muli t 1#32) ?_
  exact broadcastInDim_apply _ _ _ _ (ix1 b) (fun a => (by match a with | ⟨0, _⟩ => rfl))

/-- "In the grid" at a point, of the point's three voxel coordinates. -/
theorem kept5_apply : kept5 (F := Ideal) g (ix5 b n d h w)
    = inGrid (g (ix6 b n d h w (0 : Fin 3))) (g (ix6 b n d h w (1 : Fin 3))) (g (ix6 b n d h w (2 : Fin 3))) := by
  rw [kept5_eq, keptOf_apply, cx_apply, cy_apply, cz_apply]

/-- The cell number at a point. -/
theorem seg5_apply : seg5 (F := Ideal) g (ix5 b n d h w)
    = cell (batchWord b) (g (ix6 b n d h w (0 : Fin 3))) (g (ix6 b n d h w (1 : Fin 3))) (g (ix6 b n d h w (2 : Fin 3))) := by
  rw [seg5_eq, segOf_apply, cx_apply, cy_apply, cz_apply, bt_apply]

/-- The cell a point is added to, in the points' order. -/
theorem idx_apply : flat (F := Ideal) (segSel5 (kept5 g) (seg5 g)) (ix1 (pt b n d h w))
    = cellSel (batchWord b) (g (ix6 b n d h w (0 : Fin 3))) (g (ix6 b n d h w (1 : Fin 3))) (g (ix6 b n d h w (2 : Fin 3))) := by
  unfold flat
  rw [flat5_apply, segSel5_apply, kept5_apply, seg5_apply]
  rfl

/-- The weight at the point's camera image: the bit as a float. -/
theorem keptF_apply (K : S5.Idx → BitVec 1) :
    keptF (F := Ideal) K (ix4 (cam b n) d h w) = FloatOps.uitofp (F := Ideal) .f32 (K (ix5 b n d h w)) := by
  unfold keptF
  rw [merge48_apply]
  rfl

/-- The row handed to the sum for a point: the region's output at the point's camera image, depth, pixel. -/
theorem pts64_apply (O : SL.Idx → EReal) (c : Fin 64) :
    pts64 (F := Ideal) O (ix2 (pt b n d h w) c) = O (ix5 (cam b n) d h w c) := by
  unfold pts64
  rw [rows64_apply]
  show shapeCast _ O _ (ix6 b n d h w c) = _
  rw [split48_apply]

/-- The kernel's row for a point and channel: probability × feature, kept or zeroed by "in the grid". -/
theorem upd_apply (a0 : SD.Idx → EReal) (a1 : SF.Idx → EReal) (c : Fin 64) :
    pts64 (F := Ideal) (lifted a0 a1 (keptF (F := Ideal) (kept5 (F := Ideal) g))) (ix2 (pt b n d h w) c)
      = Scalar.select (inGrid (g (ix6 b n d h w (0 : Fin 3))) (g (ix6 b n d h w (1 : Fin 3))) (g (ix6 b n d h w (2 : Fin 3))))
          (soft a0 (cam b n) d h w * a1 (ix4 (cam b n) c h w)) (Ideal.ofBits .f32 0x00000000#32) := by
  rw [pts64_apply, lifted_ix5]
  unfold liftAt
  rw [keptF_apply, kept5_apply, mul_weight]

end Cert.KernelIdeal.KerRead

end
-- ==== Proof.RefCells.lean ====
/-
  The reference's integer values read at a point's position. Its three coordinate vectors are the columns of the
  points' table (one row of three voxel coordinates per point); "in the grid" and the cell number are the scalar
  functions of those three words and the batch's; a point's batch is its position's quotient by the 173184 points of
  a batch.
-/
import proofs.«181644_j3272765080377_1_alg».proof.Proof.RefValue
import proofs.«181644_j3272765080377_1_alg».proof.Proof.Points
import proofs.«181644_j3272765080377_1_alg».proof.Proof.Cells
import Idealize.ShloMosaic.Lib.IdealHost

noncomputable section

namespace Cert.ReferenceIdeal.RefCells

open Cert.ReferenceIdeal Cert.ReferenceIdeal.Gen Cert.ReferenceIdeal.RefValue Cert.Lift Idealize.ShloMosaic Idealize.ShloMosaic.ValueIdx

section Defs
variable {F : FTy → Type} [FloatOps F]

/-- The x, y, z coordinates of every point, in the points' order. -/
def rx (p : (⟨S1385472x3, .i32⟩ : BufTy).Contents (Elt F)) : (⟨S1385472, .i32⟩ : BufTy).Contents (Elt F) :=
  (shapeCast S1385472 (((extractStridedSlice S1385472x1 ![0, 0] · slices_S1385472x3_S1385472x1_0_0) : (⟨S1385472x3, .i32⟩ : BufTy).Contents (Elt F) → (⟨S1385472x1, .i32⟩ : BufTy).Contents (Elt F)) p) shapeCasts_S1385472x1_S1385472)
def ry (p : (⟨S1385472x3, .i32⟩ : BufTy).Contents (Elt F)) : (⟨S1385472, .i32⟩ : BufTy).Contents (Elt F) :=
  (shapeCast S1385472 (((extractStridedSlice S1385472x1 ![0, 1] · slices_S1385472x3_S1385472x1_0_1) : (⟨S1385472x3, .i32⟩ : BufTy).Contents (Elt F) → (⟨S1385472x1, .i32⟩ : BufTy).Contents (Elt F)) p) shapeCasts_S1385472x1_S1385472)
def rz (p : (⟨S1385472x3, .i32⟩ : BufTy).Contents (Elt F)) : (⟨S1385472, .i32⟩ : BufTy).Contents (Elt F) :=
  (shapeCast S1385472 (((extractStridedSlice S1385472x1 ![0, 2] · slices_S1385472x3_S1385472x1_0_2) : (⟨S1385472x3, .i32⟩ : BufTy).Contents (Elt F) → (⟨S1385472x1, .i32⟩ : BufTy).Contents (Elt F)) p) shapeCasts_S1385472x1_S1385472)

/-- Every point's batch word, in the points' order. -/
def bt : (⟨S1385472, .i32⟩ : BufTy).Contents (Elt F) :=
  ((muli : (⟨S1385472, .i32⟩ : BufTy).Contents (Elt F) → (⟨S1385472, .i32⟩ : BufTy).Contents (Elt F) → (⟨S1385472, .i32⟩ : BufTy).Contents (Elt F)) (shapeCast S1385472 ((broadcastInDim S8x173184 ![0] bcast_S8_S8x173184_0 : (⟨S8, .i32⟩ : BufTy).Contents (Elt F) → (⟨S8x173184, .i32⟩ : BufTy).Contents (Elt F)) ((iotaInDim S8 32 0))) shapeCasts_S8x173184_S1385472) ((broadcastInDim S1385472 ![] bcast_S_S1385472 : (⟨S_, .i32⟩ : BufTy).Contents (Elt F) → (⟨S1385472, .i32⟩ : BufTy).Contents (Elt F)) ((constantI S_ 32 1#32))))

/-- "In the grid" of three coordinate vectors. -/
def keptOf (x y z : (⟨S1385472, .i32⟩ : BufTy).Contents (Elt F)) : (⟨S1385472, .i1⟩ : BufTy).Contents (Elt F) :=
  ((andi : (⟨S1385472, .i1⟩ : BufTy).Contents (Elt F) → (⟨S1385472, .i1⟩ : BufTy).Contents (Elt F) → (⟨S1385472, .i1⟩ : BufTy).Contents (Elt F)) ((andi : (⟨S1385472, .i1⟩ : BufTy).Contents (Elt F) → (⟨S1385472, .i1⟩ : BufTy).Contents (Elt F) → (⟨S1385472, .i1⟩ : BufTy).Contents (Elt F)) ((andi : (⟨S1385472, .i1⟩ : BufTy).Contents (Elt F) → (⟨S1385472, .i1⟩ : BufTy).Contents (Elt F) → (⟨S1385472, .i1⟩ : BufTy).Contents (Elt F)) ((andi : (⟨S1385472, .i1⟩ : BufTy).Contents (Elt F) → (⟨S1385472, .i1⟩ : BufTy).Contents (Elt F) → (⟨S1385472, .i1⟩ : BufTy).Contents (Elt F)) ((andi : (⟨S1385472, .i1⟩ : BufTy).Contents (Elt F) → (⟨S1385472, .i1⟩ : BufTy).Contents (Elt F) → (⟨S1385472, .i1⟩ : BufTy).Contents (Elt F)) ((cmpi .sge : (⟨S1385472, .i32⟩ : BufTy).Contents (Elt F) → (⟨S1385472, .i32⟩ : BufTy).Contents (Elt F) → (⟨S1385472, .i1⟩ : BufTy).Contents (Elt F)) x ((broadcastInDim S1385472 ![] bcast_S_S1385472 : (⟨S_, .i32⟩ : BufTy).Contents (Elt F) → (⟨S1385472, .i32⟩ : BufTy).Contents (Elt F)) ((constantI S_ 32 0#32)))) ((cmpi .slt : (⟨S1385472, .i32⟩ : BufTy).Contents (Elt F) → (⟨S1385472, .i32⟩ : BufTy).Contents (Elt F) → (⟨S1385472, .i1⟩ : BufTy).Contents (Elt F)) x ((broadcastInDim S1385472 ![] bcast_S_S1385472 : (⟨S_, .i32⟩ : BufTy).Contents (Elt F) → (⟨S1385472, .i32⟩ : BufTy).Contents (Elt F)) ((constantI S_ 32 200#32))))) ((cmpi .sge : (⟨S1385472, .i32⟩ : BufTy).Contents (Elt F) → (⟨S1385472, .i32⟩ : BufTy).Contents (Elt F) → (⟨S1385472, .i1⟩ : BufTy).Contents (Elt F)) y ((broadcastInDim S1385472 ![] bcast_S_S1385472 : (⟨S_, .i32⟩ : BufTy).Contents (Elt F) → (⟨S1385472, .i32⟩ : BufTy).Contents (Elt F)) ((constantI S_ 32 0#32))))) ((cmpi .slt : (⟨S1385472, .i32⟩ : BufTy).Contents (Elt F) → (⟨S1385472, .i32⟩ : BufTy).Contents (Elt F) → (⟨S1385472, .i1⟩ : BufTy).Contents (Elt F)) y ((broadcastInDim S1385472 ![] bcast_S_S1385472 : (⟨S_, .i32⟩ : BufTy).Contents (Elt F) → (⟨S1385472, .i32⟩ : BufTy).Contents (Elt F)) ((constantI S_ 32 200#32))))) ((cmpi .sge : (⟨S1385472, .i32⟩ : BufTy).Contents (Elt F) → (⟨S1385472, .i32⟩ : BufTy).Contents (Elt F) → (⟨S1385472, .i1⟩ : BufTy).Contents (Elt F)) z ((broadcastInDim S1385472 ![] bcast_S_S1385472 : (⟨S_, .i32⟩ : BufTy).Contents (Elt F) → (⟨S1385472, .i32⟩ : BufTy).Contents (Elt F)) ((constantI S_ 32 0#32))))) ((cmpi .slt : (⟨S1385472, .i32⟩ : BufTy).Contents (Elt F) → (⟨S1385472, .i32⟩ : BufTy).Contents (Elt F) → (⟨S1385472, .i1⟩ : BufTy).Contents (Elt F)) z ((broadcastInDim S1385472 ![] bcast_S_S1385472 : (⟨S_, .i32⟩ : BufTy).Contents (Elt F) → (⟨S1385472, .i32⟩ : BufTy).Contents (Elt F)) ((constantI S_ 32 1#32)))))

/-- The cell numbers of a batch-word vector and three coordinate vectors. -/
def segOf (t x y z : (⟨S1385472, .i32⟩ : BufTy).Contents (Elt F)) : (⟨S1385472, .i32⟩ : BufTy).Contents (Elt F) :=
  ((addi : (⟨S1385472, .i32⟩ : BufTy).Contents (Elt F) → (⟨S1385472, .i32⟩ : BufTy).Contents (Elt F) → (⟨S1385472, .i32⟩ : BufTy).Contents (Elt F)) ((muli : (⟨S1385472, .i32⟩ : BufTy).Contents (Elt F) → (⟨S1385472, .i32⟩ : BufTy).Contents (Elt F) → (⟨S1385472, .i32⟩ : BufTy).Contents (Elt F)) ((addi : (⟨S1385472, .i32⟩ : BufTy).Contents (Elt F) → (⟨S1385472, .i32⟩ : BufTy).Contents (Elt F) → (⟨S1385472, .i32⟩ : BufTy).Contents (Elt F)) ((muli : (⟨S1385472, .i32⟩ : BufTy).Contents (Elt F) → (⟨S1385472, .i32⟩ : BufTy).Contents (Elt F) → (⟨S1385472, .i32⟩ : BufTy).Contents (Elt F)) ((addi : (⟨S1385472, .i32⟩ : BufTy).Contents (Elt F) → (⟨S1385472, .i32⟩ : BufTy).Contents (Elt F) → (⟨S1385472, .i32⟩ : BufTy).Contents (Elt F)) t z) ((broadcastInDim S1385472 ![] bcast_S_S1385472 : (⟨S_, .i32⟩ : BufTy).Contents (Elt F) → (⟨S1385472, .i32⟩ : BufTy).Contents (Elt F)) ((constantI S_ 32 200#32)))) x) ((broadcastInDim S1385472 ![] bcast_S_S1385472 : (⟨S_, .i32⟩ : BufTy).Contents (Elt F) → (⟨S1385472, .i32⟩ : BufTy).Contents (Elt F)) ((constantI S_ 32 200#32)))) y)

theorem kept_eq (p : (⟨S1385472x3, .i32⟩ : BufTy).Contents (Elt F)) : kept p = keptOf (rx p) (ry p) (rz p) := rfl
theorem seg_eq (p : (⟨S1385472x3, .i32⟩ : BufTy).Contents (Elt F)) : seg p = segOf bt (rx p) (ry p) (rz p) := rfl

end Defs

abbrev SP : Shape := ⟨1, ![1385472]⟩
abbrev SP3 : Shape := ⟨2, ![1385472, 3]⟩
abbrev S53 : Shape := ⟨6, ![8, 6, 41, 16, 44, 3]⟩

theorem keptOf_apply (x y z : SP.Idx → BitVec 32) (i : SP.Idx) : keptOf (F := Ideal) x y z i = inGrid (x i) (y i) (z i) := rfl
theorem segOf_apply (t x y z : SP.Idx → BitVec 32) (i : SP.Idx) : segOf (F := Ideal) t x y z i = cell (t i) (x i) (y i) (z i) := rfl
theorem segSel_apply (k : SP.Idx → BitVec 1) (s : SP.Idx → BitVec 32) (i : SP.Idx) :
    segSel (F := Ideal) k s i = Scalar.select (k i) (s i) 0#32 := rfl

theorem rx_apply (p : SP3.Idx → BitVec 32) (q : Fin 1385472) : rx (F := Ideal) p (ix1 q) = p (ix2 q (0 : Fin 3)) := by
  unfold rx
  rw [col1_apply]
  exact slice2_axis1_apply 0 p _ q (0 : Fin 1) (0 : Fin 3) rfl
theorem ry_apply (p : SP3.Idx → BitVec 32) (q : Fin 1385472) : ry (F := Ideal) p (ix1 q) = p (ix2 q (1 : Fin 3)) := by
  unfold ry
  rw [col1_apply]
  exact slice2_axis1_apply 1 p _ q (0 : Fin 1) (1 : Fin 3) rfl
theorem rz_apply (p : SP3.Idx → BitVec 32) (q : Fin 1385472) : rz (F := Ideal) p (ix1 q) = p (ix2 q (2 : Fin 3)) := by
  unfold rz
  rw [col1_apply]
  exact slice2_axis1_apply 2 p _ q (0 : Fin 1) (2 : Fin 3) rfl

variable (g : S53.Idx → BitVec 32) (b : Fin 8) (n : Fin 6) (d : Fin 41) (h : Fin 16) (w : Fin 44)

/-- The points' table at a point's row: its voxel coordinates. -/
theorem pts_apply (k : Fin 3) : pts (F := Ideal) g (ix2 (pt b n d h w) k) = g (ix6 b n d h w k) := by
  unfold pts
  exact rows3_apply g _ b n d h w k

theorem bt_apply : bt (F := Ideal) (ix1 (pt b n d h w)) = batchWord b := by
  unfold bt batchWord
  show IntOp.muli _ 1#32 = _
  refine congrArg (fun t => IntOp.muli t 1#32) ?_
  rw [batchRows_apply]
  exact broadcastInDim_apply _ _ _ _ (ix1 b) (fun a => (by match a with | ⟨0, _⟩ => rfl))

/-- "In the grid" at a point's position, of the point's three voxel coordinates. -/
theorem kept_apply : kept (F := Ideal) (pts (F := Ideal) g) (ix1 (pt b n d h w))
    = inGrid (g (ix6 b n d h w (0 : Fin 3))) (g (ix6 b n d h w (1 : Fin 3))) (g (ix6 b n d h w (2 : Fin 3))) := by
  rw [kept_eq, keptOf_apply, rx_apply, ry_apply, rz_apply, pts_apply, pts_apply, pts_apply]

/-- The cell number at a point's position. -/
theorem seg_apply : seg (F := Ideal) (pts (F := Ideal) g) (ix1 (pt b n d h w))
    = cell (batchWord b) (g (ix6 b n d h w (0 : Fin 3))) (g (ix6 b n d h w (1 : Fin 3))) (g (ix6 b n d h w (2 : Fin 3))) := by
  rw [seg_eq, segOf_apply, rx_apply, ry_apply, rz_apply, pts_apply, pts_apply, pts_apply, bt_apply]

/-- The cell a point is added to. -/
theorem idx_apply : segSel (F := Ideal) (kept (pts g)) (seg (pts g)) (ix1 (pt b n d h w))
    = cellSel (batchWord b) (g (ix6 b n d h w (0 : Fin 3))) (g (ix6 b n d h w (1 : Fin 3))) (g (ix6 b n d h w (2 : Fin 3))) := by
  rw [segSel_apply, kept_apply, seg_apply]
  rfl

end Cert.ReferenceIdeal.RefCells

end
-- ==== Proof.RefPf.lean ====
/-
  The reference's two point-by-point arrays read at a point.
  Row (b, n, d, h, w) of the probability × feature array holds, in column c, the probability of depth d at pixel (h, w)
  of camera image (b, n) times channel c of that pixel's feature vector: the product is formed on [48, 64, 41, 16, 44]
  (each factor repeated along the axis it lacks), the 48 images are split into 8 batches of 6, the channel axis is
  moved last, and the points are listed in order; none of this changes a value. Setting the rows of the points outside
  the grid to zero is a select, row by row, on the point's one-bit mark.
-/
import proofs.«181644_j3272765080377_1_alg».proof.Proof.RefValue
import proofs.«181644_j3272765080377_1_alg».proof.Proof.Points
import proofs.«181644_j3272765080377_1_alg».proof.Proof.Spec
import Idealize.ShloMosaic.Lib.Pipeline.Value
import Idealize.ShloMosaic.Lib.ValueLayout

noncomputable section

namespace Cert.ReferenceIdeal.RefPoints

open Cert.ReferenceIdeal Cert.ReferenceIdeal.Gen Cert.ReferenceIdeal.RefValue Cert.Lift Idealize.ShloMosaic
  Idealize.ShloMosaic.ValueIdx

/-! ## The repetitions along a missing axis -/

/-- The probabilities given a unit channel axis: (bn, 0, d, h, w) reads (bn, d, h, w). -/
theorem probUnit_apply (q : SD.Idx → EReal) (hb : S48x41x16x44.BroadcastsInDim S48x1x41x16x44 ![0, 2, 3, 4])
    (bn : Fin 48) (d : Fin 41) (h : Fin 16) (w : Fin 44) :
    broadcastInDim S48x1x41x16x44 ![0, 2, 3, 4] hb q (ix5 bn (0 : Fin 1) d h w) = q (ix4 bn d h w) :=
  broadcastInDim_apply ![0, 2, 3, 4] hb q (ix5 bn (0 : Fin 1) d h w) (ix4 bn d h w) fun a => match a with
    | ⟨0, _⟩ => rfl
    | ⟨1, _⟩ => rfl
    | ⟨2, _⟩ => rfl
    | ⟨3, _⟩ => rfl

/-- A value per (bn, d, h, w) repeated along the channels: (bn, c, d, h, w) reads (bn, 0, d, h, w). -/
theorem probAlongChannel_apply (x : (⟨5, ![48, 1, 41, 16, 44]⟩ : Shape).Idx → EReal)
    (hb : S48x1x41x16x44.BroadcastsInDim S48x64x41x16x44 ![0, 1, 2, 3, 4])
    (bn : Fin 48) (c : Fin 64) (d : Fin 41) (h : Fin 16) (w : Fin 44) :
    broadcastInDim S48x64x41x16x44 ![0, 1, 2, 3, 4] hb x (ix5 bn c d h w) = x (ix5 bn (0 : Fin 1) d h w) :=
  broadcastInDim_apply ![0, 1, 2, 3, 4] hb x (ix5 bn c d h w) (ix5 bn (0 : Fin 1) d h w) fun a => match a with
    | ⟨0, _⟩ => rfl
    | ⟨1, _⟩ => rfl
    | ⟨2, _⟩ => rfl
    | ⟨3, _⟩ => rfl
    | ⟨4, _⟩ => rfl

/-- The features given a unit depth axis: (bn, c, 0, h, w) reads (bn, c, h, w). -/
theorem featUnit_apply (a1 : SF.Idx → EReal) (hb : S48x64x16x44.BroadcastsInDim S48x64x1x16x44 ![0, 1, 3, 4])
    (bn : Fin 48) (c : Fin 64) (h : Fin 16) (w : Fin 44) :
    broadcastInDim S48x64x1x16x44 ![0, 1, 3, 4] hb a1 (ix5 bn c (0 : Fin 1) h w) = a1 (ix4 bn c h w) :=
  broadcastInDim_apply ![0, 1, 3, 4] hb a1 (ix5 bn c (0 : Fin 1) h w) (ix4 bn c h w) fun a => match a with
    | ⟨0, _⟩ => rfl
    | ⟨1, _⟩ => rfl
    | ⟨2, _⟩ => rfl
    | ⟨3, _⟩ => rfl

/-- A value per (bn, c, h, w) repeated along the depths: (bn, c, d, h, w) reads (bn, c, 0, h, w). -/
theorem featAlongDepth_apply (x : (⟨5, ![48, 64, 1, 16, 44]⟩ : Shape).Idx → EReal)
    (hb : S48x64x1x16x44.BroadcastsInDim S48x64x41x16x44 ![0, 1, 2, 3, 4])
    (bn : Fin 48) (c : Fin 64) (d : Fin 41) (h : Fin 16) (w : Fin 44) :
    broadcastInDim S48x64x41x16x44 ![0, 1, 2, 3, 4] hb x (ix5 bn c d h w) = x (ix5 bn c (0 : Fin 1) h w) :=
  broadcastInDim_apply ![0, 1, 2, 3, 4] hb x (ix5 bn c d h w) (ix5 bn c (0 : Fin 1) h w) fun a => match a with
    | ⟨0, _⟩ => rfl
    | ⟨1, _⟩ => rfl
    | ⟨2, _⟩ => rfl
    | ⟨3, _⟩ => rfl
    | ⟨4, _⟩ => rfl

/-- The channel axis moved last: (b, n, d, h, w, c) reads (b, n, c, d, h, w). -/
theorem channelLast6_apply (x : (⟨6, ![8, 6, 64, 41, 16, 44]⟩ : Shape).Idx → EReal)
    (ht : S8x6x64x41x16x44.Transposes [0, 1, 3, 4, 5, 2] S8x6x41x16x44x64)
    (b : Fin 8) (n : Fin 6) (d : Fin 41) (h : Fin 16) (w : Fin 44) (c : Fin 64) :
    transpose S8x6x41x16x44x64 [0, 1, 3, 4, 5, 2] x ht (ix6 b n d h w c) = x (ix6 b n c d h w) :=
  transpose_apply [0, 1, 3, 4, 5, 2] x ht (ix6 b n d h w c) (ix6 b n c d h w) fun a => match a with
    | ⟨0, _⟩ => rfl
    | ⟨1, _⟩ => rfl
    | ⟨2, _⟩ => rfl
    | ⟨3, _⟩ => rfl
    | ⟨4, _⟩ => rfl
    | ⟨5, _⟩ => rfl

/-! ## Probability × feature at a point -/

/-- Row (b, n, d, h, w), column c: the probability at (cam b n, d, h, w) times the feature at (cam b n, c, h, w). -/
theorem pf_apply (q : SD.Idx → EReal) (a1 : SF.Idx → EReal) (b : Fin 8) (n : Fin 6) (d : Fin 41) (h : Fin 16) (w : Fin 44)
    (c : Fin 64) :
    pf (F := Ideal) q a1 (ix2 (pt b n d h w) c) = q (ix4 (cam b n) d h w) * a1 (ix4 (cam b n) c h w) := by
  unfold pf
  refine (rows64_apply _ _ b n d h w c).trans ?_
  refine (channelLast6_apply _ _ b n d h w c).trans ?_
  refine (split48c_apply _ _ b n c d h w).trans ?_
  refine (mulf_apply (φ := .f32) _ _ (ix5 (cam b n) c d h w)).trans ?_
  refine congrArg₂ (fun x y : EReal => x * y) ?_ ?_
  · refine (probAlongChannel_apply _ _ (cam b n) c d h w).trans ?_
    exact probUnit_apply q _ (cam b n) d h w
  · refine (featAlongDepth_apply _ _ (cam b n) c d h w).trans ?_
    exact featUnit_apply a1 _ (cam b n) c h w

/-! ## The rows outside the grid set to zero -/

/-- A mark per point as a column: (p, 0) reads p. -/
theorem markColumn_apply (k : (⟨1, ![1385472]⟩ : Shape).Idx → BitVec 1) (hb : S1385472.BroadcastsInDim S1385472x1 ![0])
    (p : Fin 1385472) :
    broadcastInDim S1385472x1 ![0] hb k (ix2 p (0 : Fin 1)) = k (ix1 p) :=
  broadcastInDim_apply ![0] hb k (ix2 p (0 : Fin 1)) (ix1 p) fun a => match a with
    | ⟨0, _⟩ => rfl

/-- The column repeated along the channels: (p, c) reads (p, 0). -/
theorem markAlongChannel_apply (x : (⟨2, ![1385472, 1]⟩ : Shape).Idx → BitVec 1)
    (hb : S1385472x1.BroadcastsInDim S1385472x64 ![0, 1]) (p : Fin 1385472) (c : Fin 64) :
    broadcastInDim S1385472x64 ![0, 1] hb x (ix2 p c) = x (ix2 p (0 : Fin 1)) :=
  broadcastInDim_apply ![0, 1] hb x (ix2 p c) (ix2 p (0 : Fin 1)) fun a => match a with
    | ⟨0, _⟩ => rfl
    | ⟨1, _⟩ => rfl

/-- Row p, column c: the row's value where the point is marked, zero where it is not. -/
theorem upd_apply (k : (⟨1, ![1385472]⟩ : Shape).Idx → BitVec 1) (x : (⟨2, ![1385472, 64]⟩ : Shape).Idx → EReal)
    (p : Fin 1385472) (c : Fin 64) :
    upd (F := Ideal) k x (ix2 p c) = Scalar.select (k (ix1 p)) (x (ix2 p c)) (Ideal.ofBits .f32 0x00000000#32) := by
  unfold upd
  refine (select_apply _ _ _ (ix2 p c)).trans ?_
  refine congr (congrArg₂ Scalar.select ?_ rfl) ?_
  · refine (markAlongChannel_apply _ _ p c).trans ?_
    exact markColumn_apply k _ p
  · exact broadcastInDim_apply ![] _ _ (ix2 p c) ix0 fun a => a.elim0

end Cert.ReferenceIdeal.RefPoints

end
-- ==== Proof.RefSoft.lean ====
/-
  The reference's softmax read at a point. Its column maximum is a one-axis reduce by `max` from −∞ (then `max` with −∞
  once more, which changes nothing: a fold of `max` from `b` is at least `b`), broadcast back along the depths; its
  normalizer a one-axis sum from 0 of the exponentials, broadcast back the same way; the quotient is the extended
  reals' division. At (bn, d, h, w) this is `Cert.Lift.soft`.
-/
import proofs.«181644_j3272765080377_1_alg».proof.Proof.RefValue
import proofs.«181644_j3272765080377_1_alg».proof.Proof.Spec
import Idealize.ShloMosaic.Lib.ValueLayout
import Idealize.ShloMosaic.Lib.IdealHost
import Idealize.ShloMosaic.PureOps.Ideal.Laws

noncomputable section

namespace Cert.ReferenceIdeal.RefRead

open Cert.ReferenceIdeal Cert.ReferenceIdeal.Gen Cert.ReferenceIdeal.RefValue Cert.Lift Idealize.ShloMosaic Idealize.ShloMosaic.ValueIdx

section Defs
variable {F : FTy → Type} [FloatOps F]

/-- The column maxima, one per camera image and pixel. -/
def rmax (a0 : (⟨S48x41x16x44, .f32⟩ : BufTy).Contents (Elt F)) : (⟨S48x16x44, .f32⟩ : BufTy).Contents (Elt F) :=
  ((maximumf : (⟨S48x16x44, .f32⟩ : BufTy).Contents (Elt F) → (⟨S48x16x44, .f32⟩ : BufTy).Contents (Elt F) → (⟨S48x16x44, .f32⟩ : BufTy).Contents (Elt F)) ((broadcastInDim S48x16x44 ![] bcast_S_S48x16x44 : (⟨S_, .f32⟩ : BufTy).Contents (Elt F) → (⟨S48x16x44, .f32⟩ : BufTy).Contents (Elt F)) ((constant S_ .f32 0xFF800000#32))) (((fun x v => Host.reduce FloatOps.maximumf x v reducesTo_S48x41x16x44_S48x16x44_d1 h_S_) : (⟨S48x41x16x44, .f32⟩ : BufTy).Contents (Elt F) → (⟨S_, .f32⟩ : BufTy).Contents (Elt F) → (⟨S48x16x44, .f32⟩ : BufTy).Contents (Elt F)) a0 ((constant S_ .f32 0xFF800000#32))))

/-- The shifted logits' exponentials. -/
def rexp (a0 : (⟨S48x41x16x44, .f32⟩ : BufTy).Contents (Elt F)) : (⟨S48x41x16x44, .f32⟩ : BufTy).Contents (Elt F) :=
  ((Host.exp : (⟨S48x41x16x44, .f32⟩ : BufTy).Contents (Elt F) → (⟨S48x41x16x44, .f32⟩ : BufTy).Contents (Elt F)) ((subf : (⟨S48x41x16x44, .f32⟩ : BufTy).Contents (Elt F) → (⟨S48x41x16x44, .f32⟩ : BufTy).Contents (Elt F) → (⟨S48x41x16x44, .f32⟩ : BufTy).Contents (Elt F)) a0 ((broadcastInDim S48x41x16x44 ![0, 1, 2, 3] bcast_S48x1x16x44_S48x41x16x44_0_1_2_3 : (⟨S48x1x16x44, .f32⟩ : BufTy).Contents (Elt F) → (⟨S48x41x16x44, .f32⟩ : BufTy).Contents (Elt F)) ((broadcastInDim S48x1x16x44 ![0, 2, 3] bcast_S48x16x44_S48x1x16x44_0_2_3 : (⟨S48x16x44, .f32⟩ : BufTy).Contents (Elt F) → (⟨S48x1x16x44, .f32⟩ : BufTy).Contents (Elt F)) (rmax a0)))))

/-- The normalizers, one per camera image and pixel. -/
def rsum (a0 : (⟨S48x41x16x44, .f32⟩ : BufTy).Contents (Elt F)) : (⟨S48x16x44, .f32⟩ : BufTy).Contents (Elt F) :=
  (((fun x v => Host.reduceAdd x v reducesTo_S48x41x16x44_S48x16x44_d1 h_S_) : (⟨S48x41x16x44, .f32⟩ : BufTy).Contents (Elt F) → (⟨S_, .f32⟩ : BufTy).Contents (Elt F) → (⟨S48x16x44, .f32⟩ : BufTy).Contents (Elt F)) (rexp a0) ((constant S_ .f32 0x00000000#32)))

theorem prob_eq (a0 : (⟨S48x41x16x44, .f32⟩ : BufTy).Contents (Elt F)) :
    prob a0 = ((Host.divf : (⟨S48x41x16x44, .f32⟩ : BufTy).Contents (Elt F) → (⟨S48x41x16x44, .f32⟩ : BufTy).Contents (Elt F) → (⟨S48x41x16x44, .f32⟩ : BufTy).Contents (Elt F)) (rexp a0) ((broadcastInDim S48x41x16x44 ![0, 1, 2, 3] bcast_S48x1x16x44_S48x41x16x44_0_1_2_3 : (⟨S48x1x16x44, .f32⟩ : BufTy).Contents (Elt F) → (⟨S48x41x16x44, .f32⟩ : BufTy).Contents (Elt F)) ((broadcastInDim S48x1x16x44 ![0, 2, 3] bcast_S48x16x44_S48x1x16x44_0_2_3 : (⟨S48x16x44, .f32⟩ : BufTy).Contents (Elt F) → (⟨S48x1x16x44, .f32⟩ : BufTy).Contents (Elt F)) (rsum a0)))) := rfl

end Defs

/-- A value per (image, pixel) broadcast back along the depths, read at a point. -/
theorem keep_apply {α : Type} (X : (⟨3, ![48, 16, 44]⟩ : Shape).Idx → α)
    (h1 : (⟨3, ![48, 16, 44]⟩ : Shape).BroadcastsInDim ⟨4, ![48, 1, 16, 44]⟩ ![0, 2, 3])
    (h2 : (⟨4, ![48, 1, 16, 44]⟩ : Shape).BroadcastsInDim ⟨4, ![48, 41, 16, 44]⟩ ![0, 1, 2, 3])
    (bn : Fin 48) (d : Fin 41) (h : Fin 16) (w : Fin 44) :
    broadcastInDim ⟨4, ![48, 41, 16, 44]⟩ ![0, 1, 2, 3] h2 (broadcastInDim ⟨4, ![48, 1, 16, 44]⟩ ![0, 2, 3] h1 X) (ix4 bn d h w)
      = X (ix3 bn h w) :=
  (broadcastInDim_apply _ h2 _ (ix4 bn d h w) (ix4 bn (0 : Fin 1) h w) (fun a => (by match a with | ⟨0, _⟩ => rfl | ⟨1, _⟩ => rfl | ⟨2, _⟩ => rfl | ⟨3, _⟩ => rfl))).trans
    (broadcastInDim_apply _ h1 X (ix4 bn (0 : Fin 1) h w) (ix3 bn h w) (fun a => (by match a with | ⟨0, _⟩ => rfl | ⟨1, _⟩ => rfl | ⟨2, _⟩ => rfl)))

theorem hRed : S48x41x16x44.Reduces [1] S48x16x44 := by decide

/-- The index over (bn, h, w) with depth k inserted. -/
theorem lift_eq (bn : Fin 48) (h : Fin 16) (w : Fin 44) (k : Fin 41) : hRed.lift (ix3 bn h w) k = ix4 bn k h w :=
  funext fun a => Fin.ext (by match a with | ⟨0, _⟩ => rfl | ⟨1, _⟩ => rfl | ⟨2, _⟩ => rfl | ⟨3, _⟩ => rfl)

/-! ## The reductions and the pointwise steps over variables -/

/-- A one-axis reduce by the maximum over the depths, from the element init holds, read at (bn, h, w): the fold of max over
    the column's 41 entries. -/
theorem hostMax_apply (x : SD.Idx → EReal) (init : (⟨0, ![]⟩ : Shape).Idx → EReal)
    (h' : S48x41x16x44.ReducesTo [1] S48x16x44) (hu : 0 < S_.numel) (bn : Fin 48) (h : Fin 16) (w : Fin 44) :
    Host.reduce (FloatOps.maximumf (F := Ideal) (φ := .f32)) x init h' hu (ix3 bn h w)
      = (Finset.univ : Finset (Fin 41)).fold max (init (Shape.Idx.first hu)) (fun k => x (ix4 bn k h w)) := by
  refine (Host.reduce_eq_fold_single (FloatOps.maximumf (F := Ideal) (φ := .f32)) x init h' hRed hu (ix3 bn h w)).trans ?_
  exact congrArg (fun f => (Finset.univ : Finset (Fin 41)).fold max (init (Shape.Idx.first hu)) f)
    (funext fun k => congrArg x (lift_eq bn h w k))

/-- A one-axis sum over the depths, from the element init holds, read at (bn, h, w): that element plus the sum of the
    column's 41 entries. -/
theorem hostSum_apply (x : SD.Idx → EReal) (init : (⟨0, ![]⟩ : Shape).Idx → EReal)
    (h' : S48x41x16x44.ReducesTo [1] S48x16x44) (hu : 0 < S_.numel) (bn : Fin 48) (h : Fin 16) (w : Fin 44) :
    Host.reduceAdd (F := Ideal) (φ := .f32) x init h' hu (ix3 bn h w)
      = init (Shape.Idx.first hu) + ∑ k : Fin 41, x (ix4 bn k h w) := by
  refine (hostReduceAdd_apply (φ := .f32) x init h' hu (ix3 bn h w)).trans ?_
  refine (Ideal.hostReduceAdd_single h' hRed x (init (Shape.Idx.first hu)) (ix3 bn h w)).trans ?_
  exact congrArg (fun s => init (Shape.Idx.first hu) + s)
    (Finset.sum_congr rfl fun k _ => congrArg x (lift_eq bn h w k))

/-- A scalar repeated over (image, pixel) reads the scalar. -/
theorem scalarKeep_apply (hb : S_.BroadcastsInDim S48x16x44 ![]) (b : BitVec 32) (j : (⟨3, ![48, 16, 44]⟩ : Shape).Idx) :
    broadcastInDim S48x16x44 ![] hb (constant (F := Ideal) S_ .f32 b) j = Ideal.ofBits .f32 b :=
  broadcastInDim_apply ![] hb (constant (F := Ideal) S_ .f32 b) j ix0 fun a => a.elim0

/-- A logit minus its (image, pixel)'s value M, exponentiated, at a point. -/
theorem expShift_apply (x : SD.Idx → EReal) (M : (⟨3, ![48, 16, 44]⟩ : Shape).Idx → EReal)
    (h1 : (⟨3, ![48, 16, 44]⟩ : Shape).BroadcastsInDim ⟨4, ![48, 1, 16, 44]⟩ ![0, 2, 3])
    (h2 : (⟨4, ![48, 1, 16, 44]⟩ : Shape).BroadcastsInDim ⟨4, ![48, 41, 16, 44]⟩ ![0, 1, 2, 3])
    (bn : Fin 48) (d : Fin 41) (h : Fin 16) (w : Fin 44) :
    Host.exp (F := Ideal) (φ := .f32)
        (subf x (broadcastInDim ⟨4, ![48, 41, 16, 44]⟩ ![0, 1, 2, 3] h2 (broadcastInDim ⟨4, ![48, 1, 16, 44]⟩ ![0, 2, 3] h1 M)))
        (ix4 bn d h w)
      = Ideal.exp (x (ix4 bn d h w) - M (ix3 bn h w)) :=
  congrArg (fun m => Ideal.exp (x (ix4 bn d h w) - m)) (keep_apply M h1 h2 bn d h w)

/-- A value divided by its (image, pixel)'s value S, at a point. -/
theorem divKeep_apply (x : SD.Idx → EReal) (S : (⟨3, ![48, 16, 44]⟩ : Shape).Idx → EReal)
    (h1 : (⟨3, ![48, 16, 44]⟩ : Shape).BroadcastsInDim ⟨4, ![48, 1, 16, 44]⟩ ![0, 2, 3])
    (h2 : (⟨4, ![48, 1, 16, 44]⟩ : Shape).BroadcastsInDim ⟨4, ![48, 41, 16, 44]⟩ ![0, 1, 2, 3])
    (bn : Fin 48) (d : Fin 41) (h : Fin 16) (w : Fin 44) :
    Host.divf (F := Ideal) (φ := .f32) x
        (broadcastInDim ⟨4, ![48, 41, 16, 44]⟩ ![0, 1, 2, 3] h2 (broadcastInDim ⟨4, ![48, 1, 16, 44]⟩ ![0, 2, 3] h1 S))
        (ix4 bn d h w)
      = Ideal.div (x (ix4 bn d h w)) (S (ix3 bn h w)) :=
  congrArg (fun s => Ideal.div (x (ix4 bn d h w)) s) (keep_apply S h1 h2 bn d h w)

/-- The maximum of −∞ and a fold of max from −∞ is the fold. -/
theorem max_fold_self (b : EReal) (f : Fin 41 → EReal) :
    max b ((Finset.univ : Finset (Fin 41)).fold max b f) = (Finset.univ : Finset (Fin 41)).fold max b f :=
  max_eq_right ((Finset.le_fold_max b).mpr (Or.inl le_rfl))

/-! ## The reference's softmax at a point -/

theorem rmax_apply (a0 : SD.Idx → EReal) (bn : Fin 48) (h : Fin 16) (w : Fin 44) :
    rmax (F := Ideal) a0 (ix3 bn h w) = colMax a0 bn h w := by
  unfold rmax
  refine (maximumf_apply (φ := .f32) _ _ (ix3 bn h w)).trans ?_
  refine (congrArg₂ (fun p q : EReal => max p q) (scalarKeep_apply _ _ (ix3 bn h w))
    (hostMax_apply a0 _ _ _ bn h w)).trans ?_
  exact max_fold_self (Ideal.ofBits .f32 0xFF800000#32) (fun k => a0 (ix4 bn k h w))

theorem rexp_apply (a0 : SD.Idx → EReal) (bn : Fin 48) (d : Fin 41) (h : Fin 16) (w : Fin 44) :
    rexp (F := Ideal) a0 (ix4 bn d h w) = colExp a0 bn d h w := by
  unfold rexp
  refine (expShift_apply a0 (rmax (F := Ideal) a0) _ _ bn d h w).trans ?_
  exact congrArg (fun m => Ideal.exp (a0 (ix4 bn d h w) - m)) (rmax_apply a0 bn h w)

theorem rsum_apply (a0 : SD.Idx → EReal) (bn : Fin 48) (h : Fin 16) (w : Fin 44) :
    rsum (F := Ideal) a0 (ix3 bn h w) = colSum a0 bn h w := by
  unfold rsum
  refine (hostSum_apply (rexp (F := Ideal) a0) _ _ _ bn h w).trans ?_
  show Ideal.ofBits .f32 0x00000000#32 + ∑ k : Fin 41, rexp (F := Ideal) a0 (ix4 bn k h w) = _
  rw [Ideal.ofBits_zero_f32, zero_add]
  exact Finset.sum_congr rfl fun k _ => rexp_apply a0 bn k h w

/-- The reference's depth distribution at a point is the softmax over the point's depth column. -/
theorem prob_apply (a0 : SD.Idx → EReal) (bn : Fin 48) (d : Fin 41) (h : Fin 16) (w : Fin 44) :
    prob (F := Ideal) a0 (ix4 bn d h w) = soft a0 bn d h w := by
  refine (congrFun (prob_eq (F := Ideal) a0) (ix4 bn d h w)).trans ?_
  refine (divKeep_apply (rexp (F := Ideal) a0) (rsum (F := Ideal) a0) _ _ bn d h w).trans ?_
  exact congrArg₂ Ideal.div (rexp_apply a0 bn d h w) (rsum_apply a0 bn h w)

end Cert.ReferenceIdeal.RefRead

end
-- ==== Proof.Bridge.lean ====
/-
  The two programs end at one value. Both add, cell by cell, rows listed in the points' order, and re-lay the cells the
  same way; so it is enough that the two lists of cell numbers agree and the two lists of rows agree. At the position of
  point (b, n, d, h, w): both cell numbers are `cellSel` of the batch's word and the point's three voxel coordinates;
  both rows are, per channel c, `soft · feature` kept where the point lies in the grid and zero elsewhere — the kernel
  by multiplying with the bit's weight, the reference by selecting (`Cert.Lift.mul_weight`). Every position is a point's.
-/
import proofs.«181644_j3272765080377_1_alg».proof.Proof.KerRead
import proofs.«181644_j3272765080377_1_alg».proof.Proof.RefCells
import proofs.«181644_j3272765080377_1_alg».proof.Proof.RefPf
import proofs.«181644_j3272765080377_1_alg».proof.Proof.RefSoft

noncomputable section

namespace Cert.Lift.Bridge

open Cert.Lift Idealize.ShloMosaic Idealize.ShloMosaic.ValueIdx

abbrev S53 : Shape := ⟨6, ![8, 6, 41, 16, 44, 3]⟩

/-- The voxel coordinates are one function of the geometry in both programs: the same operations on the same literals. -/
theorem gi_eq (a2 : S53.Idx → EReal) : Cert.KernelIdeal.KerHost.gi (F := Ideal) a2 = Cert.ReferenceIdeal.RefValue.gi (F := Ideal) a2 := rfl

/-- The summing and the re-layout are one function in both programs. -/
theorem tail_pool_eq (s : (⟨1, ![1385472]⟩ : Shape).Idx → BitVec 32) (u : (⟨2, ![1385472, 64]⟩ : Shape).Idx → EReal) :
    Cert.KernelIdeal.KerHost.tail (F := Ideal) (Cert.KernelIdeal.KerHost.pool (F := Ideal) s u)
      = Cert.ReferenceIdeal.RefValue.tail (F := Ideal) (Cert.ReferenceIdeal.RefValue.pool (F := Ideal) s u) := rfl

/-- The two lists of cell numbers agree. -/
theorem idx_eq (g : S53.Idx → BitVec 32) :
    Cert.KernelIdeal.KerHost.flat (F := Ideal) (Cert.KernelIdeal.KerHost.segSel5 (Cert.KernelIdeal.KerHost.kept5 g) (Cert.KernelIdeal.KerHost.seg5 g))
      = Cert.ReferenceIdeal.RefValue.segSel (F := Ideal) (Cert.ReferenceIdeal.RefValue.kept (Cert.ReferenceIdeal.RefValue.pts g))
          (Cert.ReferenceIdeal.RefValue.seg (Cert.ReferenceIdeal.RefValue.pts g)) := by
  funext i
  obtain ⟨p, rfl⟩ : ∃ p : Fin 1385472, i = ix1 p := ⟨i 0, eq_ix1 i⟩
  obtain ⟨b, n, d, h, w, rfl⟩ := exists_pt p
  rw [Cert.KernelIdeal.KerRead.idx_apply, Cert.ReferenceIdeal.RefCells.idx_apply]

/-- The two lists of rows agree. -/
theorem upd_eq (a0 : SD.Idx → EReal) (a1 : SF.Idx → EReal) (g : S53.Idx → BitVec 32) :
    Cert.KernelIdeal.KerHost.pts64 (F := Ideal) (lifted a0 a1 (Cert.KernelIdeal.KerHost.keptF (F := Ideal) (Cert.KernelIdeal.KerHost.kept5 (F := Ideal) g)))
      = Cert.ReferenceIdeal.RefValue.upd (F := Ideal) (Cert.ReferenceIdeal.RefValue.kept (Cert.ReferenceIdeal.RefValue.pts g))
          (Cert.ReferenceIdeal.RefValue.pf (Cert.ReferenceIdeal.RefValue.prob a0) a1) := by
  funext i
  obtain ⟨p, c, rfl⟩ : ∃ (p : Fin 1385472) (c : Fin 64), i = ix2 p c := ⟨i 0, i 1, eq_ix2 i⟩
  obtain ⟨b, n, d, h, w, rfl⟩ := exists_pt p
  rw [Cert.KernelIdeal.KerRead.upd_apply, Cert.ReferenceIdeal.RefPoints.upd_apply, Cert.ReferenceIdeal.RefCells.kept_apply,
    Cert.ReferenceIdeal.RefPoints.pf_apply, Cert.ReferenceIdeal.RefRead.prob_apply]

/-- The kernel's result, read off its region's output and its host lines, is the reference's result of the same arguments. -/
theorem out_eq (a0 : SD.Idx → EReal) (a1 : SF.Idx → EReal) (a2 : S53.Idx → EReal) :
    Cert.KernelIdeal.KerHost.tail (F := Ideal) (Cert.KernelIdeal.KerHost.pool (F := Ideal)
        (Cert.KernelIdeal.KerHost.flat (F := Ideal) (Cert.KernelIdeal.KerHost.segSel5 (F := Ideal) (Cert.KernelIdeal.KerHost.kept5 (F := Ideal) (Cert.KernelIdeal.KerHost.gi (F := Ideal) a2))
          (Cert.KernelIdeal.KerHost.seg5 (F := Ideal) (Cert.KernelIdeal.KerHost.gi (F := Ideal) a2))))
        (Cert.KernelIdeal.KerHost.pts64 (F := Ideal) (lifted a0 a1 (Cert.KernelIdeal.KerHost.keptF (F := Ideal) (Cert.KernelIdeal.KerHost.kept5 (F := Ideal) (Cert.KernelIdeal.KerHost.gi (F := Ideal) a2))))))
      = Cert.ReferenceIdeal.RefValue.out (F := Ideal) a0 a1 a2 := by
  unfold Cert.ReferenceIdeal.RefValue.out
  rw [tail_pool_eq, gi_eq, idx_eq, upd_eq]

end Cert.Lift.Bridge

end
-- ==== Proof.lean ====
/-
  The certificate of the lift-and-splat kernel against its jnp reference, over the extended reals.
  Both programs turn each camera pixel's 41 depth logits into a distribution, weight the pixel's 64 features by it,
  and add every resulting point's row into the cell of a 200 × 200 grid its geometry falls in (rows of points outside
  the grid count as zero); they differ in layout (the kernel lifts one camera image per grid point, channel last, and
  rounds to bf16 on the way, which at the ideal values is the identity) and in how a point outside the grid is
  silenced (a 0/1 weight multiplied in, against a select). The frames of the two kernel programs are generated; the
  reference's frame is its run with the result dropped; the idealization rewrote nothing; and the equality of results is
  `Cert.Lift.Bridge.out_eq` between the kernel's result read off its frame run (region output = `Cert.Lift.lifted`,
  then the host lines after the region) and the reference's run.
-/
import proofs.«181644_j3272765080377_1_alg».proof.Defs
import proofs.«181644_j3272765080377_1_alg».proof.Proof.Gen.Kernel
import proofs.«181644_j3272765080377_1_alg».proof.Proof.Gen.Kernel.Frame
import proofs.«181644_j3272765080377_1_alg».proof.Proof.Gen.KernelIdeal
import proofs.«181644_j3272765080377_1_alg».proof.Proof.Gen.KernelIdeal.Frame
import proofs.«181644_j3272765080377_1_alg».proof.Proof.Gen.ReferenceIdeal
import proofs.«181644_j3272765080377_1_alg».proof.Proof.Gen.Pre_finite_inputs
import proofs.«181644_j3272765080377_1_alg».proof.Proof.KerBlocks
import proofs.«181644_j3272765080377_1_alg».proof.Proof.KerHost
import proofs.«181644_j3272765080377_1_alg».proof.Proof.RefValue
import proofs.«181644_j3272765080377_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

open Cert.KernelIdeal Cert.KernelIdeal.Gen in
/-- The kernel's run: its result buffer ends at the reference's function of the launch contents of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v59)
            = Cert.ReferenceIdeal.RefValue.out (F := Ideal) (m ((c.tc : Thread nD τ).loc main_arg0)) (m ((c.tc : Thread nD τ).loc main_arg1))
                (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) := by
  refine (θ_run defs _ _).mono (fun r h c => ?_) (Gen.run_main m ρ)
  have h59 := (h c).2 main_v59 (Pipeline.mem_restRefs_of main_v59 (by decide) (by decide))
  have h0 := ((h c).1 0).trans (((Gen.dats m 0 c).arrAt_in 0 rfl _).trans ((Gen.A_eq m c 0).trans (Gen.V_main_arg0 m c)))
  have h1 := ((h c).1 1).trans (((Gen.dats m 0 c).arrAt_in 1 rfl _).trans ((Gen.A_eq m c 1).trans (Gen.V_main_arg1 m c)))
  have h2 := ((h c).2 main_arg2 (Pipeline.mem_restRefs_of main_arg2 (by decide) (by decide))).trans (Gen.W_main_arg2 m (Gen.dats m) c)
  refine ⟨h59.trans ?_, h0, h1, h2⟩
  rw [Cert.KernelIdeal.KerHost.tail_eq, Cert.KernelIdeal.KerHost.V0_v46, Cert.KernelIdeal.KerValue.final, Cert.KernelIdeal.KerHost.V_v48,
    Gen.V_main_arg0, Gen.V_main_arg1]
  exact Cert.Lift.Bridge.out_eq _ _ _

/-- From memories that agree on the arguments both programs end at one value: the reference's function of the
    arguments. -/
theorem algebraic : Cert.algebraic_KernelIdeal_ReferenceIdeal := by
  intro m ρ m' ρ' _ hagree
  refine ⟨fun c => Cert.ReferenceIdeal.RefValue.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), kernel_run m ρ, ?_⟩
  refine (θ_run Cert.ReferenceIdeal.defs _ _).mono (fun _ h c => ⟨?_, (h c).2⟩) (Cert.ReferenceIdeal.RefValue.run (F := Ideal) m' ρ')
  rw [(h c).1, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
